-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x160x1024 : Shape := ⟨3, ![16, 160, 1024]⟩
abbrev S16x1024 : Shape := ⟨2, ![16, 1024]⟩
abbrev S16x160x160x8 : Shape := ⟨4, ![16, 160, 160, 8]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S136x128 : Shape := ⟨2, ![136, 128]⟩
abbrev S_ : Shape := ⟨0, ![]⟩

class Facts : Prop where
  bcast_S_S16x160x1024 : S_.BroadcastsInDim S16x160x1024 (![] : Fin 0 → Fin S16x160x1024.rank)
  reducesTo_S16x160x1024_S_d0_1_2 : S16x160x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S16x160x160x8 : S_.BroadcastsInDim S16x160x160x8 (![] : Fin 0 → Fin S16x160x160x8.rank)
  reducesTo_S16x160x160x8_S_d0_1_2_3 : S16x160x160x8.ReducesTo [0, 1, 2, 3] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S136x128 : S_.BroadcastsInDim S136x128 (![] : Fin 0 → Fin S136x128.rank)
  reducesTo_S136x128_S_d0_1 : S136x128.ReducesTo [0, 1] S_

variable [Facts]

def fn_part2 {F : FTy → Type} [FloatOps F] (main_arg7 : FVec F S136x128 .f32) (main_arg8 : FVec F S128 .f32) (main_v33 : IVec S_ 1) : IVec S_ 1 :=
  let main_v34 : FVec F S136x128 .f32 := Host.absf main_arg7
  let main_cst_12 : FVec F S_ .f32 := constant S_ .f32 0x7F800000#32
  let main_v35 : FVec F S136x128 .f32 := broadcastInDim S136x128 ![] bcast_S_S136x128 main_cst_12
  let main_v36 : IVec S136x128 1 := cmpf .olt main_v34 main_v35
  let main_c_13 : IVec S_ 1 := constantI S_ 1 1#1
  let main_v37 : IVec S_ 1 := (fun x v => Host.reduce IntOp.andi x v reducesTo_S136x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S1024x256 .f32) (main_arg6 : FVec F S256 .f32) (main_arg7 : FVec F S136x128 .f32) (main_arg8 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S16x160x1024 .f32) (main_arg1 : FVec F S16x1024 .f32) (main_arg2 : FVec F S16x160x160x8 .f32) (main_arg3 : FVec F S1024x128 .f32) (main_arg4 : FVec F S128 .f32) (main_arg5 : FVec F S1024x256 .f32) (main_arg6 : FVec F S256 .f32) (main_arg7 : FVec F S136x128 .f32) (main_arg8 : FVec F S128 .f32) : IVec S_ 1 :=
  let main_v0 : FVec F S16x160x1024 .f32 := Host.absf main_arg0
  let main_cst : FVec F S_ .f32 := constant S_ .f32 0x7F800000#32
  let main_v1 : FVec F S16x160x1024 .f32 := broadcastInDim S16x160x1024 ![] bcast_S_S16x160x1024 main_cst
  let main_v2 : IVec S16x160x1024 1 := cmpf .olt main_v0 main_v1
  let main_c : IVec S_ 1 := constantI S_ 1 1#1
  let main_v3 : IVec S_ 1 := (fun x v => Host.reduce IntOp.andi x v reducesTo_S16x160x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16x160x160x8 .f32 := Host.absf main_arg2
  let main_cst_2 : FVec F S_ .f32 := constant S_ .f32 0x7F800000#32
  let main_v10 : FVec F S16x160x160x8 .f32 := broadcastInDim S16x160x160x8 ![] bcast_S_S16x160x160x8 main_cst_2
  let main_v11 : IVec S16x160x160x8 1 := cmpf .olt main_v9 main_v10
  let main_c_3 : IVec S_ 1 := constantI S_ 1 1#1
  let main_v12 : IVec S_ 1 := (fun x v => Host.reduce IntOp.andi x v reducesTo_S16x160x160x8_S_d0_1_2_3 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_v13 main_v16
-- ==== Kernel.lean ====
abbrev S16x160x1024 : Shape := ⟨3, ![16, 160, 1024]⟩
abbrev S16x1024 : Shape := ⟨2, ![16, 1024]⟩
abbrev S16x160x160x8 : Shape := ⟨4, ![16, 160, 160, 8]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S136x128 : Shape := ⟨2, ![136, 128]⟩
abbrev S16x160x128 : Shape := ⟨3, ![16, 160, 128]⟩
abbrev S1x160x1024 : Shape := ⟨3, ![1, 160, 1024]⟩
abbrev S1x160x128 : Shape := ⟨3, ![1, 160, 128]⟩
abbrev S160x1024 : Shape := ⟨2, ![160, 1024]⟩
abbrev S160x128 : Shape := ⟨2, ![160, 128]⟩
abbrev S1x128 : Shape := ⟨2, ![1, 128]⟩
abbrev S16x256 : Shape := ⟨2, ![16, 256]⟩
abbrev S1x256 : Shape := ⟨2, ![1, 256]⟩
abbrev S16x128 : Shape := ⟨2, ![16, 128]⟩
abbrev S_ : Shape := ⟨0, ![]⟩
abbrev S16x1x128 : Shape := ⟨3, ![16, 1, 128]⟩
abbrev S128x128 : Shape := ⟨2, ![128, 128]⟩
abbrev S8x128 : Shape := ⟨2, ![8, 128]⟩
abbrev S16x8x160x160 : Shape := ⟨4, ![16, 8, 160, 160]⟩
abbrev S16x160x160x128 : Shape := ⟨4, ![16, 160, 160, 128]⟩
abbrev S1x80x128 : Shape := ⟨3, ![1, 80, 128]⟩
abbrev S1x8x80x160 : Shape := ⟨4, ![1, 8, 80, 160]⟩
abbrev S1x1x128 : Shape := ⟨3, ![1, 1, 128]⟩
abbrev S1x80x160x128 : Shape := ⟨4, ![1, 80, 160, 128]⟩
abbrev S80x128 : Shape := ⟨2, ![80, 128]⟩
abbrev S8x80x160 : Shape := ⟨3, ![8, 80, 160]⟩
abbrev S80x1x128 : Shape := ⟨3, ![80, 1, 128]⟩
abbrev S80x160x128 : Shape := ⟨3, ![80, 160, 128]⟩
abbrev S12800x128 : Shape := ⟨2, ![12800, 128]⟩
abbrev S1x80x160 : Shape := ⟨3, ![1, 80, 160]⟩
abbrev S80x160 : Shape := ⟨2, ![80, 160]⟩
abbrev S80x160x1 : Shape := ⟨3, ![80, 160, 1]⟩
abbrev S12800 : Shape := ⟨1, ![12800]⟩
abbrev S12800x1 : Shape := ⟨2, ![12800, 1]⟩
abbrev S409600x128 : Shape := ⟨2, ![409600, 128]⟩

abbrev nBuf : Space → Nat
  | .hbm => 26
  | .vmem => 21
  | .smem => 0
  | _ => 0

abbrev bufTy : (tb : Table) → Fin (tcTables nBuf tb) → BufTy
  | .hbm, ⟨0, _⟩ => ⟨S16x160x1024, .f32⟩
  | .hbm, ⟨1, _⟩ => ⟨S16x1024, .f32⟩
  | .hbm, ⟨2, _⟩ => ⟨S16x160x160x8, .f32⟩
  | .hbm, ⟨3, _⟩ => ⟨S1024x128, .f32⟩
  | .hbm, ⟨4, _⟩ => ⟨S128, .f32⟩
  | .hbm, ⟨5, _⟩ => ⟨S1024x256, .f32⟩
  | .hbm, ⟨6, _⟩ => ⟨S256, .f32⟩
  | .hbm, ⟨7, _⟩ => ⟨S136x128, .f32⟩
  | .hbm, ⟨8, _⟩ => ⟨S128, .f32⟩
  | .hbm, ⟨9, _⟩ => ⟨S16x160x128, .bf16⟩
  | .hbm, ⟨10, _⟩ => ⟨S16x256, .f32⟩
  | .hbm, ⟨11, _⟩ => ⟨S1x256, .f32⟩
  | .hbm, ⟨12, _⟩ => ⟨S16x256, .f32⟩
  | .hbm, ⟨13, _⟩ => ⟨S16x256, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S16x1x128, .f32⟩
  | .hbm, ⟨20, _⟩ => ⟨S16x1x128, .f32⟩
  | .hbm, ⟨21, _⟩ => ⟨S128x128, .f32⟩
  | .hbm, ⟨22, _⟩ => ⟨S8x128, .f32⟩
  | .hbm, ⟨23, _⟩ => ⟨S16x8x160x160, .f32⟩
  | .hbm, ⟨24, _⟩ => ⟨S16x160x160x128, .f32⟩
  | .hbm, ⟨25, _⟩ => ⟨S409600x128, .f32⟩
  | .local _ .vmem, ⟨0, _⟩ => ⟨S1x160x1024, .f32⟩
  | .local _ .vmem, ⟨1, _⟩ => ⟨S1x160x1024, .f32⟩
  | .local _ .vmem, ⟨2, _⟩ => ⟨S1024x128, .f32⟩
  | .local _ .vmem, ⟨3, _⟩ => ⟨S128, .f32⟩
  | .local _ .vmem, ⟨4, _⟩ => ⟨S1x160x128, .bf16⟩
  | .local _ .vmem, ⟨5, _⟩ => ⟨S1x160x128, .bf16⟩
  | .local _ .vmem, ⟨6, _⟩ => ⟨S1x80x128, .bf16⟩
  | .local _ .vmem, ⟨7, _⟩ => ⟨S1x80x128, .bf16⟩
  | .local _ .vmem, ⟨8, _⟩ => ⟨S1x160x128, .bf16⟩
  | .local _ .vmem, ⟨9, _⟩ => ⟨S1x160x128, .bf16⟩
  | .local _ .vmem, ⟨10, _⟩ => ⟨S1x8x80x160, .f32⟩
  | .local _ .vmem, ⟨11, _⟩ => ⟨S1x8x80x160, .f32⟩
  | .local _ .vmem, ⟨12, _⟩ => ⟨S128x128, .f32⟩
  | .local _ .vmem, ⟨13, _⟩ => ⟨S8x128, .f32⟩
  | .local _ .vmem, ⟨14, _⟩ => ⟨S128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x80x160x128, .f32⟩
  | .local _ .vmem, ⟨20, _⟩ => ⟨S1x80x160x128, .f32⟩
  | _, _ => ⟨S16x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x160x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x80x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x160x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x80x160 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x80x160x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  inb_S1x160x1024_S1x160x1024_0_0_0 : ∀ a, (![0, 0, 0] : Fin 3 → Nat) a + S1x160x1024.size a ≤ S1x160x1024.size a
  h_S1x160x1024 : 0 < S1x160x1024.numel
  shapeCasts_S1x160x1024_S160x1024 : S1x160x1024.ShapeCasts S160x1024
  inb_S1024x128_S1024x128_0_0 : ∀ a, (![0, 0] : Fin 2 → Nat) a + S1024x128.size a ≤ S1024x128.size a
  h_S1024x128 : 0 < S1024x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S160x128 : S1x128.Broadcasts S160x128
  inb_S1x160x128_S1x160x128_0_0_0 : ∀ a, (![0, 0, 0] : Fin 3 → Nat) a + S1x160x128.size a ≤ S1x160x128.size a
  h_S1x160x128 : 0 < S1x160x128.numel
  shapeCasts_S1x160x128_S160x128 : S1x160x128.ShapeCasts S160x128
  shapeCasts_S160x128_S1x160x128 : S160x128.ShapeCasts S1x160x128
  packedbf16_S1x160x128_S1x160x128_0_0_0 : (Rect.unit (s := S1x160x128) ![0, 0, 0] S1x160x128.size inb_S1x160x128_S1x160x128_0_0_0).PackedRows (EltTy.packing .bf16)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  slices_S16x256_S16x128_0_0 : S16x256.Slices ![0, 0] S16x128
  bcast_S_S16x128 : S_.BroadcastsInDim S16x128 (![] : Fin 0 → Fin S16x128.rank)
  slices_S16x256_S16x128_0_128 : S16x256.Slices ![0, 128] S16x128
  bcast_S16x128_S16x1x128_0_2 : S16x128.BroadcastsInDim S16x1x128 (![0, 2] : Fin 2 → Fin S16x1x128.rank)
  slices_S136x128_S128x128_0_0 : S136x128.Slices ![0, 0] S128x128
  slices_S136x128_S8x128_128_0 : S136x128.Slices ![128, 0] S8x128
  transposes_S16x160x160x8_S16x8x160x160_0_3_1_2 : S16x160x160x8.Transposes [0, 3, 1, 2] S16x8x160x160
  inb_S1x80x128_S1x80x128_0_0_0 : ∀ a, (![0, 0, 0] : Fin 3 → Nat) a + S1x80x128.size a ≤ S1x80x128.size a
  h_S1x80x128 : 0 < S1x80x128.numel
  shapeCasts_S1x80x128_S80x128 : S1x80x128.ShapeCasts S80x128
  inb_S1x8x80x160_S1x8x80x160_0_0_0_0 : ∀ a, (![0, 0, 0, 0] : Fin 4 → Nat) a + S1x8x80x160.size a ≤ S1x8x80x160.size a
  h_S1x8x80x160 : 0 < S1x8x80x160.numel
  shapeCasts_S1x8x80x160_S8x80x160 : S1x8x80x160.ShapeCasts S8x80x160
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S80x128_S80x1x128 : S80x128.ShapeCasts S80x1x128
  broadcasts_S80x1x128_S80x160x128 : S80x1x128.Broadcasts S80x160x128
  broadcasts_S1x160x128_S80x160x128 : S1x160x128.Broadcasts S80x160x128
  shapeCasts_S80x160x128_S12800x128 : S80x160x128.ShapeCasts S12800x128
  slices_S8x80x160_o0_0_0_S1x80x160 : S8x80x160.Slices ![0, 0, 0] S1x80x160
  shapeCasts_S1x80x160_S80x160 : S1x80x160.ShapeCasts S80x160
  shapeCasts_S80x160_S80x160x1 : S80x160.ShapeCasts S80x160x1
  slices_S8x128_o0_0_S1x128 : S8x128.Slices ![0, 0] S1x128
  shapeCasts_S1x128_S128 : S1x128.ShapeCasts S128
  shapeCasts_S128_S1x1x128 : S128.ShapeCasts S1x1x128
  broadcasts_S80x160x1_S80x160x128 : S80x160x1.Broadcasts S80x160x128
  broadcasts_S1x1x128_S80x160x128 : S1x1x128.Broadcasts S80x160x128
  slices_S8x80x160_o1_0_0_S1x80x160 : S8x80x160.Slices ![1, 0, 0] S1x80x160
  slices_S8x128_o1_0_S1x128 : S8x128.Slices ![1, 0] S1x128
  slices_S8x80x160_o2_0_0_S1x80x160 : S8x80x160.Slices ![2, 0, 0] S1x80x160
  slices_S8x128_o2_0_S1x128 : S8x128.Slices ![2, 0] S1x128
  slices_S8x80x160_o3_0_0_S1x80x160 : S8x80x160.Slices ![3, 0, 0] S1x80x160
  slices_S8x128_o3_0_S1x128 : S8x128.Slices ![3, 0] S1x128
  slices_S8x80x160_o4_0_0_S1x80x160 : S8x80x160.Slices ![4, 0, 0] S1x80x160
  slices_S8x128_o4_0_S1x128 : S8x128.Slices ![4, 0] S1x128
  slices_S8x80x160_o5_0_0_S1x80x160 : S8x80x160.Slices ![5, 0, 0] S1x80x160
  slices_S8x128_o5_0_S1x128 : S8x128.Slices ![5, 0] S1x128
  slices_S8x80x160_o6_0_0_S1x80x160 : S8x80x160.Slices ![6, 0, 0] S1x80x160
  slices_S8x128_o6_0_S1x128 : S8x128.Slices ![6, 0] S1x128
  slices_S8x80x160_o7_0_0_S1x80x160 : S8x80x160.Slices ![7, 0, 0] S1x80x160
  slices_S8x128_o7_0_S1x128 : S8x128.Slices ![7, 0] S1x128
  broadcasts_S1x128_S12800x128 : S1x128.Broadcasts S12800x128
  reduces_S12800x128_S12800 : S12800x128.Reduces [1] S12800
  shapeCasts_S12800_S12800x1 : S12800.ShapeCasts S12800x1
  broadcasts_S12800x1_S12800x128 : S12800x1.Broadcasts S12800x128
  shapeCasts_S12800x128_S80x160x128 : S12800x128.ShapeCasts S80x160x128
  inb_S1x80x160x128_S1x80x160x128_0_0_0_0 : ∀ a, (![0, 0, 0, 0] : Fin 4 → Nat) a + S1x80x160x128.size a ≤ S1x80x160x128.size a
  h_S1x80x160x128 : 0 < S1x80x160x128.numel
  shapeCasts_S1x80x160x128_S80x160x128 : S1x80x160x128.ShapeCasts S80x160x128
  shapeCasts_S80x160x128_S1x80x160x128 : S80x160x128.ShapeCasts S1x80x160x128
  shapeCasts_S16x160x160x128_S409600x128 : S16x160x160x128.ShapeCasts S409600x128
  dot_S160x1024_S1024x128_S160x128_1_0_0_1_n_n_wf : DotDims.WF S160x1024 S1024x128 S160x128 [1] [0] [0] [1] [] []
  dot_S16x1024_S1024x256_S16x256_1_0_0_1_n_n_wf : DotDims.WF S16x1024 S1024x256 S16x256 [1] [0] [0] [1] [] []
  dot_S12800x128_S128x128_S12800x128_1_0_0_1_n_n_wf : DotDims.WF S12800x128 S128x128 S12800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x160x1024.size a ≤ S16x160x1024.size a
  hwx0_0 : ∀ i : grid0.Coords, EltTy.bits .f32 = 32 ∨ (Rect.block (s := S16x160x1024) S1x160x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x160x128.size a ≤ S16x160x128.size a
  hwx0_3 : ∀ i : grid0.Coords, EltTy.bits .bf16 = 32 ∨ (Rect.block (s := S16x160x128) S1x160x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x80x128.size a ≤ S16x160x128.size a
  hwx1_0 : ∀ i : grid1.Coords, EltTy.bits .bf16 = 32 ∨ (Rect.block (s := S16x160x128) S1x80x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x160x128.size a ≤ S16x160x128.size a
  hwx1_1 : ∀ i : grid1.Coords, EltTy.bits .bf16 = 32 ∨ (Rect.block (s := S16x160x128) S1x160x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x80x160.size a ≤ S16x8x160x160.size a
  hwx1_2 : ∀ i : grid1.Coords, EltTy.bits .f32 = 32 ∨ (Rect.block (s := S16x8x160x160) S1x8x80x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S16x1x128.size a
  hwx1_6 : ∀ i : grid1.Coords, EltTy.bits .f32 = 32 ∨ (Rect.block (s := S16x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S16x1x128.size a
  hwx1_7 : ∀ i : grid1.Coords, EltTy.bits .f32 = 32 ∨ (Rect.block (s := S16x1x128) S1x1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x80x160x128.size a ≤ S16x160x160x128.size a
  hwx1_8 : ∀ i : grid1.Coords, EltTy.bits .f32 = 32 ∨ (Rect.block (s := S16x160x160x128) S1x80x160x128.size (cc1_transform_8 i) (hinb1_8 i)).WholeWords (EltTy.packing .f32)

variable [Facts₀]

def dot_S160x1024_S1024x128_S160x128_1_0_0_1_n_n : DotDims S160x1024 S1024x128 S160x128 where
  lhsContracting := [1]
  rhsContracting := [0]
  lhsNonContracting := [0]
  rhsNonContracting := [1]
  lhsBatch := []
  rhsBatch := []
  wf := dot_S160x1024_S1024x128_S160x128_1_0_0_1_n_n_wf
def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf

abbrev win0_0 : Pipeline.Window sig grid0 :=
  Pipeline.Window.ofSpec (Memref.whole main_arg0) S1x160x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x160x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x80x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x160x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x8x80x160.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x1x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x80x160x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16x160x1024 : Shape := ⟨3, ![16, 160, 1024]⟩
abbrev S16x1024 : Shape := ⟨2, ![16, 1024]⟩
abbrev S16x160x160x8 : Shape := ⟨4, ![16, 160, 160, 8]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S136x128 : Shape := ⟨2, ![136, 128]⟩
abbrev S16x160x128 : Shape := ⟨3, ![16, 160, 128]⟩
abbrev S1x1x128 : Shape := ⟨3, ![1, 1, 128]⟩
abbrev S_ : Shape := ⟨0, ![]⟩
abbrev S16x160x1x128 : Shape := ⟨4, ![16, 160, 1, 128]⟩
abbrev S16x1x160x128 : Shape := ⟨4, ![16, 1, 160, 128]⟩
abbrev S16x160x160x128 : Shape := ⟨4, ![16, 160, 160, 128]⟩
abbrev S16x160x160x136 : Shape := ⟨4, ![16, 160, 160, 136]⟩
abbrev S16x25600x136 : Shape := ⟨3, ![16, 25600, 136]⟩
abbrev S16x256 : Shape := ⟨2, ![16, 256]⟩
abbrev S1x256 : Shape := ⟨2, ![1, 256]⟩
abbrev S16x128 : Shape := ⟨2, ![16, 128]⟩
abbrev S16x25600x128 : Shape := ⟨3, ![16, 25600, 128]⟩
abbrev S16x25600 : Shape := ⟨2, ![16, 25600]⟩
abbrev S16x25600x1 : Shape := ⟨3, ![16, 25600, 1]⟩
abbrev S16x1x128 : Shape := ⟨3, ![16, 1, 128]⟩
abbrev S409600x128 : Shape := ⟨2, ![409600, 128]⟩

abbrev nBuf : Space → Nat
  | .hbm => 69
  | .vmem => 0
  | .smem => 0
  | _ => 0

abbrev bufTy : (tb : Table) → Fin (tcTables nBuf tb) → BufTy
  | .hbm, ⟨0, _⟩ => ⟨S16x160x1024, .f32⟩
  | .hbm, ⟨1, _⟩ => ⟨S16x1024, .f32⟩
  | .hbm, ⟨2, _⟩ => ⟨S16x160x160x8, .f32⟩
  | .hbm, ⟨3, _⟩ => ⟨S1024x128, .f32⟩
  | .hbm, ⟨4, _⟩ => ⟨S128, .f32⟩
  | .hbm, ⟨5, _⟩ => ⟨S1024x256, .f32⟩
  | .hbm, ⟨6, _⟩ => ⟨S256, .f32⟩
  | .hbm, ⟨7, _⟩ => ⟨S136x128, .f32⟩
  | .hbm, ⟨8, _⟩ => ⟨S128, .f32⟩
  | .hbm, ⟨9, _⟩ => ⟨S16x160x128, .f32⟩
  | .hbm, ⟨10, _⟩ => ⟨S1x1x128, .f32⟩
  | .hbm, ⟨11, _⟩ => ⟨S16x160x128, .f32⟩
  | .hbm, ⟨12, _⟩ => ⟨S16x160x128, .f32⟩
  | .hbm, ⟨13, _⟩ => ⟨S_, .f32⟩
  | .hbm, ⟨14, _⟩ => ⟨S16x160x128, .f32⟩
  | .hbm, ⟨15, _⟩ => ⟨S16x160x128, .f32⟩
  | .hbm, ⟨16, _⟩ => ⟨S16x160x1x128, .f32⟩
  | .hbm, ⟨17, _⟩ => ⟨S16x1x160x128, .f32⟩
  | .hbm, ⟨18, _⟩ => ⟨S16x160x160x128, .f32⟩
  | .hbm, ⟨19, _⟩ => ⟨S16x160x160x128, .f32⟩
  | .hbm, ⟨20, _⟩ => ⟨S16x160x160x128, .f32⟩
  | .hbm, ⟨21, _⟩ => ⟨S16x160x160x136, .f32⟩
  | .hbm, ⟨22, _⟩ => ⟨S16x25600x136, .f32⟩
  | .hbm, ⟨23, _⟩ => ⟨S16x256, .f32⟩
  | .hbm, ⟨24, _⟩ => ⟨S1x256, .f32⟩
  | .hbm, ⟨25, _⟩ => ⟨S16x256, .f32⟩
  | .hbm, ⟨26, _⟩ => ⟨S16x256, .f32⟩
  | .hbm, ⟨27, _⟩ => ⟨S16x128, .f32⟩
  | .hbm, ⟨28, _⟩ => ⟨S16x128, .f32⟩
  | .hbm, ⟨29, _⟩ => ⟨S_, .f32⟩
  | .hbm, ⟨30, _⟩ => ⟨S16x128, .f32⟩
  | .hbm, ⟨31, _⟩ => ⟨S16x128, .f32⟩
  | .hbm, ⟨32, _⟩ => ⟨S16x25600x128, .f32⟩
  | .hbm, ⟨33, _⟩ => ⟨S1x1x128, .f32⟩
  | .hbm, ⟨34, _⟩ => ⟨S16x25600x128, .f32⟩
  | .hbm, ⟨35, _⟩ => ⟨S16x25600x128, .f32⟩
  | .hbm, ⟨36, _⟩ => ⟨S_, .f32⟩
  | .hbm, ⟨37, _⟩ => ⟨S16x25600, .f32⟩
  | .hbm, ⟨38, _⟩ => ⟨S16x25600x1, .f32⟩
  | .hbm, ⟨39, _⟩ => ⟨S_, .f32⟩
  | .hbm, ⟨40, _⟩ => ⟨S16x25600x1, .f32⟩
  | .hbm, ⟨41, _⟩ => ⟨S16x25600x1, .f32⟩
  | .hbm, ⟨42, _⟩ => ⟨S16x25600x128, .f32⟩
  | .hbm, ⟨43, _⟩ => ⟨S16x25600x128, .f32⟩
  | .hbm, ⟨44, _⟩ => ⟨S16x25600x128, .f32⟩
  | .hbm, ⟨45, _⟩ => ⟨S_, .f32⟩
  | .hbm, ⟨46, _⟩ => ⟨S16x25600, .f32⟩
  | .hbm, ⟨47, _⟩ => ⟨S16x25600x1, .f32⟩
  | .hbm, ⟨48, _⟩ => ⟨S_, .f32⟩
  | .hbm, ⟨49, _⟩ => ⟨S16x25600x1, .f32⟩
  | .hbm, ⟨50, _⟩ => ⟨S16x25600x1, .f32⟩
  | .hbm, ⟨51, _⟩ => ⟨S16x25600x128, .f32⟩
  | .hbm, ⟨52, _⟩ => ⟨S16x25600x128, .f32⟩
  | .hbm, ⟨53, _⟩ => ⟨S_, .f32⟩
  | .hbm, ⟨54, _⟩ => ⟨S16x25600x1, .f32⟩
  | .hbm, ⟨55, _⟩ => ⟨S16x25600x1, .f32⟩
  | .hbm, ⟨56, _⟩ => ⟨S16x25600x1, .f32⟩
  | .hbm, ⟨57, _⟩ => ⟨S16x25600x128, .f32⟩
  | .hbm, ⟨58, _⟩ => ⟨S16x25600x128, .f32⟩
  | .hbm, ⟨59, _⟩ => ⟨S16x1x128, .f32⟩
  | .hbm, ⟨60, _⟩ => ⟨S16x25600x128, .f32⟩
  | .hbm, ⟨61, _⟩ => ⟨S16x25600x128, .f32⟩
  | .hbm, ⟨62, _⟩ => ⟨S16x1x128, .f32⟩
  | .hbm, ⟨63, _⟩ => ⟨S16x25600x128, .f32⟩
  | .hbm, ⟨64, _⟩ => ⟨S16x25600x128, .f32⟩
  | .hbm, ⟨65, _⟩ => ⟨S_, .f32⟩
  | .hbm, ⟨66, _⟩ => ⟨S16x25600x128, .f32⟩
  | .hbm, ⟨67, _⟩ => ⟨S16x25600x128, .f32⟩
  | .hbm, ⟨68, _⟩ => ⟨S409600x128, .f32⟩
  | _, _ => ⟨S16x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x160x128_0_1_2 : S1x1x128.BroadcastsInDim S16x160x128 (![0, 1, 2] : Fin 3 → Fin S16x160x128.rank)
  bcast_S_S16x160x128 : S_.BroadcastsInDim S16x160x128 (![] : Fin 0 → Fin S16x160x128.rank)
  bcast_S16x160x128_S16x160x1x128_0_1_3 : S16x160x128.BroadcastsInDim S16x160x1x128 (![0, 1, 3] : Fin 3 → Fin S16x160x1x128.rank)
  bcast_S16x160x128_S16x1x160x128_0_2_3 : S16x160x128.BroadcastsInDim S16x1x160x128 (![0, 2, 3] : Fin 3 → Fin S16x1x160x128.rank)
  bcast_S16x160x1x128_S16x160x160x128_0_1_2_3 : S16x160x1x128.BroadcastsInDim S16x160x160x128 (![0, 1, 2, 3] : Fin 4 → Fin S16x160x160x128.rank)
  bcast_S16x1x160x128_S16x160x160x128_0_1_2_3 : S16x1x160x128.BroadcastsInDim S16x160x160x128 (![0, 1, 2, 3] : Fin 4 → Fin S16x160x160x128.rank)
  concatenates_S16x160x160x128_S16x160x160x8_S16x160x160x136_d3 : Shape.Concatenates [S16x160x160x128, S16x160x160x8] S16x160x160x136 3
  shapeCasts_S16x160x160x136_S16x25600x136 : S16x160x160x136.ShapeCasts S16x25600x136
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  slices_S16x256_S16x128_0_0 : S16x256.Slices ![0, 0] S16x128
  slices_S16x256_S16x128_0_128 : S16x256.Slices ![0, 128] S16x128
  bcast_S_S16x128 : S_.BroadcastsInDim S16x128 (![] : Fin 0 → Fin S16x128.rank)
  bcast_S1x1x128_S16x25600x128_0_1_2 : S1x1x128.BroadcastsInDim S16x25600x128 (![0, 1, 2] : Fin 3 → Fin S16x25600x128.rank)
  reducesTo_S16x25600x128_S16x25600_d2 : S16x25600x128.ReducesTo [2] S16x25600
  h_S_ : 0 < S_.numel
  bcast_S16x25600_S16x25600x1_0_1 : S16x25600.BroadcastsInDim S16x25600x1 (![0, 1] : Fin 2 → Fin S16x25600x1.rank)
  bcast_S_S16x25600x1 : S_.BroadcastsInDim S16x25600x1 (![] : Fin 0 → Fin S16x25600x1.rank)
  bcast_S16x25600x1_S16x25600x128_0_1_2 : S16x25600x1.BroadcastsInDim S16x25600x128 (![0, 1, 2] : Fin 3 → Fin S16x25600x128.rank)
  bcast_S16x128_S16x1x128_0_2 : S16x128.BroadcastsInDim S16x1x128 (![0, 2] : Fin 2 → Fin S16x1x128.rank)
  bcast_S16x1x128_S16x25600x128_0_1_2 : S16x1x128.BroadcastsInDim S16x25600x128 (![0, 1, 2] : Fin 3 → Fin S16x25600x128.rank)
  bcast_S_S16x25600x128 : S_.BroadcastsInDim S16x25600x128 (![] : Fin 0 → Fin S16x25600x128.rank)
  shapeCasts_S16x25600x128_S409600x128 : S16x25600x128.ShapeCasts S409600x128
  dot_S16x160x1024_S1024x128_S16x160x128_2_0_01_1_n_n_wf : DotDims.WF S16x160x1024 S1024x128 S16x160x128 [2] [0] [0, 1] [1] [] []
  dot_S16x1024_S1024x256_S16x256_1_0_0_1_n_n_wf : DotDims.WF S16x1024 S1024x256 S16x256 [1] [0] [0] [1] [] []
  dot_S16x25600x136_S136x128_S16x25600x128_2_0_01_1_n_n_wf : DotDims.WF S16x25600x136 S136x128 S16x25600x128 [2] [0] [0, 1] [1] [] []

variable [Facts₀]

def dot_S16x160x1024_S1024x128_S16x160x128_2_0_01_1_n_n : DotDims S16x160x1024 S1024x128 S16x160x128 where
  lhsContracting := [2]
  rhsContracting := [0]
  lhsNonContracting := [0, 1]
  rhsNonContracting := [1]
  lhsBatch := []
  rhsBatch := []
  wf := dot_S16x160x1024_S1024x128_S16x160x128_2_0_01_1_n_n_wf
def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S16x25600x136_S136x128_S16x25600x128_2_0_01_1_n_n : DotDims S16x25600x136 S136x128 S16x25600x128 where
  lhsContracting := [2]
  rhsContracting := [0]
  lhsNonContracting := [0, 1]
  rhsNonContracting := [1]
  lhsBatch := []
  rhsBatch := []
  wf := dot_S16x25600x136_S136x128_S16x25600x128_2_0_01_1_n_n_wf

class Facts : Prop extends Facts₀ where

variable [Facts]
-- ==== Proof.BitsRegion0.lean ====
/-
  The first kernel region (the node projection), at a parameter `V`: the buffers' contents when the region is
  entered.  Grid point `t` is batch element `t`: it reads that element's 160 x 1024 feature block, the whole
  projection matrix and the bias, and writes the element's 160 x 128 block of projected rows.  Here: each window's
  block at a point; what the body leaves in the output window's buffer, as the one store's payload over the input
  blocks; the body's run; the pipeline's proof data; the body obligation at every point.
-/
import proofs.«172288_j79517024518197_2_alg».proof.Proof.Gen.Kernel.Launch
import proofs.«172288_j79517024518197_2_alg».proof.Proof.Gen.Kernel.Skeleton
import proofs.«172288_j79517024518197_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each window's staging buffer whole. -/
abbrev rX : Rect S1x160x1024 := Rect.unit (s := S1x160x1024) ![0, 0, 0] S1x160x1024.size inb_S1x160x1024_S1x160x1024_0_0_0
abbrev rW : Rect S1024x128 := Rect.unit (s := S1024x128) ![0, 0] S1024x128.size inb_S1024x128_S1024x128_0_0
abbrev rB : Rect S128 := Rect.unit (s := S128) ![0] S128.size inb_S128_S128_0
abbrev rH : Rect S1x160x128 := Rect.unit (s := S1x160x128) ![0, 0, 0] S1x160x128.size inb_S1x160x128_S1x160x128_0_0_0

/-- The output window's staging buffer after the body, from the input windows' blocks: its one store. -/
def out0_3 (x0 : Vec F S1x160x1024 .f32) (x1 : Vec F S1024x128 .f32) (x2 : Vec F S128 .f32) : Vec F S1x160x128 .bf16 :=
  View.canon [⟨rH, k0_pay1 (View.ld x0 rX) (View.ld x1 rW) (View.ld x2 rB)⟩]

/-- The one store covers the buffer. -/
theorem cover0_3 (p0 : Vec F S1x160x128 .bf16) (y : S1x160x128.Idx) :
    ∃ pc ∈ ([⟨rH, p0⟩] : List (View.Piece (Elt F) S1x160x128 .bf16)), y ∈ pc.1.set :=
  View.cover_of_tiled [⟨rH, p0⟩] S1x160x128.size (by rfl) y

set_option maxHeartbeats 1000000 in
/-- The kernel body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S1x160x1024 .f32) (harg1 : arg1.IsWhole) (arg2 : Memref sig .tc .vmem S1024x128 .f32) (harg2 : arg2.IsWhole)
    (arg3 : Memref sig .tc .vmem S128 .f32) (harg3 : arg3.IsWhole) (arg4 : Memref sig .tc .vmem S1x160x128 .bf16) (harg4 : arg4.IsWhole)
    (x0 : Vec F S1x160x1024 .f32) (x1 : Vec F S1024x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The second kernel region (the pairwise block), at a parameter `V`: the buffers' contents when the region is
  entered.  Grid point `(b, r)` is batch element `b` and the `r`-th block of 80 row nodes: it reads those 80
  projected rows, all 160 projected rows of the element (the same array through a second window), the 8 x 80 x 160
  block of spatial features, the two parts of the matrix, the bias, and the element's scale and shift rows, and
  writes the 80 x 160 x 128 block of results.  Here: each window's block at a point; what the body leaves in the
  output window's buffer, as the one store's payload over the input blocks; the body's run; the pipeline's proof
  data (the array two windows read is held by each at one half of the full share); the body obligation.
-/
import proofs.«172288_j79517024518197_2_alg».proof.Proof.Gen.Kernel.Launch
import proofs.«172288_j79517024518197_2_alg».proof.Proof.Gen.Kernel.Skeleton
import proofs.«172288_j79517024518197_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current staging buffer holds its block at every point, fetched there or not (an unfetched
   window's index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/- The body's accesses: each window's staging buffer whole. -/
abbrev r1_0 : Rect S1x80x128 := Rect.unit (s := S1x80x128) ![0, 0, 0] S1x80x128.size inb_S1x80x128_S1x80x128_0_0_0
abbrev r1_1 : Rect S1x160x128 := Rect.unit (s := S1x160x128) ![0, 0, 0] S1x160x128.size inb_S1x160x128_S1x160x128_0_0_0
abbrev r1_2 : Rect S1x8x80x160 := Rect.unit (s := S1x8x80x160) ![0, 0, 0, 0] S1x8x80x160.size inb_S1x8x80x160_S1x8x80x160_0_0_0_0
abbrev r1_3 : Rect S128x128 := Rect.unit (s := S128x128) ![0, 0] S128x128.size inb_S128x128_S128x128_0_0
abbrev r1_4 : Rect S8x128 := Rect.unit (s := S8x128) ![0, 0] S8x128.size inb_S8x128_S8x128_0_0
abbrev r1_5 : Rect S128 := Rect.unit (s := S128) ![0] S128.size inb_S128_S128_0
abbrev r1_6 : Rect S1x1x128 := Rect.unit (s := S1x1x128) ![0, 0, 0] S1x1x128.size inb_S1x1x128_S1x1x128_0_0_0
abbrev r1_7 : Rect S1x1x128 := Rect.unit (s := S1x1x128) ![0, 0, 0] S1x1x128.size inb_S1x1x128_S1x1x128_0_0_0
abbrev r1_8 : Rect S1x80x160x128 := Rect.unit (s := S1x80x160x128) ![0, 0, 0, 0] S1x80x160x128.size inb_S1x80x160x128_S1x80x160x128_0_0_0_0

/-- The body's one stored value as a function of its eight loads. -/
def filmStore (v0 : Vec F S1x80x128 .bf16) (v2 : Vec F S1x160x128 .bf16) (v4 : Vec F S1x8x80x160 .f32) (v6 : Vec F S128x128 .f32)
    (v8 : Vec F S8x128 .f32) (v10 : Vec F S128 .f32) (v11 v13 : Vec F S1x1x128 .f32) : FVec F S1x80x160x128 .f32 :=
  k1_pay1 (k1_pay3 v8) v10 (k1_pay4 v11) (k1_pay5 v13) (k1_pay6 v0 v2 v6)
    (k1_pay9 (k1_pay2 v4) (k1_pay3 v8) (k1_pay7 v4 v8) (k1_pay8 v4)) (k1_pay10 (k1_pay2 v4))

/-- The output window's staging buffer after the body, from the input windows' blocks: its one store. -/
def out1_8 (x0 : Vec F S1x80x128 .bf16) (x1 : Vec F S1x160x128 .bf16) (x2 : Vec F S1x8x80x160 .f32) (x3 : Vec F S128x128 .f32) (x4 : Vec F S8x128 .f32) (x5 : Vec F S128 .f32) (x6 : Vec F S1x1x128 .f32) (x7 : Vec F S1x1x128 .f32) : Vec F S1x80x160x128 .f32 :=
  View.canon [⟨r1_8, filmStore (View.ld x0 r1_0) (View.ld x1 r1_1) (View.ld x2 r1_2) (View.ld x3 r1_3) (View.ld x4 r1_4) (View.ld x5 r1_5) (View.ld x6 r1_6) (View.ld x7 r1_7)⟩]

/-- The one store covers the buffer. -/
theorem cover1_8 (p0 : Vec F S1x80x160x128 .f32) (y : S1x80x160x128.Idx) :
    ∃ pc ∈ ([⟨r1_8, p0⟩] : List (View.Piece (Elt F) S1x80x160x128 .f32)), y ∈ pc.1.set :=
  View.cover_of_tiled [⟨r1_8, p0⟩] S1x80x160x128.size (by rfl) y

set_option maxHeartbeats 2000000 in
/-- The kernel body on whole staging memrefs, the inputs' at read contents and the output's at anything, runs to the
    continuation holding the inputs' as they were and the output's at `out1_8` of the inputs'. -/
theorem sound_kernel1 (c : Dev nD) (E : Set ℕ) (i : grid1.Coords)
    (arg2 : Memref sig .tc .vmem S1x80x128 .bf16) (harg2 : arg2.IsWhole)
    (arg3 : Memref sig .tc .vmem S1x160x128 .bf16) (harg3 : arg3.IsWhole)
    (arg4 : Memref sig .tc .vmem S1x8x80x160 .f32) (harg4 : arg4.IsWhole)
    (arg5 : Memref sig .tc .vmem S128x128 .f32) (harg5 : arg5.IsWhole)
    (arg6 : Memref sig .tc .vmem S8x128 .f32) (harg6 : arg6.IsWhole)
    (arg7 : Memref sig .tc .vmem S128 .f32) (harg7 : arg7.IsWhole)
    (arg8 : Memref sig .tc .vmem S1x1x128 .f32) (harg8 : arg8.IsWhole)
    (arg9 : Memref sig .tc .vmem S1x1x128 .f32) (harg9 : arg9.IsWhole)
    (arg10 : Memref sig .tc .vmem S1x80x160x128 .f32) (harg10 : arg10.IsWhole)
    (x0 : Vec F S1x80x128 .bf16) (x1 : Vec F S1x160x128 .bf16) (x2 : Vec F S1x8x80x160 .f32) (x3 : Vec F S128x128 .f32) (x4 : Vec F S8x128 .f32) (x5 : Vec F S128 .f32) (x6 : Vec F S1x1x128 .f32) (x7 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out1_8 x0 x1 x2 x3 x4 x5 x6 x7)) -∗ K ⟨⟩))
      ⊢ wp frame (wpE (defs₀ (F := F)) Variants.none c none) E (cc1__film_kernel i arg2 harg2 arg3 harg3 arg4 harg4 arg5 harg5 arg6 harg6 arg7 harg7 arg8 harg8 arg9 harg9 arg10 harg10) K := by
  simp only [cc1__film_kernel_eq_skeleton]; unfold cc1__film_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-- The proof data of the second pipeline on core `c`: the arrays as the region finds them; after the body at point
    `t` each input's buffer at its block and the output's at `out1_8` of the input blocks; the invariant the scoped
    rest and the generator register, untouched; nothing owed; the array of projected rows, read through windows 0 and
    1, held by each at one half of the full share, every other input array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsShare1.lean ====
/-
  The second region's arrays against the core's unscoped buffers.  Its nine windows stand on EIGHT buffers: the
  array of projected rows is read through two windows.  Held whole at the full share, that buffer is the two
  windows' arrays at the two halves of the full share, and the halves rejoin when both hold the same contents; the
  other seven buffers are their windows' arrays as they are.  So the core's unscoped buffers at contents `V` are
  the region's `arrays` at `V` beside the buffers no window stands on — both ways.
-/
import proofs.«172288_j79517024518197_2_alg».proof.Proof.BitsRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V₀ : (c : Dev nD) → (b : Ref sig .tc) → Buf (Elt F) ((c : Thread nD τ).loc b))

/-- The eight buffers the nine windows stand on. -/
theorem arrRefs1 : Finset.univ.image (Pipeline.arrRef spec1) = ([main_v0, main_v13, main_v11, main_v12, main_arg8, main_v9, main_v10, main_v14] : List (Ref sig .tc)).toFinset := by
  decide

/-- The buffers behind the second region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v13) ↦{fullShare} V main_v13)
          ∗ (((c : Thread nD τ).loc main_v11) ↦{fullShare} V main_v11) ∗ (((c : Thread nD τ).loc main_v12) ↦{fullShare} V main_v12)
          ∗ (((c : Thread nD τ).loc main_arg8) ↦{fullShare} V main_arg8) ∗ (((c : Thread nD τ).loc main_v9) ↦{fullShare} V main_v9)
          ∗ (((c : Thread nD τ).loc main_v10) ↦{fullShare} V main_v10) ∗ (((c : Thread nD τ).loc main_v14) ↦{fullShare} V main_v14)) := by
  unfold Pipeline.arrBufs
  exact bigSep_eq_bigSepL_of_eq _ arrRefs1 (by decide) _

/-- The share each window's array is held at. -/
theorem share1_0 (c : Dev nD) : (dat1 V₀ c).share 0 = (fullShare : PosShare TreeShare).left := by
  unfold Dat.share; dsimp only [dat1]; rfl
theorem share1_1 (c : Dev nD) : (dat1 V₀ c).share 1 = (fullShare : PosShare TreeShare).right := by
  unfold Dat.share; dsimp only [dat1]; rfl
theorem share1_2 (c : Dev nD) : (dat1 V₀ c).share 2 = fullShare := by
  unfold Dat.share; dsimp only [dat1]; rfl
theorem share1_3 (c : Dev nD) : (dat1 V₀ c).share 3 = fullShare := by
  unfold Dat.share; dsimp only [dat1]; rfl
theorem share1_4 (c : Dev nD) : (dat1 V₀ c).share 4 = fullShare := by
  unfold Dat.share; dsimp only [dat1]; rfl
theorem share1_5 (c : Dev nD) : (dat1 V₀ c).share 5 = fullShare := by
  unfold Dat.share; dsimp only [dat1]; rfl
theorem share1_6 (c : Dev nD) : (dat1 V₀ c).share 6 = fullShare := by
  unfold Dat.share; dsimp only [dat1]; rfl
theorem share1_7 (c : Dev nD) : (dat1 V₀ c).share 7 = fullShare := by
  unfold Dat.share; dsimp only [dat1]; rfl
theorem share1_8 (c : Dev nD) : (dat1 V₀ c).share 8 = fullShare := by
  unfold Dat.share; dsimp only [dat1]; rfl

/-- The second region's `arrays` at contents read off a valuation `V`, window by window: the two windows on the
    array of projected rows at the two halves of the full share, the rest at the full share. -/
theorem arrays1_eq (c : Dev nD) (V : (b : Ref sig .tc) → Buf (Elt F) ((c : Thread nD τ).loc b)) :
    ((dat1 V₀ c).arrays (fun w => V (Pipeline.arrRef spec1 w)) : sProp 𝕄)
      = iprop((((c : Thread nD τ).loc (Pipeline.arrRef spec1 (0 : Fin 9))) ↦{(fullShare : PosShare TreeShare).left} V (Pipeline.arrRef spec1 (0 : Fin 9)))
          ∗ (((c : Thread nD τ).loc (Pipeline.arrRef spec1 (1 : Fin 9))) ↦{(fullShare : PosShare TreeShare).right} V (Pipeline.arrRef spec1 (1 : Fin 9)))
          ∗ (((c : Thread nD τ).loc (Pipeline.arrRef spec1 (2 : Fin 9))) ↦{fullShare} V (Pipeline.arrRef spec1 (2 : Fin 9)))
          ∗ (((c : Thread nD τ).loc (Pipeline.arrRef spec1 (3 : Fin 9))) ↦{fullShare} V (Pipeline.arrRef spec1 (3 : Fin 9)))
          ∗ (((c : Thread nD τ).loc (Pipeline.arrRef spec1 (4 : Fin 9))) ↦{fullShare} V (Pipeline.arrRef spec1 (4 : Fin 9)))
          ∗ (((c : Thread nD τ).loc (Pipeline.arrRef spec1 (5 : Fin 9))) ↦{fullShare} V (Pipeline.arrRef spec1 (5 : Fin 9)))
          ∗ (((c : Thread nD τ).loc (Pipeline.arrRef spec1 (6 : Fin 9))) ↦{fullShare} V (Pipeline.arrRef spec1 (6 : Fin 9)))
          ∗ (((c : Thread nD τ).loc (Pipeline.arrRef spec1 (7 : Fin 9))) ↦{fullShare} V (Pipeline.arrRef spec1 (7 : Fin 9)))
          ∗ (((c : Thread nD τ).loc (Pipeline.arrRef spec1 (8 : Fin 9))) ↦{fullShare} V (Pipeline.arrRef spec1 (8 : Fin 9)))) := by
  unfold Dat.arrays
  rw [show (bigSep Finset.univ fun w : Fin cfg1.W => ((cfg1.win w).arr.view.loc (c : Thread nD τ) ↦[(cfg1.win w).arr.view.set]{(dat1 V₀ c).share w} V (Pipeline.arrRef spec1 w) : sProp 𝕄))
      = bigSep Finset.univ fun w : Fin 9 => (((c : Thread nD τ).loc (Pipeline.arrRef spec1 w)) ↦{(dat1 V₀ c).share w} V (Pipeline.arrRef spec1 w) : sProp 𝕄)
    from bigSep_congr fun w _ => by rw [(arr_whole1 w).set_eq_univ]]
  rw [bigSep_W1, share1_0, share1_1, share1_2, share1_3, share1_4, share1_5, share1_6, share1_7, share1_8]

/-- Both ways: the buffers behind the arrays whole at the full share, and the `arrays` at the same contents. -/
theorem arrBufs1_arrays (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V₀ c).arrays (fun w => V (Pipeline.arrRef spec1 w)) := by
  rw [arrBufs1_eq, arrays1_eq]
  iintro ⟨H0, Hr⟩
  ihave H := (pointsTo_share (PosShare.mem_left_op_right (fullShare : PosShare TreeShare))).1 $$ H0
  icases H with ⟨Ha, Hb⟩
  isplitl [Ha]; · iexact Ha
  isplitl [Hb]; · iexact Hb
  iexact Hr

theorem arrays_arrBufs1 (c : Dev nD) (V : (b : Ref sig .tc) → Buf (Elt F) ((c : Thread nD τ).loc b)) :
    ((dat1 V₀ c).arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq]
  iintro ⟨Ha, Hb, Hr⟩
  isplitl [Ha Hb]
  · iapply (pointsTo_share (PosShare.mem_left_op_right (fullShare : PosShare TreeShare))).2
    isplitl [Ha]; · iexact Ha
    iexact Hb
  iexact Hr

/-- The core's unscoped buffers at contents `V`: the buffers behind the second region's arrays, and the rest. -/
theorem unscopedBufs_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ cfgs 1 winFacts₀1.arr_unscoped c V

/-- ENTRY: the core's unscoped buffers at `V` are the region's arrays at `V` and the rest. -/
theorem arrays_of_unscopedBufs1 (c : Dev nD) (V : (b : Ref sig .tc) → Buf (Elt F) ((c : Thread nD τ).loc b)) :
    (unscopedBufs (Ix := Unit) (Name := ℕ) (U := UR sig nD τ) (Lvl := ℕ) c V : sProp 𝕄)
      ⊢ iprop((dat1 V₀ c).arrays (fun w => V (Pipeline.arrRef spec1 w)) ∗ Pipeline.unscopedRest spec1 c V) := by
  rw [unscopedBufs_split1]
  exact sep_mono (arrBufs1_arrays V₀ c V) .rfl

/-- EXIT: the region's arrays at contents `F` and the rest at `V` are the core's unscoped buffers at any valuation
    `V'` that has every window's array at `F` and agrees with `V` off the arrays. -/
theorem unscopedBufs_of_arrays1 (c : Dev nD) (V V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w))
    (hrest : ∀ b, b ∉ Finset.univ.image (Pipeline.arrRef spec1) → V' b = V b) :
    iprop((dat1 V₀ c).arrays Fw ∗ Pipeline.unscopedRest spec1 c V)
      ⊢ (unscopedBufs (Ix := Unit) (Name := ℕ) (U := UR sig nD τ) (Lvl := ℕ) c V' : sProp 𝕄) := by
  rw [unscopedBufs_split1, show Fw = fun w => V' (Pipeline.arrRef spec1 w) from funext hF]
  refine sep_mono (arrays_arrBufs1 V₀ c V') (Entails.of_eq ?_)
  unfold Pipeline.unscopedRest
  exact bigSep_congr fun b hb => by rw [hrest b (Finset.mem_sdiff.mp hb).2]

end Cert.Kernel.Hand

end
-- ==== Proof.BitsRun.lean ====
/-
  The run of the whole program: the first region, fourteen host operations, the second region, one host operation.
  The buffers' contents at each boundary are a fold from the launch memory: a region leaves its output array at
  what its write-backs leave and every other buffer as entered; a host stretch leaves what its operations compute.
  Every weakly fair execution terminates, faults nowhere, and ends with every unscoped buffer at the last
  boundary's contents; no argument array is ever written.
-/
import proofs.«172288_j79517024518197_2_alg».proof.Proof.BitsRegion0
import proofs.«172288_j79517024518197_2_alg».proof.Proof.BitsShare1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the first region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the fourteen host operations: the second region's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: its output array at what the pipeline leaves, every other buffer as entered. -/
def W3 (c : Dev nD) : Valuation τ sig (Elt F) :=
  Function.update (W2 m ρ c) (Proc.devRef .tc main_v14) ((dat1 (V2 m ρ) c).arrAt 8 cfg1.N)
theorem W3_out (c : Dev nD) : W3 m ρ c (Proc.devRef .tc main_v14) = (dat1 (V2 m ρ) c).arrAt 8 cfg1.N := by
  unfold W3; exact Function.update_self ..
theorem W3_of_ne (c : Dev nD) (b : Ref sig .tc) (hb : b ≠ main_v14) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- Every window's array at the second region's exit is the exit valuation's: an input's is its entry contents. -/
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c main_v0 (by decide)).symm
  | ⟨1, _⟩ => exact (((dat1 (V2 m ρ) c).arrAt_in 1 rfl _).trans (A_eq1 (V2 m ρ) c 1)).trans (W3_of_ne m ρ c main_v0 (by decide)).symm
  | ⟨2, _⟩ => exact (((dat1 (V2 m ρ) c).arrAt_in 2 rfl _).trans (A_eq1 (V2 m ρ) c 2)).trans (W3_of_ne m ρ c main_v13 (by decide)).symm
  | ⟨3, _⟩ => exact (((dat1 (V2 m ρ) c).arrAt_in 3 rfl _).trans (A_eq1 (V2 m ρ) c 3)).trans (W3_of_ne m ρ c main_v11 (by decide)).symm
  | ⟨4, _⟩ => exact (((dat1 (V2 m ρ) c).arrAt_in 4 rfl _).trans (A_eq1 (V2 m ρ) c 4)).trans (W3_of_ne m ρ c main_v12 (by decide)).symm
  | ⟨5, _⟩ => exact (((dat1 (V2 m ρ) c).arrAt_in 5 rfl _).trans (A_eq1 (V2 m ρ) c 5)).trans (W3_of_ne m ρ c main_arg8 (by decide)).symm
  | ⟨6, _⟩ => exact (((dat1 (V2 m ρ) c).arrAt_in 6 rfl _).trans (A_eq1 (V2 m ρ) c 6)).trans (W3_of_ne m ρ c main_v9 (by decide)).symm
  | ⟨7, _⟩ => exact (((dat1 (V2 m ρ) c).arrAt_in 7 rfl _).trans (A_eq1 (V2 m ρ) c 7)).trans (W3_of_ne m ρ c main_v10 (by decide)).symm
  | ⟨8, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨8, Finset.mem_univ _, e.symm⟩)
/-- After the last host operation: what the program ends with. -/
abbrev W4 : Dev nD → Valuation τ sig (Elt F) := fun c => StableHlo.after hostOps2 (W3 m ρ c)

/-! ### No host operation and no region writes an argument: the fold at an argument's buffer walks back to the launch -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`.  Two of its
    windows read one array: the array's buffer is split between them at entry and rejoined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays_of_unscopedBufs1 (V2 m ρ) c (V2 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V2 m ρ) c (V2 m ρ c) (V3 m ρ c) ((dat1 (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

/-- The program's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Cert.Kernel.Hand

end
-- ==== Proof.IdealRegion0.lean ====
/-
  The first kernel region (the node projection), at a parameter `V`: the buffers' contents when the region is
  entered.  Grid point `t` is batch element `t`: it reads that element's 160 x 1024 feature block, the whole
  projection matrix and the bias, and writes the element's 160 x 128 block of projected rows.  Here: each window's
  block at a point; what the body leaves in the output window's buffer, as the one store's payload over the input
  blocks; the body's run; the pipeline's proof data; the body obligation at every point.
-/
import proofs.«172288_j79517024518197_2_alg».proof.Proof.Gen.KernelIdeal.Launch
import proofs.«172288_j79517024518197_2_alg».proof.Proof.Gen.KernelIdeal.Skeleton
import proofs.«172288_j79517024518197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each window's staging buffer whole. -/
abbrev rX : Rect S1x160x1024 := Rect.unit (s := S1x160x1024) ![0, 0, 0] S1x160x1024.size inb_S1x160x1024_S1x160x1024_0_0_0
abbrev rW : Rect S1024x128 := Rect.unit (s := S1024x128) ![0, 0] S1024x128.size inb_S1024x128_S1024x128_0_0
abbrev rB : Rect S128 := Rect.unit (s := S128) ![0] S128.size inb_S128_S128_0
abbrev rH : Rect S1x160x128 := Rect.unit (s := S1x160x128) ![0, 0, 0] S1x160x128.size inb_S1x160x128_S1x160x128_0_0_0

/-- The output window's staging buffer after the body, from the input windows' blocks: its one store. -/
def out0_3 (x0 : Vec F S1x160x1024 .f32) (x1 : Vec F S1024x128 .f32) (x2 : Vec F S128 .f32) : Vec F S1x160x128 .bf16 :=
  View.canon [⟨rH, k0_pay1 (View.ld x0 rX) (View.ld x1 rW) (View.ld x2 rB)⟩]

/-- The one store covers the buffer. -/
theorem cover0_3 (p0 : Vec F S1x160x128 .bf16) (y : S1x160x128.Idx) :
    ∃ pc ∈ ([⟨rH, p0⟩] : List (View.Piece (Elt F) S1x160x128 .bf16)), y ∈ pc.1.set :=
  View.cover_of_tiled [⟨rH, p0⟩] S1x160x128.size (by rfl) y

set_option maxHeartbeats 1000000 in
/-- The kernel body on whole staging memrefs, the inputs' at read contents and the output's at anything, runs to the
    continuation holding the inputs' as they were and the output's at `out0_3` of the inputs'. -/
theorem sound_kernel0 (c : Dev nD) (E : Set ℕ) (i : grid0.Coords)
    (arg1 : Memref sig .tc .vmem S1x160x1024 .f32) (harg1 : arg1.IsWhole) (arg2 : Memref sig .tc .vmem S1024x128 .f32) (harg2 : arg2.IsWhole)
    (arg3 : Memref sig .tc .vmem S128 .f32) (harg3 : arg3.IsWhole) (arg4 : Memref sig .tc .vmem S1x160x128 .bf16) (harg4 : arg4.IsWhole)
    (x0 : Vec F S1x160x1024 .f32) (x1 : Vec F S1024x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c`: the arrays as the region finds them; after the body at point
    `t` each input's buffer at its block and the output's at `out0_3` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  The second kernel region (the pairwise block), at a parameter `V`: the buffers' contents when the region is
  entered.  Grid point `(b, r)` is batch element `b` and the `r`-th block of 80 row nodes: it reads those 80
  projected rows, all 160 projected rows of the element (the same array through a second window), the 8 x 80 x 160
  block of spatial features, the two parts of the matrix, the bias, and the element's scale and shift rows, and
  writes the 80 x 160 x 128 block of results.  Here: each window's block at a point; what the body leaves in the
  output window's buffer, as the one store's payload over the input blocks; the body's run; the pipeline's proof
  data (the array two windows read is held by each at one half of the full share); the body obligation.
-/
import proofs.«172288_j79517024518197_2_alg».proof.Proof.Gen.KernelIdeal.Launch
import proofs.«172288_j79517024518197_2_alg».proof.Proof.Gen.KernelIdeal.Skeleton
import proofs.«172288_j79517024518197_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input window's current staging buffer holds its block at every point, fetched there or not (an unfetched
   window's index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/- The body's accesses: each window's staging buffer whole. -/
abbrev r1_0 : Rect S1x80x128 := Rect.unit (s := S1x80x128) ![0, 0, 0] S1x80x128.size inb_S1x80x128_S1x80x128_0_0_0
abbrev r1_1 : Rect S1x160x128 := Rect.unit (s := S1x160x128) ![0, 0, 0] S1x160x128.size inb_S1x160x128_S1x160x128_0_0_0
abbrev r1_2 : Rect S1x8x80x160 := Rect.unit (s := S1x8x80x160) ![0, 0, 0, 0] S1x8x80x160.size inb_S1x8x80x160_S1x8x80x160_0_0_0_0
abbrev r1_3 : Rect S128x128 := Rect.unit (s := S128x128) ![0, 0] S128x128.size inb_S128x128_S128x128_0_0
abbrev r1_4 : Rect S8x128 := Rect.unit (s := S8x128) ![0, 0] S8x128.size inb_S8x128_S8x128_0_0
abbrev r1_5 : Rect S128 := Rect.unit (s := S128) ![0] S128.size inb_S128_S128_0
abbrev r1_6 : Rect S1x1x128 := Rect.unit (s := S1x1x128) ![0, 0, 0] S1x1x128.size inb_S1x1x128_S1x1x128_0_0_0
abbrev r1_7 : Rect S1x1x128 := Rect.unit (s := S1x1x128) ![0, 0, 0] S1x1x128.size inb_S1x1x128_S1x1x128_0_0_0
abbrev r1_8 : Rect S1x80x160x128 := Rect.unit (s := S1x80x160x128) ![0, 0, 0, 0] S1x80x160x128.size inb_S1x80x160x128_S1x80x160x128_0_0_0_0

/-- The body's one stored value as a function of its eight loads. -/
def filmStore (v0 : Vec F S1x80x128 .bf16) (v2 : Vec F S1x160x128 .bf16) (v4 : Vec F S1x8x80x160 .f32) (v6 : Vec F S128x128 .f32)
    (v8 : Vec F S8x128 .f32) (v10 : Vec F S128 .f32) (v11 v13 : Vec F S1x1x128 .f32) : FVec F S1x80x160x128 .f32 :=
  k1_pay1 (k1_pay3 v8) v10 (k1_pay4 v11) (k1_pay5 v13) (k1_pay6 v0 v2 v6)
    (k1_pay9 (k1_pay2 v4) (k1_pay3 v8) (k1_pay7 v4 v8) (k1_pay8 v4)) (k1_pay10 (k1_pay2 v4))

/-- The output window's staging buffer after the body, from the input windows' blocks: its one store. -/
def out1_8 (x0 : Vec F S1x80x128 .bf16) (x1 : Vec F S1x160x128 .bf16) (x2 : Vec F S1x8x80x160 .f32) (x3 : Vec F S128x128 .f32) (x4 : Vec F S8x128 .f32) (x5 : Vec F S128 .f32) (x6 : Vec F S1x1x128 .f32) (x7 : Vec F S1x1x128 .f32) : Vec F S1x80x160x128 .f32 :=
  View.canon [⟨r1_8, filmStore (View.ld x0 r1_0) (View.ld x1 r1_1) (View.ld x2 r1_2) (View.ld x3 r1_3) (View.ld x4 r1_4) (View.ld x5 r1_5) (View.ld x6 r1_6) (View.ld x7 r1_7)⟩]

/-- The one store covers the buffer. -/
theorem cover1_8 (p0 : Vec F S1x80x160x128 .f32) (y : S1x80x160x128.Idx) :
    ∃ pc ∈ ([⟨r1_8, p0⟩] : List (View.Piece (Elt F) S1x80x160x128 .f32)), y ∈ pc.1.set :=
  View.cover_of_tiled [⟨r1_8, p0⟩] S1x80x160x128.size (by rfl) y

set_option maxHeartbeats 2000000 in
/-- The kernel body on whole staging memrefs, the inputs' at read contents and the output's at anything, runs to the
    continuation holding the inputs' as they were and the output's at `out1_8` of the inputs'. -/
theorem sound_kernel1 (c : Dev nD) (E : Set ℕ) (i : grid1.Coords)
    (arg2 : Memref sig .tc .vmem S1x80x128 .bf16) (harg2 : arg2.IsWhole)
    (arg3 : Memref sig .tc .vmem S1x160x128 .bf16) (harg3 : arg3.IsWhole)
    (arg4 : Memref sig .tc .vmem S1x8x80x160 .f32) (harg4 : arg4.IsWhole)
    (arg5 : Memref sig .tc .vmem S128x128 .f32) (harg5 : arg5.IsWhole)
    (arg6 : Memref sig .tc .vmem S8x128 .f32) (harg6 : arg6.IsWhole)
    (arg7 : Memref sig .tc .vmem S128 .f32) (harg7 : arg7.IsWhole)
    (arg8 : Memref sig .tc .vmem S1x1x128 .f32) (harg8 : arg8.IsWhole)
    (arg9 : Memref sig .tc .vmem S1x1x128 .f32) (harg9 : arg9.IsWhole)
    (arg10 : Memref sig .tc .vmem S1x80x160x128 .f32) (harg10 : arg10.IsWhole)
    (x0 : Vec F S1x80x128 .bf16) (x1 : Vec F S1x160x128 .bf16) (x2 : Vec F S1x8x80x160 .f32) (x3 : Vec F S128x128 .f32) (x4 : Vec F S8x128 .f32) (x5 : Vec F S128 .f32) (x6 : Vec F S1x1x128 .f32) (x7 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (out1_8 x0 x1 x2 x3 x4 x5 x6 x7)) -∗ K ⟨⟩))
      ⊢ wp frame (wpE (defs₀ (F := F)) Variants.none c none) E (cc1__film_kernel i arg2 harg2 arg3 harg3 arg4 harg4 arg5 harg5 arg6 harg6 arg7 harg7 arg8 harg8 arg9 harg9 arg10 harg10) K := by
  simp only [cc1__film_kernel_eq_skeleton]; unfold cc1__film_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

/-- The proof data of the second pipeline on core `c`: the arrays as the region finds them; after the body at point
    `t` each input's buffer at its block and the output's at `out1_8` of the input blocks; the invariant the scoped
    rest and the generator register, untouched; nothing owed; the array of projected rows, read through windows 0 and
    1, held by each at one half of the full share, every other input array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealShare1.lean ====
/-
  The second region's arrays against the core's unscoped buffers.  Its nine windows stand on EIGHT buffers: the
  array of projected rows is read through two windows.  Held whole at the full share, that buffer is the two
  windows' arrays at the two halves of the full share, and the halves rejoin when both hold the same contents; the
  other seven buffers are their windows' arrays as they are.  So the core's unscoped buffers at contents `V` are
  the region's `arrays` at `V` beside the buffers no window stands on — both ways.
-/
import proofs.«172288_j79517024518197_2_alg».proof.Proof.IdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V₀ : (c : Dev nD) → (b : Ref sig .tc) → Buf (Elt F) ((c : Thread nD τ).loc b))

/-- The eight buffers the nine windows stand on. -/
theorem arrRefs1 : Finset.univ.image (Pipeline.arrRef spec1) = ([main_v0, main_v13, main_v11, main_v12, main_arg8, main_v9, main_v10, main_v14] : List (Ref sig .tc)).toFinset := by
  decide

/-- The buffers behind the second region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v13) ↦{fullShare} V main_v13)
          ∗ (((c : Thread nD τ).loc main_v11) ↦{fullShare} V main_v11) ∗ (((c : Thread nD τ).loc main_v12) ↦{fullShare} V main_v12)
          ∗ (((c : Thread nD τ).loc main_arg8) ↦{fullShare} V main_arg8) ∗ (((c : Thread nD τ).loc main_v9) ↦{fullShare} V main_v9)
          ∗ (((c : Thread nD τ).loc main_v10) ↦{fullShare} V main_v10) ∗ (((c : Thread nD τ).loc main_v14) ↦{fullShare} V main_v14)) := by
  unfold Pipeline.arrBufs
  exact bigSep_eq_bigSepL_of_eq _ arrRefs1 (by decide) _

/-- The share each window's array is held at. -/
theorem share1_0 (c : Dev nD) : (dat1 V₀ c).share 0 = (fullShare : PosShare TreeShare).left := by
  unfold Dat.share; dsimp only [dat1]; rfl
theorem share1_1 (c : Dev nD) : (dat1 V₀ c).share 1 = (fullShare : PosShare TreeShare).right := by
  unfold Dat.share; dsimp only [dat1]; rfl
theorem share1_2 (c : Dev nD) : (dat1 V₀ c).share 2 = fullShare := by
  unfold Dat.share; dsimp only [dat1]; rfl
theorem share1_3 (c : Dev nD) : (dat1 V₀ c).share 3 = fullShare := by
  unfold Dat.share; dsimp only [dat1]; rfl
theorem share1_4 (c : Dev nD) : (dat1 V₀ c).share 4 = fullShare := by
  unfold Dat.share; dsimp only [dat1]; rfl
theorem share1_5 (c : Dev nD) : (dat1 V₀ c).share 5 = fullShare := by
  unfold Dat.share; dsimp only [dat1]; rfl
theorem share1_6 (c : Dev nD) : (dat1 V₀ c).share 6 = fullShare := by
  unfold Dat.share; dsimp only [dat1]; rfl
theorem share1_7 (c : Dev nD) : (dat1 V₀ c).share 7 = fullShare := by
  unfold Dat.share; dsimp only [dat1]; rfl
theorem share1_8 (c : Dev nD) : (dat1 V₀ c).share 8 = fullShare := by
  unfold Dat.share; dsimp only [dat1]; rfl

/-- The second region's `arrays` at contents read off a valuation `V`, window by window: the two windows on the
    array of projected rows at the two halves of the full share, the rest at the full share. -/
theorem arrays1_eq (c : Dev nD) (V : (b : Ref sig .tc) → Buf (Elt F) ((c : Thread nD τ).loc b)) :
    ((dat1 V₀ c).arrays (fun w => V (Pipeline.arrRef spec1 w)) : sProp 𝕄)
      = iprop((((c : Thread nD τ).loc (Pipeline.arrRef spec1 (0 : Fin 9))) ↦{(fullShare : PosShare TreeShare).left} V (Pipeline.arrRef spec1 (0 : Fin 9)))
          ∗ (((c : Thread nD τ).loc (Pipeline.arrRef spec1 (1 : Fin 9))) ↦{(fullShare : PosShare TreeShare).right} V (Pipeline.arrRef spec1 (1 : Fin 9)))
          ∗ (((c : Thread nD τ).loc (Pipeline.arrRef spec1 (2 : Fin 9))) ↦{fullShare} V (Pipeline.arrRef spec1 (2 : Fin 9)))
          ∗ (((c : Thread nD τ).loc (Pipeline.arrRef spec1 (3 : Fin 9))) ↦{fullShare} V (Pipeline.arrRef spec1 (3 : Fin 9)))
          ∗ (((c : Thread nD τ).loc (Pipeline.arrRef spec1 (4 : Fin 9))) ↦{fullShare} V (Pipeline.arrRef spec1 (4 : Fin 9)))
          ∗ (((c : Thread nD τ).loc (Pipeline.arrRef spec1 (5 : Fin 9))) ↦{fullShare} V (Pipeline.arrRef spec1 (5 : Fin 9)))
          ∗ (((c : Thread nD τ).loc (Pipeline.arrRef spec1 (6 : Fin 9))) ↦{fullShare} V (Pipeline.arrRef spec1 (6 : Fin 9)))
          ∗ (((c : Thread nD τ).loc (Pipeline.arrRef spec1 (7 : Fin 9))) ↦{fullShare} V (Pipeline.arrRef spec1 (7 : Fin 9)))
          ∗ (((c : Thread nD τ).loc (Pipeline.arrRef spec1 (8 : Fin 9))) ↦{fullShare} V (Pipeline.arrRef spec1 (8 : Fin 9)))) := by
  unfold Dat.arrays
  rw [show (bigSep Finset.univ fun w : Fin cfg1.W => ((cfg1.win w).arr.view.loc (c : Thread nD τ) ↦[(cfg1.win w).arr.view.set]{(dat1 V₀ c).share w} V (Pipeline.arrRef spec1 w) : sProp 𝕄))
      = bigSep Finset.univ fun w : Fin 9 => (((c : Thread nD τ).loc (Pipeline.arrRef spec1 w)) ↦{(dat1 V₀ c).share w} V (Pipeline.arrRef spec1 w) : sProp 𝕄)
    from bigSep_congr fun w _ => by rw [(arr_whole1 w).set_eq_univ]]
  rw [bigSep_W1, share1_0, share1_1, share1_2, share1_3, share1_4, share1_5, share1_6, share1_7, share1_8]

/-- Both ways: the buffers behind the arrays whole at the full share, and the `arrays` at the same contents. -/
theorem arrBufs1_arrays (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V₀ c).arrays (fun w => V (Pipeline.arrRef spec1 w)) := by
  rw [arrBufs1_eq, arrays1_eq]
  iintro ⟨H0, Hr⟩
  ihave H := (pointsTo_share (PosShare.mem_left_op_right (fullShare : PosShare TreeShare))).1 $$ H0
  icases H with ⟨Ha, Hb⟩
  isplitl [Ha]; · iexact Ha
  isplitl [Hb]; · iexact Hb
  iexact Hr

theorem arrays_arrBufs1 (c : Dev nD) (V : (b : Ref sig .tc) → Buf (Elt F) ((c : Thread nD τ).loc b)) :
    ((dat1 V₀ c).arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq]
  iintro ⟨Ha, Hb, Hr⟩
  isplitl [Ha Hb]
  · iapply (pointsTo_share (PosShare.mem_left_op_right (fullShare : PosShare TreeShare))).2
    isplitl [Ha]; · iexact Ha
    iexact Hb
  iexact Hr

/-- The core's unscoped buffers at contents `V`: the buffers behind the second region's arrays, and the rest. -/
theorem unscopedBufs_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec1 c V ∗ Pipeline.unscopedRest spec1 c V) :=
  Pipeline.unscopedBufs_split₀ cfgs 1 winFacts₀1.arr_unscoped c V

/-- ENTRY: the core's unscoped buffers at `V` are the region's arrays at `V` and the rest. -/
theorem arrays_of_unscopedBufs1 (c : Dev nD) (V : (b : Ref sig .tc) → Buf (Elt F) ((c : Thread nD τ).loc b)) :
    (unscopedBufs (Ix := Unit) (Name := ℕ) (U := UR sig nD τ) (Lvl := ℕ) c V : sProp 𝕄)
      ⊢ iprop((dat1 V₀ c).arrays (fun w => V (Pipeline.arrRef spec1 w)) ∗ Pipeline.unscopedRest spec1 c V) := by
  rw [unscopedBufs_split1]
  exact sep_mono (arrBufs1_arrays V₀ c V) .rfl

/-- EXIT: the region's arrays at contents `F` and the rest at `V` are the core's unscoped buffers at any valuation
    `V'` that has every window's array at `F` and agrees with `V` off the arrays. -/
theorem unscopedBufs_of_arrays1 (c : Dev nD) (V V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w))
    (hrest : ∀ b, b ∉ Finset.univ.image (Pipeline.arrRef spec1) → V' b = V b) :
    iprop((dat1 V₀ c).arrays Fw ∗ Pipeline.unscopedRest spec1 c V)
      ⊢ (unscopedBufs (Ix := Unit) (Name := ℕ) (U := UR sig nD τ) (Lvl := ℕ) c V' : sProp 𝕄) := by
  rw [unscopedBufs_split1, show Fw = fun w => V' (Pipeline.arrRef spec1 w) from funext hF]
  refine sep_mono (arrays_arrBufs1 V₀ c V') (Entails.of_eq ?_)
  unfold Pipeline.unscopedRest
  exact bigSep_congr fun b hb => by rw [hrest b (Finset.mem_sdiff.mp hb).2]

end Cert.KernelIdeal.Hand

end
-- ==== Proof.IdealRun.lean ====
/-
  The run of the whole program: the first region, fourteen host operations, the second region, one host operation.
  The buffers' contents at each boundary are a fold from the launch memory: a region leaves its output array at
  what its write-backs leave and every other buffer as entered; a host stretch leaves what its operations compute.
  Every weakly fair execution terminates, faults nowhere, and ends with every unscoped buffer at the last
  boundary's contents; no argument array is ever written.
-/
import proofs.«172288_j79517024518197_2_alg».proof.Proof.IdealRegion0
import proofs.«172288_j79517024518197_2_alg».proof.Proof.IdealShare1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the first region's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the fourteen host operations: the second region's entry. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit: its output array at what the pipeline leaves, every other buffer as entered. -/
def W3 (c : Dev nD) : Valuation τ sig (Elt F) :=
  Function.update (W2 m ρ c) (Proc.devRef .tc main_v14) ((dat1 (V2 m ρ) c).arrAt 8 cfg1.N)
theorem W3_out (c : Dev nD) : W3 m ρ c (Proc.devRef .tc main_v14) = (dat1 (V2 m ρ) c).arrAt 8 cfg1.N := by
  unfold W3; exact Function.update_self ..
theorem W3_of_ne (c : Dev nD) (b : Ref sig .tc) (hb : b ≠ main_v14) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b
/-- Every window's array at the second region's exit is the exit valuation's: an input's is its entry contents. -/
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c main_v0 (by decide)).symm
  | ⟨1, _⟩ => exact (((dat1 (V2 m ρ) c).arrAt_in 1 rfl _).trans (A_eq1 (V2 m ρ) c 1)).trans (W3_of_ne m ρ c main_v0 (by decide)).symm
  | ⟨2, _⟩ => exact (((dat1 (V2 m ρ) c).arrAt_in 2 rfl _).trans (A_eq1 (V2 m ρ) c 2)).trans (W3_of_ne m ρ c main_v13 (by decide)).symm
  | ⟨3, _⟩ => exact (((dat1 (V2 m ρ) c).arrAt_in 3 rfl _).trans (A_eq1 (V2 m ρ) c 3)).trans (W3_of_ne m ρ c main_v11 (by decide)).symm
  | ⟨4, _⟩ => exact (((dat1 (V2 m ρ) c).arrAt_in 4 rfl _).trans (A_eq1 (V2 m ρ) c 4)).trans (W3_of_ne m ρ c main_v12 (by decide)).symm
  | ⟨5, _⟩ => exact (((dat1 (V2 m ρ) c).arrAt_in 5 rfl _).trans (A_eq1 (V2 m ρ) c 5)).trans (W3_of_ne m ρ c main_arg8 (by decide)).symm
  | ⟨6, _⟩ => exact (((dat1 (V2 m ρ) c).arrAt_in 6 rfl _).trans (A_eq1 (V2 m ρ) c 6)).trans (W3_of_ne m ρ c main_v9 (by decide)).symm
  | ⟨7, _⟩ => exact (((dat1 (V2 m ρ) c).arrAt_in 7 rfl _).trans (A_eq1 (V2 m ρ) c 7)).trans (W3_of_ne m ρ c main_v10 (by decide)).symm
  | ⟨8, _⟩ => exact (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨8, Finset.mem_univ _, e.symm⟩)
/-- After the last host operation: what the program ends with. -/
abbrev W4 : Dev nD → Valuation τ sig (Elt F) := fun c => StableHlo.after hostOps2 (W3 m ρ c)

/-! ### No host operation and no region writes an argument: the fold at an argument's buffer walks back to the launch -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`.  Two of its
    windows read one array: the array's buffer is split between them at entry and rejoined at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays_of_unscopedBufs1 (V2 m ρ) c (V2 m ρ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V2 m ρ) c (V2 m ρ c) (V3 m ρ c) ((dat1 (V2 m ρ) c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

/-- The program's four segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Cert.KernelIdeal.Hand

end
-- ==== Proof.Spec.lean ====
/-
  The function both programs compute, index by index, on the extended reals.

  A batch of graphs, 160 nodes each.  Every node feature row is projected to 128 channels and rectified
  (`node`).  For an ordered pair of nodes (i, j) the pair's feature is the channelwise product of the two
  projected rows followed by the pair's 8 spatial features; it is mapped by a 136 x 128 matrix plus a bias
  (`row`: the first 128 rows of the matrix meet the product, the last 8 the spatial features, added one
  after the other from zero).  The resulting 128-vector is normalised to mean zero and unit variance over its
  channels, scaled and shifted per batch element by `gamma` and `beta` (two halves of one affine map of the
  conditioning vector, `gamma` shifted by one), and rectified (`normFilm`).

  The four float words the programs share are kept as words: they are never evaluated.
-/
import Idealize.ShloMosaic.PureOps.Ideal
import Idealize.ShloMosaic.Lib.ValueIdx

noncomputable section

namespace Cert.PairFilm

open Idealize.ShloMosaic Idealize.ShloMosaic.ValueIdx

/-- The word of +0.0. -/
abbrev wZero : EReal := Ideal.ofBits .f32 0x00000000#32
/-- The word of 1.0. -/
abbrev wOne : EReal := Ideal.ofBits .f32 0x3F800000#32
/-- The word of 128.0, the number of channels a mean is taken over. -/
abbrev wChan : EReal := Ideal.ofBits .f32 0x43000000#32
/-- The word of the variance's additive constant. -/
abbrev wEps : EReal := Ideal.ofBits .f32 0x3727C5AC#32

/-- A node's projected, rectified feature: max (x[b,n,:] . Wp[:,e] + bp[e], 0). -/
def node (x : (⟨3, ![16, 160, 1024]⟩ : Shape).Idx → EReal) (Wp : (⟨2, ![1024, 128]⟩ : Shape).Idx → EReal)
    (bp : (⟨1, ![128]⟩ : Shape).Idx → EReal) (b : Fin 16) (n : Fin 160) (e : Fin 128) : EReal :=
  max ((∑ k : Fin 1024, x (ix3 b n k) * Wp (ix2 k e)) + bp (ix1 e)) wZero

/-- The conditioning vector's affine image: cf[b,:] . Wc[:,j] + bc[j]. -/
def cond (cf : (⟨2, ![16, 1024]⟩ : Shape).Idx → EReal) (Wc : (⟨2, ![1024, 256]⟩ : Shape).Idx → EReal)
    (bc : (⟨1, ![256]⟩ : Shape).Idx → EReal) (b : Fin 16) (j : Fin 256) : EReal :=
  (∑ k : Fin 1024, cf (ix2 b k) * Wc (ix2 k j)) + bc (ix1 j)

/-- The scale: the first 128 entries of `cond`, plus one. -/
def gamma (cf : (⟨2, ![16, 1024]⟩ : Shape).Idx → EReal) (Wc : (⟨2, ![1024, 256]⟩ : Shape).Idx → EReal)
    (bc : (⟨1, ![256]⟩ : Shape).Idx → EReal) (b : Fin 16) (o : Fin 128) : EReal :=
  cond cf Wc bc b ⟨o.val, by omega⟩ + wOne

/-- The shift: the last 128 entries of `cond`. -/
def beta (cf : (⟨2, ![16, 1024]⟩ : Shape).Idx → EReal) (Wc : (⟨2, ![1024, 256]⟩ : Shape).Idx → EReal)
    (bc : (⟨1, ![256]⟩ : Shape).Idx → EReal) (b : Fin 16) (o : Fin 128) : EReal :=
  cond cf Wc bc b ⟨128 + o.val, by omega⟩

/-- A pair's 128-vector before normalisation, from the two nodes' projected rows `hi`, `hj`, the pair's spatial
    features `s`, the two parts `w1` (128 x 128) and `w2` (8 x 128) of the matrix and the bias `bv`.  The product
    part is one sum over the 128 channels; the spatial part is added term by term starting from the zero word. -/
def rowGen (hi hj : Fin 128 → EReal) (s : Fin 8 → EReal) (w1 : Fin 128 → Fin 128 → EReal) (w2 : Fin 8 → Fin 128 → EReal)
    (bv : Fin 128 → EReal) (o : Fin 128) : EReal :=
  ((∑ e : Fin 128, (hi e * hj e) * w1 e o)
    + ((((((((wZero + s 0 * w2 0 o) + s 1 * w2 1 o) + s 2 * w2 2 o) + s 3 * w2 3 o) + s 4 * w2 4 o) + s 5 * w2 5 o)
        + s 6 * w2 6 o) + s 7 * w2 7 o))
    + bv o

/-- The pair (i, j)'s 128-vector before normalisation, for one batch element: `h` the projected node rows, `s` the
    pairs' spatial features; the matrix's first 128 rows meet the product, its last 8 the spatial features. -/
def row (h : Fin 160 → Fin 128 → EReal) (s : Fin 160 → Fin 160 → Fin 8 → EReal)
    (Wf : (⟨2, ![136, 128]⟩ : Shape).Idx → EReal) (bf : (⟨1, ![128]⟩ : Shape).Idx → EReal)
    (i j : Fin 160) (o : Fin 128) : EReal :=
  rowGen (h i) (h j) (s i j) (fun e o' => Wf (ix2 (⟨e.val, by omega⟩ : Fin 136) o'))
    (fun c o' => Wf (ix2 (⟨128 + c.val, by omega⟩ : Fin 136) o')) (fun o' => bf (ix1 o')) o

/-- The mean of a 128-vector: its sum divided by the word of 128. -/
def mean (r : Fin 128 → EReal) : EReal := Ideal.div (∑ o : Fin 128, r o) wChan

/-- Normalise a 128-vector over its channels, scale by `g`, shift by `bt`, rectify; read at channel `o`. `g` and `bt`
    are the scale and the shift AT channel `o`. -/
def normFilm (r : Fin 128 → EReal) (g bt : EReal) (o : Fin 128) : EReal :=
  max (g * ((r o - mean r)
        * Ideal.rsqrt (Ideal.div (∑ o' : Fin 128, (r o' - mean r) * (r o' - mean r)) wChan + wEps)) + bt) wZero

section

variable (x : (⟨3, ![16, 160, 1024]⟩ : Shape).Idx → EReal) (cf : (⟨2, ![16, 1024]⟩ : Shape).Idx → EReal)
  (sp : (⟨4, ![16, 160, 160, 8]⟩ : Shape).Idx → EReal) (Wp : (⟨2, ![1024, 128]⟩ : Shape).Idx → EReal)
  (bp : (⟨1, ![128]⟩ : Shape).Idx → EReal) (Wc : (⟨2, ![1024, 256]⟩ : Shape).Idx → EReal)
  (bc : (⟨1, ![256]⟩ : Shape).Idx → EReal) (Wf : (⟨2, ![136, 128]⟩ : Shape).Idx → EReal)
  (bf : (⟨1, ![128]⟩ : Shape).Idx → EReal)

/-- The result at batch element `b`, ordered pair `(i, j)`, channel `o`. -/
def G4 (b : Fin 16) (i j : Fin 160) (o : Fin 128) : EReal :=
  normFilm (row (fun n e => node x Wp bp b n e) (fun i' j' c => sp (ix4 b i' j' c)) Wf bf i j)
    (gamma cf Wc bc b o) (beta cf Wc bc b o) o

/-- The result as the programs return it: the pairs of all batch elements in one list of 16 * 160 * 160 rows, row
    `(b * 160 + i) * 160 + j` the pair `(i, j)` of batch element `b`. -/
def G (q : (⟨2, ![409600, 128]⟩ : Shape).Idx) : EReal :=
  G4 x cf sp Wp bp Wc bc Wf bf ⟨(q 0).val / 25600, by have := (q 0).isLt; simp only [Matrix.cons_val_zero] at this; omega⟩
    ⟨(q 0).val / 160 % 160, Nat.mod_lt _ (by norm_num)⟩ ⟨(q 0).val % 160, Nat.mod_lt _ (by norm_num)⟩
    ⟨(q 1).val, by have := (q 1).isLt; simpa using this⟩

end

end Cert.PairFilm

end
-- ==== Proof.KerPayload.lean ====
/-
  The two bodies' stored values, read at an index, on the extended reals.

  The projection body stores, for one batch element, at node n and channel e, the row of features times the matrix
  column plus the bias, rectified. The pair body stores, for a block of 80 row nodes against all 160 column nodes, at
  pair (i, j) and channel o, the normalised, scaled, shifted and rectified 128-vector of the pair: the channelwise
  product of the two nodes' projected rows times the first part of the matrix (one sum over 128 channels), plus the
  eight spatial terms added one after the other from the zero word, plus the bias; then the row is centred by its
  mean, divided by the root of its mean square plus a constant, scaled, shifted, and rectified.

  Every step is read through the array operations at an index written by coordinates: reshapes by row-major position,
  broadcasts by the coordinates they keep, slices by their offset, a lane sum as the sum over the lane coordinate, a
  matrix product into the zero array as the sum over the contracted coordinate. The float words are never evaluated
  except the zero word a sum starts from.
-/
import proofs.«172288_j79517024518197_2_alg».proof.Proof.Gen.KernelIdeal.Skeleton
import proofs.«172288_j79517024518197_2_alg».proof.Proof.Spec
import Idealize.ShloMosaic.Lib.ValueLayout
import Idealize.ShloMosaic.Lib.Pipeline.Value
import Idealize.ShloMosaic.PureOps.Ideal.Laws

noncomputable section

namespace Cert.PairFilm.Ker

open Cert.KernelIdeal Cert.KernelIdeal.Gen Idealize.ShloMosaic Idealize.ShloMosaic.ValueIdx

/-! ## A matrix product into the zero array, read at an index

For a product of an m x k by a k x n array with one contracted axis, the entry at (r, c) is the plain sum over
the contracted coordinate. The four hypotheses say which coordinate of each operand's index comes from where; they
hold by computation for a concrete record of dimension numbers. -/

theorem matmul_zero_apply2 {m k n : Nat} {φ₁ φ₂ : FTy}
    (D : DotDims ⟨2, ![m, k]⟩ ⟨2, ![k, n]⟩ ⟨2, ![m, n]⟩) (hr : D.contr.rank = 1)
    (hs : D.contr.size ⟨0, by omega⟩ = k)
    (hl0 : ∀ j q, (D.lhsIdx j q ⟨0, Nat.zero_lt_two⟩).val = (j ⟨0, Nat.zero_lt_two⟩).val)
    (hl1 : ∀ j q, (D.lhsIdx j q ⟨1, Nat.one_lt_two⟩).val = (q ⟨0, by omega⟩).val)
    (hr0 : ∀ j q, (D.rhsIdx j q ⟨0, Nat.zero_lt_two⟩).val = (q ⟨0, by omega⟩).val)
    (hr1 : ∀ j q, (D.rhsIdx j q ⟨1, Nat.one_lt_two⟩).val = (j ⟨1, Nat.one_lt_two⟩).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ q : Fin k, lhs (ix2 r q) * rhs (ix2 q c) := by
  simp only [matmul]
  rw [Ideal.matmul_constant_zero_apply, ← Equiv.sum_comp (contrEquiv1 D k hr hs).symm]
  refine Finset.sum_congr rfl fun q _ => ?_
  have hq := contrEquiv1_symm_val D k hr hs q
  have el : D.lhsIdx (ix2 r c) ((contrEquiv1 D k hr hs).symm q) = ix2 r q := funext fun a => Fin.ext (by
    match a with
    | ⟨0, _⟩ => exact hl0 _ _
    | ⟨1, _⟩ => exact (hl1 _ _).trans hq)
  have er : D.rhsIdx (ix2 r c) ((contrEquiv1 D k hr hs).symm q) = ix2 q c := funext fun a => Fin.ext (by
    match a with
    | ⟨0, _⟩ => exact (hr0 _ _).trans hq
    | ⟨1, _⟩ => exact hr1 _ _)
  rw [el, er]

/-! ## The projection body: one store -/

/-- The stored value at node n, channel e: the row of features times the matrix column, plus the bias,
    rectified. The narrowing to sixteen bits is the identity on the extended reals. -/
theorem proj_payload_apply (v0 : Vec Ideal S1x160x1024 .f32) (v2 : Vec Ideal S1024x128 .f32) (v3 : Vec Ideal S128 .f32) (n : Fin 160) (e : Fin 128) :
    k0_pay1 (F := Ideal) v0 v2 v3 (ix3 (0 : Fin 1) n e)
      = max ((∑ k : Fin 1024, v0 (ix3 (0 : Fin 1) n k) * v2 (ix2 k e)) + v3 (ix1 e)) Cert.PairFilm.wZero := by
  unfold k0_pay1
  refine (shapeCast_ab_1ab_apply _ shapeCasts_S160x128_S1x160x128 (0 : Fin 1) n e).trans ?_
  rw [truncf_apply, maximumf_apply, addf_apply, broadcast_apply,
    matmul_zero_apply2 dot_S160x1024_S1024x128_S160x128_1_0_0_1_n_n rfl rfl
      (fun j q => by
        unfold DotDims.lhsIdx
        rw [dif_neg (show ¬(⟨0, by decide⟩ : Fin S160x1024.rank) ∈ dot_S160x1024_S1024x128_S160x128_1_0_0_1_n_n.lhsBatch by decide),
          dif_pos (show (⟨0, by decide⟩ : Fin S160x1024.rank) ∈ dot_S160x1024_S1024x128_S160x128_1_0_0_1_n_n.lhsNonContracting by decide)]
        rfl)
      (fun j q => dot_S160x1024_S1024x128_S160x128_1_0_0_1_n_n.lhsIdx_val_of_single rfl j q)
      (fun j q => dot_S160x1024_S1024x128_S160x128_1_0_0_1_n_n.rhsIdx_val_of_single rfl j q)
      (fun j q => by
        unfold DotDims.rhsIdx
        rw [dif_neg (show ¬(⟨1, by decide⟩ : Fin S1024x128.rank) ∈ dot_S160x1024_S1024x128_S160x128_1_0_0_1_n_n.rhsBatch by decide),
          dif_pos (show (⟨1, by decide⟩ : Fin S1024x128.rank) ∈ dot_S160x1024_S1024x128_S160x128_1_0_0_1_n_n.rhsNonContracting by decide)]
        rfl)]
  simp only [truncf_apply, shapeCast_1ab_ab_apply, broadcastTo_1b_ab_apply, shapeCast_a_1a_apply]
  rfl

/-! ## Layout operations of the pair body, read at an index given by coordinates -/

section Layout
variable {α : Type}

/-- A vector of length a cast to a column [a, 1] reads, at (r, u), the vector at r. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [a, 1] broadcast along the rows to [a, b] reads, at (r, c), the column at r. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- An [a, b] array cast to [a, b, 1] reads, at (i, j, u), the array at (i, j). -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, c] array cast to [a, 1, c] reads, at (i, u, e), the array at (i, e). -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (e : Fin c) : shapeCast ⟨3, ![a, 1, c]⟩ x h (ix3 i u e) = x (ix2 i e) :=
  shapeCast_apply x h _ _ (by
    have hu : u.val = 0 := by omega
    rw [Shape.rowMajor_val_three, Shape.rowMajor_val_two]
    show i.val * c + e.val = (i.val * 1 + u.val) * c + e.val
    rw [hu, Nat.mul_one, Nat.add_zero])

/-- A vector of length c cast to [1, 1, c] reads, at (u, w, e), the vector at e. -/
theorem shapeCast_c_11c_apply {c : ℕ} (x : (⟨1, ![c]⟩ : Shape).Idx → α) (h : (⟨1, ![c]⟩ : Shape).ShapeCasts ⟨3, ![1, 1, c]⟩)
    (u w : Fin 1) (e : Fin c) : shapeCast ⟨3, ![1, 1, c]⟩ x h (ix3 u w e) = x (ix1 e) :=
  shapeCast_apply x h _ _ (by
    have hu : u.val = 0 := by omega
    have hw : w.val = 0 := by omega
    rw [Shape.rowMajor_val_three, Shape.rowMajor_val_one]
    show e.val = (u.val * 1 + w.val) * c + e.val
    simp only [hu, hw, Nat.zero_mul, Nat.zero_add])

/-- An [a, b, c] array flattened to [a * b, c] reads, at row i * b + j and column e, the array at (i, j, e). -/
theorem shapeCast_abc_flat_apply {a b c m : ℕ} (x : (⟨3, ![a, b, c]⟩ : Shape).Idx → α)
    (h : (⟨3, ![a, b, c]⟩ : Shape).ShapeCasts ⟨2, ![m, c]⟩) (i : Fin a) (j : Fin b) (e : Fin c) (r : Fin m)
    (hr : r.val = i.val * b + j.val) : shapeCast ⟨2, ![m, c]⟩ x h (ix2 r e) = x (ix3 i j e) :=
  shapeCast_apply x h _ _ (by
    rw [Shape.rowMajor_val_three, Shape.rowMajor_val_two]
    show (i.val * b + j.val) * c + e.val = r.val * c + e.val
    rw [hr])

/-- An [a * b, c] array cast to [a, b, c] reads, at (i, j, e), the array at row i * b + j and column e. -/
theorem shapeCast_flat_abc_apply {a b c m : ℕ} (x : (⟨2, ![m, c]⟩ : Shape).Idx → α)
    (h : (⟨2, ![m, c]⟩ : Shape).ShapeCasts ⟨3, ![a, b, c]⟩) (i : Fin a) (j : Fin b) (e : Fin c) (r : Fin m)
    (hr : r.val = i.val * b + j.val) : shapeCast ⟨3, ![a, b, c]⟩ x h (ix3 i j e) = x (ix2 r e) :=
  shapeCast_apply x h _ _ (by
    rw [Shape.rowMajor_val_three, Shape.rowMajor_val_two]
    show r.val * c + e.val = (i.val * b + j.val) * c + e.val
    rw [hr])

/-- An [80, 160, 1] array broadcast along the channels reads, at (i, j, o), the array at (i, j, 0). -/
theorem broadcastTo_ab1_abc_apply (v : S80x160x1.Idx → α) (i : Fin 80) (j : Fin 160) (o : Fin 128) :
    broadcastTo S80x160x128 v broadcasts_S80x160x1_S80x160x128 (ix3 i j o) = v (ix3 i j (0 : Fin 1)) := by
  refine broadcastTo_apply v _ (ix3 i j o) (ix3 i j (0 : Fin 1)) fun ax => ?_
  match ax with
  | ⟨0, _⟩ => show i.val = if (80 : Nat) = 1 then 0 else i.val; rw [if_neg (by decide)]
  | ⟨1, _⟩ => show j.val = if (160 : Nat) = 1 then 0 else j.val; rw [if_neg (by decide)]
  | ⟨2, _⟩ => rfl

/-- A [1, 1, 128] row broadcast over all pairs reads, at (i, j, o), the row at o. -/
theorem broadcastTo_11c_abc_apply (v : S1x1x128.Idx → α) (i : Fin 80) (j : Fin 160) (o : Fin 128) :
    broadcastTo S80x160x128 v broadcasts_S1x1x128_S80x160x128 (ix3 i j o) = v (ix3 (0 : Fin 1) (0 : Fin 1) o) := by
  refine broadcastTo_apply v _ (ix3 i j o) (ix3 (0 : Fin 1) (0 : Fin 1) o) fun ax => ?_
  match ax with
  | ⟨0, _⟩ => rfl
  | ⟨1, _⟩ => rfl
  | ⟨2, _⟩ => show o.val = if (128 : Nat) = 1 then 0 else o.val; rw [if_neg (by decide)]

/-- An [80, 1, 128] array broadcast along the second axis reads, at (i, j, e), the array at (i, 0, e). -/
theorem broadcastTo_a1c_abc_apply (v : S80x1x128.Idx → α) (i : Fin 80) (j : Fin 160) (e : Fin 128) :
    broadcastTo S80x160x128 v broadcasts_S80x1x128_S80x160x128 (ix3 i j e) = v (ix3 i (0 : Fin 1) e) := by
  refine broadcastTo_apply v _ (ix3 i j e) (ix3 i (0 : Fin 1) e) fun ax => ?_
  match ax with
  | ⟨0, _⟩ => show i.val = if (80 : Nat) = 1 then 0 else i.val; rw [if_neg (by decide)]
  | ⟨1, _⟩ => rfl
  | ⟨2, _⟩ => show e.val = if (128 : Nat) = 1 then 0 else e.val; rw [if_neg (by decide)]

/-- A [1, 160, 128] array broadcast along the first axis reads, at (i, j, e), the array at (0, j, e). -/
theorem broadcastTo_1bc_abc_apply (v : S1x160x128.Idx → α) (i : Fin 80) (j : Fin 160) (e : Fin 128) :
    broadcastTo S80x160x128 v broadcasts_S1x160x128_S80x160x128 (ix3 i j e) = v (ix3 (0 : Fin 1) j e) := by
  refine broadcastTo_apply v _ (ix3 i j e) (ix3 (0 : Fin 1) j e) fun ax => ?_
  match ax with
  | ⟨0, _⟩ => rfl
  | ⟨1, _⟩ => show j.val = if (160 : Nat) = 1 then 0 else j.val; rw [if_neg (by decide)]
  | ⟨2, _⟩ => show e.val = if (128 : Nat) = 1 then 0 else e.val; rw [if_neg (by decide)]

/-- One plane of an [8, 80, 160] array, cut at position c along the first axis, reads at (0, i, j) the array at (c, i, j). -/
theorem plane_apply (c : Nat) (X : S8x80x160.Idx → α) (h : S8x80x160.Slices ![c, 0, 0] S1x80x160)
    (k : Fin 8) (hk : k.val = c) (i : Fin 80) (j : Fin 160) :
    extractStridedSlice S1x80x160 ![c, 0, 0] X h (ix3 (0 : Fin 1) i j) = X (ix3 k i j) :=
  extractStridedSlice_apply _ _ _ _ _ (fun ax => by
    match ax with
    | ⟨0, _⟩ => exact hk.trans (Nat.add_zero _).symm
    | ⟨1, _⟩ => exact (Nat.zero_add _).symm
    | ⟨2, _⟩ => exact (Nat.zero_add _).symm)

/-- One row of an [8, 128] array, cut at position c, reads at (0, o) the array at (c, o). -/
theorem row_apply (c : Nat) (X : S8x128.Idx → α) (h : S8x128.Slices ![c, 0] S1x128)
    (k : Fin 8) (hk : k.val = c) (o : Fin 128) :
    extractStridedSlice S1x128 ![c, 0] X h (ix2 (0 : Fin 1) o) = X (ix2 k o) :=
  slice2_axis0_apply c X h (0 : Fin 1) o k (hk.trans (Nat.add_zero _).symm)

end Layout

/-! ## The sum along the lanes -/

/-- The 32-bit format is one a lane sum is taken at, and the zero word is the sum's neutral word. -/
theorem fmt32 : FKind.Formats .f32 := .inl rfl
theorem acc0 : (0x00000000#32 : BitVec 32) = FKind.add.neutral .f32 fmt32 := rfl

/-- The sum over the 128 lanes of a [12800, 128] array, started from the zero word, read at row r: the plain sum of
    the row. -/
theorem laneSum_apply (y : FVec Ideal S12800x128 .f32) (r : Fin 12800) :
    multiReduction .add [1] S12800 y 0x00000000#32 reduces_S12800x128_S12800 fmt32 acc0 (ix1 r)
      = ∑ k : Fin 128, y (ix2 r k) := by
  refine (Ideal.multiReduction_add_single y 0x00000000#32 reduces_S12800x128_S12800 fmt32 acc0 (ix1 r)).trans ?_
  refine Finset.sum_congr rfl fun k _ => congrArg y (funext fun a => Fin.ext ?_)
  match a with
  | ⟨0, _⟩ => rfl
  | ⟨1, _⟩ => rfl

/-- The reciprocal square root of a vector reads elementwise. -/
theorem rsqrt_apply {s : Shape} {φ : FTy} (a : FVec Ideal s φ) (i : s.Idx) : rsqrt a i = Ideal.rsqrt (a i) := rfl

/-! ## The normalisation of the rows

The last part of the pair body, as a function of the array y of rows before normalisation and the scale and shift
rows: per row, the mean (lane sum divided by the word of 128), the centred row, the mean of its squares plus the
additive constant, the reciprocal square root, then scale, shift, and the maximum with the zero word. -/

def normTail (y : FVec Ideal S12800x128 .f32) (g bt : FVec Ideal S1x128 .f32) : FVec Ideal S12800x128 .f32 :=
  have chan : FVec Ideal S12800x1 .f32 := broadcast S12800x1 (Scalar.ofBits .f32 0x43000000#32)
  have mu : FVec Ideal S12800x1 .f32 :=
    divf (shapeCast S12800x1 (multiReduction .add [1] S12800 y 0x00000000#32 reduces_S12800x128_S12800 fmt32 acc0)
      shapeCasts_S12800_S12800x1) chan
  have d : FVec Ideal S12800x128 .f32 := subf y (broadcastTo S12800x128 mu broadcasts_S12800x1_S12800x128)
  have var : FVec Ideal S12800x1 .f32 :=
    divf (shapeCast S12800x1 (multiReduction .add [1] S12800 (mulf d d) 0x00000000#32 reduces_S12800x128_S12800 fmt32 acc0)
      shapeCasts_S12800_S12800x1) chan
  have inv : FVec Ideal S12800x1 .f32 := rsqrt (addf var (broadcast S12800x1 (Scalar.ofBits .f32 0x3727C5AC#32)))
  maximumf
    (addf (mulf (broadcastTo S12800x128 g broadcasts_S1x128_S12800x128)
        (mulf d (broadcastTo S12800x128 inv broadcasts_S12800x1_S12800x128)))
      (broadcastTo S12800x128 bt broadcasts_S1x128_S12800x128))
    (broadcast S12800x128 (Scalar.ofBits .f32 0x00000000#32))

/-- The normalised array at row r, channel o, is the specification's normalisation of row r of y, with the scale and
    the shift at channel o. -/
theorem normTail_apply (y : FVec Ideal S12800x128 .f32) (g bt : FVec Ideal S1x128 .f32) (r : Fin 12800) (o : Fin 128) :
    normTail y g bt (ix2 r o)
      = Cert.PairFilm.normFilm (fun o' => y (ix2 r o')) (g (ix2 (0 : Fin 1) o)) (bt (ix2 (0 : Fin 1) o)) o := by
  unfold normTail Cert.PairFilm.normFilm Cert.PairFilm.mean
  simp only [maximumf_apply, addf_apply, mulf_apply, subf_apply, divf_apply, broadcast_apply, rsqrt_apply,
    broadcastTo_1b_ab_apply, broadcastTo_a1_ab_apply, shapeCast_a_a1_apply]
  rw [laneSum_apply y r, laneSum_apply _ r]
  simp only [mulf_apply, subf_apply, divf_apply, broadcast_apply, broadcastTo_a1_ab_apply, shapeCast_a_a1_apply]
  rw [laneSum_apply y r]
  rfl

/-! ## The pair body before normalisation -/

/-- One spatial term as an [80, 160, 128] array: the plane P of one spatial feature over the pairs, times the row W
    of the matrix for that feature. -/
def spTerm (P : FVec Ideal S1x80x160 .f32) (W : FVec Ideal S1x128 .f32) : FVec Ideal S80x160x128 .f32 :=
  mulf
    (broadcastTo S80x160x128 (shapeCast S80x160x1 (shapeCast S80x160 P shapeCasts_S1x80x160_S80x160)
      shapeCasts_S80x160_S80x160x1) broadcasts_S80x160x1_S80x160x128)
    (broadcastTo S80x160x128 (shapeCast S1x1x128 (shapeCast S128 W shapeCasts_S1x128_S128)
      shapeCasts_S128_S1x1x128) broadcasts_S1x1x128_S80x160x128)

/-- At pair (i, j), channel o, it is the feature of the pair times the matrix entry. -/
theorem spTerm_apply (P : FVec Ideal S1x80x160 .f32) (W : FVec Ideal S1x128 .f32) (i : Fin 80) (j : Fin 160) (o : Fin 128) :
    spTerm P W (ix3 i j o) = P (ix3 (0 : Fin 1) i j) * W (ix2 (0 : Fin 1) o) := by
  unfold spTerm
  rw [mulf_apply, broadcastTo_ab1_abc_apply, broadcastTo_11c_abc_apply, shapeCast_ab_ab1_apply, shapeCast_1ab_ab_apply,
    shapeCast_c_11c_apply, shapeCast_1a_a_apply]

/-- The rows before normalisation, as the body forms them: the product part, plus the flattened spatial part (the
    running sum acc of the first seven terms plus the eighth), plus the bias row. -/
def preNorm (w2 : FVec Ideal S8x128 .f32) (bv : Vec Ideal S128 .f32) (prod : FVec Ideal S12800x128 .f32)
    (acc : FVec Ideal S80x160x128 .f32) (s7 : FVec Ideal S1x80x160 .f32) : FVec Ideal S12800x128 .f32 :=
  addf
    (addf prod
      (shapeCast S12800x128 (addf acc (spTerm s7 (extractStridedSlice S1x128 ![7, 0] w2 slices_S8x128_o7_0_S1x128)))
        shapeCasts_S80x160x128_S12800x128))
    (broadcastTo S12800x128 (shapeCast S1x128 bv shapeCasts_S128_S1x128) broadcasts_S1x128_S12800x128)

/-- The stored value of the pair body is the normalisation of those rows, cast back to [1, 80, 160, 128]. -/
theorem k1_pay1_eq (v9 : FVec Ideal S8x128 .f32) (v10 : Vec Ideal S128 .f32) (v12 v14 : FVec Ideal S1x128 .f32)
    (v22 : FVec Ideal S12800x128 .f32) (v93 : FVec Ideal S80x160x128 .f32) (v94 : FVec Ideal S1x80x160 .f32) :
    k1_pay1 v9 v10 v12 v14 v22 v93 v94
      = shapeCast S1x80x160x128
          (shapeCast S80x160x128 (normTail (preNorm v9 v10 v22 v93 v94) v12 v14) shapeCasts_S12800x128_S80x160x128)
          shapeCasts_S80x160x128_S1x80x160x128 := rfl

/-- The rows before normalisation at row R = i * 160 + j, channel o. -/
theorem preNorm_apply (w2 : FVec Ideal S8x128 .f32) (bv : Vec Ideal S128 .f32) (prod : FVec Ideal S12800x128 .f32)
    (acc : FVec Ideal S80x160x128 .f32) (s7 : FVec Ideal S1x80x160 .f32) (i : Fin 80) (j : Fin 160) (o : Fin 128)
    (R : Fin 12800) (hR : R.val = i.val * 160 + j.val) :
    preNorm w2 bv prod acc s7 (ix2 R o)
      = (prod (ix2 R o) + (acc (ix3 i j o) + s7 (ix3 (0 : Fin 1) i j) * w2 (ix2 (7 : Fin 8) o))) + bv (ix1 o) := by
  unfold preNorm
  rw [addf_apply, addf_apply, shapeCast_abc_flat_apply _ _ i j o R hR, addf_apply, spTerm_apply,
    row_apply 7 _ _ (7 : Fin 8) rfl, broadcastTo_1b_ab_apply, shapeCast_a_1a_apply]

/-! ## The payloads the pair body passes on -/

/-- The spatial features without their leading unit axis. -/
theorem pay2_apply (v4 : Vec Ideal S1x8x80x160 .f32) (k : Fin 8) (i : Fin 80) (j : Fin 160) :
    k1_pay2 v4 (ix3 k i j) = v4 (ix4 (0 : Fin 1) k i j) := by
  unfold k1_pay2
  exact shapeCast_1abc_abc_apply _ _ k i j

/-- A cast to the same shape is the identity. -/
theorem pay3_eq (v8 : Vec Ideal S8x128 .f32) : k1_pay3 v8 = v8 := by
  unfold k1_pay3
  exact shapeCast_self _ _

/-- The scale row and the shift row without their leading unit axis. -/
theorem pay4_apply (v11 : Vec Ideal S1x1x128 .f32) (o : Fin 128) :
    k1_pay4 v11 (ix2 (0 : Fin 1) o) = v11 (ix3 (0 : Fin 1) (0 : Fin 1) o) := by
  unfold k1_pay4
  exact shapeCast_1ab_ab_apply _ _ (0 : Fin 1) o
theorem pay5_apply (v13 : Vec Ideal S1x1x128 .f32) (o : Fin 128) :
    k1_pay5 v13 (ix2 (0 : Fin 1) o) = v13 (ix3 (0 : Fin 1) (0 : Fin 1) o) := by
  unfold k1_pay5
  exact shapeCast_1ab_ab_apply _ _ (0 : Fin 1) o

/-- The product part: the channelwise product of row node i and column node j, flattened to row R = i * 160 + j,
    times the first part of the matrix: one sum over the 128 channels. -/
theorem pay6_apply (v0 : Vec Ideal S1x80x128 .bf16) (v2 : Vec Ideal S1x160x128 .bf16) (v6 : Vec Ideal S128x128 .f32)
    (i : Fin 80) (j : Fin 160) (o : Fin 128) (R : Fin 12800) (hR : R.val = i.val * 160 + j.val) :
    k1_pay6 v0 v2 v6 (ix2 R o)
      = ∑ e : Fin 128, (v0 (ix3 (0 : Fin 1) i e) * v2 (ix3 (0 : Fin 1) j e)) * v6 (ix2 e o) := by
  unfold k1_pay6
  rw [matmul_zero_apply2 dot_S12800x128_S128x128_S12800x128_1_0_0_1_n_n rfl rfl
      (fun j q => by
        unfold DotDims.lhsIdx
        rw [dif_neg (show ¬(⟨0, by decide⟩ : Fin S12800x128.rank) ∈ dot_S12800x128_S128x128_S12800x128_1_0_0_1_n_n.lhsBatch by decide),
          dif_pos (show (⟨0, by decide⟩ : Fin S12800x128.rank) ∈ dot_S12800x128_S128x128_S12800x128_1_0_0_1_n_n.lhsNonContracting by decide)]
        rfl)
      (fun j q => dot_S12800x128_S128x128_S12800x128_1_0_0_1_n_n.lhsIdx_val_of_single rfl j q)
      (fun j q => dot_S12800x128_S128x128_S12800x128_1_0_0_1_n_n.rhsIdx_val_of_single rfl j q)
      (fun j q => by
        unfold DotDims.rhsIdx
        rw [dif_neg (show ¬(⟨1, by decide⟩ : Fin S128x128.rank) ∈ dot_S12800x128_S128x128_S12800x128_1_0_0_1_n_n.rhsBatch by decide),
          dif_pos (show (⟨1, by decide⟩ : Fin S128x128.rank) ∈ dot_S12800x128_S128x128_S12800x128_1_0_0_1_n_n.rhsNonContracting by decide)]
        rfl)]
  refine Finset.sum_congr rfl fun e _ => ?_
  rw [truncf_apply, shapeCast_self, shapeCast_abc_flat_apply _ _ i j e R hR, mulf_apply, broadcastTo_a1c_abc_apply,
    broadcastTo_1bc_abc_apply, shapeCast_ac_a1c_apply, shapeCast_ab_1ab_apply, shapeCast_1ab_ab_apply,
    shapeCast_1ab_ab_apply]

/-- The first seven spatial terms, added one after the other from the zero word. -/
theorem spatial_chain_apply (v4 : Vec Ideal S1x8x80x160 .f32) (v8 : Vec Ideal S8x128 .f32) (i : Fin 80) (j : Fin 160) (o : Fin 128) :
    k1_pay9 (k1_pay2 v4) v8 (k1_pay7 v4 v8) (k1_pay8 v4) (ix3 i j o)
      = ((((((Cert.PairFilm.wZero + v4 (ix4 (0 : Fin 1) (0 : Fin 8) i j) * v8 (ix2 (0 : Fin 8) o))
          + v4 (ix4 (0 : Fin 1) (1 : Fin 8) i j) * v8 (ix2 (1 : Fin 8) o))
          + v4 (ix4 (0 : Fin 1) (2 : Fin 8) i j) * v8 (ix2 (2 : Fin 8) o))
          + v4 (ix4 (0 : Fin 1) (3 : Fin 8) i j) * v8 (ix2 (3 : Fin 8) o))
          + v4 (ix4 (0 : Fin 1) (4 : Fin 8) i j) * v8 (ix2 (4 : Fin 8) o))
          + v4 (ix4 (0 : Fin 1) (5 : Fin 8) i j) * v8 (ix2 (5 : Fin 8) o))
          + v4 (ix4 (0 : Fin 1) (6 : Fin 8) i j) * v8 (ix2 (6 : Fin 8) o) := by
  have e9 : k1_pay9 (k1_pay2 v4) v8 (k1_pay7 v4 v8) (k1_pay8 v4)
      = addf (addf (addf (addf (addf (addf (k1_pay7 v4 v8)
          (spTerm (k1_pay8 v4) (extractStridedSlice S1x128 ![1, 0] v8 slices_S8x128_o1_0_S1x128)))
          (spTerm (extractStridedSlice S1x80x160 ![2, 0, 0] (k1_pay2 v4) slices_S8x80x160_o2_0_0_S1x80x160)
            (extractStridedSlice S1x128 ![2, 0] v8 slices_S8x128_o2_0_S1x128)))
          (spTerm (extractStridedSlice S1x80x160 ![3, 0, 0] (k1_pay2 v4) slices_S8x80x160_o3_0_0_S1x80x160)
            (extractStridedSlice S1x128 ![3, 0] v8 slices_S8x128_o3_0_S1x128)))
          (spTerm (extractStridedSlice S1x80x160 ![4, 0, 0] (k1_pay2 v4) slices_S8x80x160_o4_0_0_S1x80x160)
            (extractStridedSlice S1x128 ![4, 0] v8 slices_S8x128_o4_0_S1x128)))
          (spTerm (extractStridedSlice S1x80x160 ![5, 0, 0] (k1_pay2 v4) slices_S8x80x160_o5_0_0_S1x80x160)
            (extractStridedSlice S1x128 ![5, 0] v8 slices_S8x128_o5_0_S1x128)))
          (spTerm (extractStridedSlice S1x80x160 ![6, 0, 0] (k1_pay2 v4) slices_S8x80x160_o6_0_0_S1x80x160)
            (extractStridedSlice S1x128 ![6, 0] v8 slices_S8x128_o6_0_S1x128)) := rfl
  have e7 : k1_pay7 v4 v8
      = addf (broadcast S80x160x128 (Scalar.ofBits .f32 0x00000000#32))
          (spTerm (extractStridedSlice S1x80x160 ![0, 0, 0] (k1_pay2 v4) slices_S8x80x160_o0_0_0_S1x80x160)
            (extractStridedSlice S1x128 ![0, 0] (k1_pay3 v8) slices_S8x128_o0_0_S1x128)) := rfl
  have e8 : k1_pay8 v4 = extractStridedSlice S1x80x160 ![1, 0, 0] (k1_pay2 v4) slices_S8x80x160_o1_0_0_S1x80x160 := rfl
  rw [e9, e7, e8, pay3_eq]
  simp only [addf_apply, spTerm_apply, broadcast_apply]
  rw [plane_apply 0 _ _ (0 : Fin 8) rfl, plane_apply 1 _ _ (1 : Fin 8) rfl, plane_apply 2 _ _ (2 : Fin 8) rfl,
    plane_apply 3 _ _ (3 : Fin 8) rfl, plane_apply 4 _ _ (4 : Fin 8) rfl, plane_apply 5 _ _ (5 : Fin 8) rfl,
    plane_apply 6 _ _ (6 : Fin 8) rfl,
    row_apply 0 _ _ (0 : Fin 8) rfl, row_apply 1 _ _ (1 : Fin 8) rfl, row_apply 2 _ _ (2 : Fin 8) rfl,
    row_apply 3 _ _ (3 : Fin 8) rfl, row_apply 4 _ _ (4 : Fin 8) rfl, row_apply 5 _ _ (5 : Fin 8) rfl,
    row_apply 6 _ _ (6 : Fin 8) rfl]
  simp only [pay2_apply]
  rfl

/-- The eighth spatial plane. -/
theorem pay10_apply (v4 : Vec Ideal S1x8x80x160 .f32) (i : Fin 80) (j : Fin 160) :
    k1_pay10 (k1_pay2 v4) (ix3 (0 : Fin 1) i j) = v4 (ix4 (0 : Fin 1) (7 : Fin 8) i j) := by
  unfold k1_pay10
  rw [plane_apply 7 _ _ (7 : Fin 8) rfl, pay2_apply]

/-! ## The pair body: one store -/

/-- What the pair body stores, as a function of the eight blocks it loads: the row nodes v0, the column nodes v2, the
    spatial features v4, the two parts v6, v8 of the matrix, the bias v10, and the scale and shift rows v11, v13. -/
def filmPayload (v0 : Vec Ideal S1x80x128 .bf16) (v2 : Vec Ideal S1x160x128 .bf16) (v4 : Vec Ideal S1x8x80x160 .f32)
    (v6 : Vec Ideal S128x128 .f32) (v8 : Vec Ideal S8x128 .f32) (v10 : Vec Ideal S128 .f32)
    (v11 v13 : Vec Ideal S1x1x128 .f32) : FVec Ideal S1x80x160x128 .f32 :=
  k1_pay1 (k1_pay3 v8) v10 (k1_pay4 v11) (k1_pay5 v13) (k1_pay6 v0 v2 v6)
    (k1_pay9 (k1_pay2 v4) (k1_pay3 v8) (k1_pay7 v4 v8) (k1_pay8 v4)) (k1_pay10 (k1_pay2 v4))

/-- The stored value at pair (i, j), channel o: the specification's normalisation of the pair's row, the row built
    from the two nodes' projected rows, the pair's eight spatial features, the matrix and the bias. -/
theorem film_payload_apply (v0 : Vec Ideal S1x80x128 .bf16) (v2 : Vec Ideal S1x160x128 .bf16) (v4 : Vec Ideal S1x8x80x160 .f32)
    (v6 : Vec Ideal S128x128 .f32) (v8 : Vec Ideal S8x128 .f32) (v10 : Vec Ideal S128 .f32)
    (v11 v13 : Vec Ideal S1x1x128 .f32) (i : Fin 80) (j : Fin 160) (o : Fin 128) :
    filmPayload v0 v2 v4 v6 v8 v10 v11 v13 (ix4 (0 : Fin 1) i j o)
      = Cert.PairFilm.normFilm
          (Cert.PairFilm.rowGen (fun e => v0 (ix3 (0 : Fin 1) i e)) (fun e => v2 (ix3 (0 : Fin 1) j e)) (fun c => v4 (ix4 (0 : Fin 1) c i j))
            (fun e o' => v6 (ix2 e o')) (fun c o' => v8 (ix2 c o')) (fun o' => v10 (ix1 o')))
          (v11 (ix3 (0 : Fin 1) (0 : Fin 1) o)) (v13 (ix3 (0 : Fin 1) (0 : Fin 1) o)) o := by
  obtain ⟨R, hR⟩ : ∃ R : Fin 12800, R.val = i.val * 160 + j.val :=
    ⟨⟨i.val * 160 + j.val, by have := i.isLt; have := j.isLt; omega⟩, rfl⟩
  unfold filmPayload
  rw [k1_pay1_eq, pay3_eq]
  refine (shapeCast_abc_1abc_apply _ shapeCasts_S80x160x128_S1x80x160x128 (0 : Fin 1) i j o).trans ?_
  refine (shapeCast_flat_abc_apply _ shapeCasts_S12800x128_S80x160x128 i j o R hR).trans ?_
  rw [normTail_apply, pay4_apply, pay5_apply]
  refine congrArg (fun rr => Cert.PairFilm.normFilm rr (v11 (ix3 (0 : Fin 1) (0 : Fin 1) o)) (v13 (ix3 (0 : Fin 1) (0 : Fin 1) o)) o)
    (funext fun o' => ?_)
  rw [preNorm_apply _ _ _ _ _ i j o' R hR, pay6_apply v0 v2 v6 i j o' R hR, spatial_chain_apply, pay10_apply]
  rfl

end Cert.PairFilm.Ker

end
-- ==== Proof.IdealBlocks0.lean ====
/-
  The first region's result as one array.  Grid point `t` writes back block `t` of the array of projected rows:
  the 160 x 128 block of batch element `t`, each entry the rectified inner product of the node's feature row with
  a column of the projection matrix plus the bias.  The sixteen blocks cover the array, so after the region the
  output array IS that function of the three argument arrays, index by index.
-/
import proofs.«172288_j79517024518197_2_alg».proof.Proof.IdealRegion0
import proofs.«172288_j79517024518197_2_alg».proof.Proof.KerPayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projected rows as one array: entry (b, n, e) is node n of batch element b at channel e. -/
def projArr (x : S16x160x1024.Idx → EReal) (Wp : S1024x128.Idx → EReal) (bp : S128.Idx → EReal) : S16x160x128.Idx → EReal :=
  fun i => Cert.PairFilm.node x Wp bp (i 0) (i 1) (i 2)

theorem projArr_ix3 (x : S16x160x1024.Idx → EReal) (Wp : S1024x128.Idx → EReal) (bp : S128.Idx → EReal)
    (b : Fin 16) (n : Fin 160) (e : Fin 128) : projArr x Wp bp (ix3 b n e) = Cert.PairFilm.node x Wp bp b n e := rfl

/-- The printed index maps over the grid: point `t` reads and writes batch element `t`; the matrix and the bias do not move. -/
theorem idx_facts0 : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

theorem t_lt0 (t : Fin cfg0.N) : t.val < 16 := lt_of_lt_of_eq t.isLt N_0

/-- The feature window's block at point `t` is batch element `t`'s rows. -/
theorem iblk0_0_apply (c : Dev nD) (t : Fin cfg0.N) (n : Fin 160) (k : Fin 1024) :
    iblk0 V c 0 t (ix3 (0 : Fin 1) n k) = V c main_arg0 (ix3 (⟨t.val, t_lt0 t⟩ : Fin 16) n k) := by
  obtain ⟨e0, e1, e2, -⟩ := idx_facts0 t
  show V c main_arg0 (((cfg0.win 0).blk t).view.emb (ix3 (0 : Fin 1) n k)) = _
  refine congrArg (V c main_arg0) ?_
  funext a; apply Fin.ext
  match a with
  | ⟨0, _⟩ => show win0_0.index t (0 : Fin 3) * 1 + 1 * 0 = t.val; omega
  | ⟨1, _⟩ => show win0_0.index t (1 : Fin 3) * 160 + 1 * n.val = n.val; omega
  | ⟨2, _⟩ => show win0_0.index t (2 : Fin 3) * 1024 + 1 * k.val = k.val; omega

/-- The matrix window's block is the whole matrix. -/
theorem iblk0_1_apply (c : Dev nD) (t : Fin cfg0.N) (k : Fin 1024) (e : Fin 128) :
    iblk0 V c 1 t (ix2 k e) = V c main_arg3 (ix2 k e) := by
  obtain ⟨-, -, -, e3, e4, -⟩ := idx_facts0 t
  show V c main_arg3 (((cfg0.win 1).blk t).view.emb (ix2 k e)) = _
  refine congrArg (V c main_arg3) ?_
  funext a; apply Fin.ext
  match a with
  | ⟨0, _⟩ => show win0_1.index t (0 : Fin 2) * 1024 + 1 * k.val = k.val; omega
  | ⟨1, _⟩ => show win0_1.index t (1 : Fin 2) * 128 + 1 * e.val = e.val; omega

/-- The bias window's block is the whole bias. -/
theorem iblk0_2_apply (c : Dev nD) (t : Fin cfg0.N) (e : Fin 128) :
    iblk0 V c 2 t (ix1 e) = V c main_arg4 (ix1 e) := by
  obtain ⟨-, -, -, -, -, e5, -⟩ := idx_facts0 t
  show V c main_arg4 (((cfg0.win 2).blk t).view.emb (ix1 e)) = _
  refine congrArg (V c main_arg4) ?_
  funext a; apply Fin.ext
  match a with
  | ⟨0, _⟩ => show win0_2.index t (0 : Fin 1) * 128 + 1 * e.val = e.val; omega

/-- An element of the output window's block at point `t` sits in batch element `t`. -/
theorem emb0_3 (t : Fin cfg0.N) (n : Fin 160) (e : Fin 128) :
    ((cfg0.win 3).blk t).view.emb (ix3 (0 : Fin 1) n e) = ix3 (⟨t.val, t_lt0 t⟩ : Fin 16) n e := by
  obtain ⟨-, -, -, -, -, -, e6, e7, e8⟩ := idx_facts0 t
  funext a; apply Fin.ext
  match a with
  | ⟨0, _⟩ => show win0_3.index t (0 : Fin 3) * 1 + 1 * 0 = t.val; omega
  | ⟨1, _⟩ => show win0_3.index t (1 : Fin 3) * 160 + 1 * n.val = n.val; omega
  | ⟨2, _⟩ => show win0_3.index t (2 : Fin 3) * 128 + 1 * e.val = e.val; omega

/-- WHAT POINT `t` WRITES BACK is block `t` of the array of projected rows. -/
theorem flushed0_eq (c : Dev nD) (t : Fin cfg0.N) :
    (dat0 V c).flushed 3 t = ((cfg0.win 3).blk t).view.read (Elt Ideal) (projArr (V c main_arg0) (V c main_arg3) (V c main_arg4)) := by
  show (cfg0.win 3).cut (grid0.coords t) ((dat0 V c).after 3 t) = _
  rw [after0_3]
  unfold out0_3
  rw [View.canon_unit_zero hz3]
  simp only [View.ld_unit_zero (S := S1x160x1024) hz3, View.ld_unit_zero (S := S1024x128) hz2, View.ld_unit_zero (S := S128) hz1]
  funext y
  obtain ⟨p, n, e, rfl⟩ : ∃ (p : Fin 1) (n : Fin 160) (e : Fin 128), y = ix3 p n e := ⟨y 0, y 1, y 2, eq_ix3 y⟩
  obtain rfl : p = 0 := Subsingleton.elim _ _
  refine (Cert.PairFilm.Ker.proj_payload_apply (iblk0 V c 0 t) (iblk0 V c 1 t) (iblk0 V c 2 t) n e).trans ?_
  show _ = projArr (V c main_arg0) (V c main_arg3) (V c main_arg4) (((cfg0.win 3).blk t).view.emb (ix3 (0 : Fin 1) n e))
  rw [emb0_3, projArr_ix3, iblk0_2_apply]
  simp only [iblk0_0_apply, iblk0_1_apply]
  rfl

/-- An index of the array is in point `t`'s block iff each coordinate is in the block's range on its axis. -/
theorem mem_blk0_3 (t : Fin cfg0.N) (i : S16x160x128.Idx) :
    i ∈ ((cfg0.win 3).blk t).view.set ↔ ∀ a : Fin 3, win0_3.index t a * S1x160x128.size a ≤ (i a).val ∧ (i a).val < win0_3.index t a * S1x160x128.size a + S1x160x128.size a := by
  show i ∈ ((View.whole main_v0).slice (win0_3.rect t)).set ↔ _
  rw [View.set_slice_whole, Rect.mem_set_unit]
  exact Iff.rfl

/-- Every index of the array is in the block of the point its batch coordinate names. -/
theorem cover0_3arr (i : S16x160x128.Idx) : ∃ t : Fin cfg0.N, (cfg0.win 3).flush t = true ∧ i ∈ ((cfg0.win 3).blk t).view.set := by
  have hi0 : (i 0).val < 16 := (i 0).isLt
  have hi1 : (i 1).val < 160 := (i 1).isLt
  have hi2 : (i 2).val < 128 := (i 2).isLt
  let t : Fin cfg0.N := ⟨(i 0).val, lt_of_lt_of_eq hi0 N_0.symm⟩
  obtain ⟨-, -, -, -, -, -, e6, e7, e8⟩ := idx_facts0 t
  have e6' : win0_3.index t (0 : Fin 3) = (i 0).val := e6
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 160 ≤ (i 1).val ∧ (i 1).val < win0_3.index t (1 : Fin 3) * 160 + 160; omega
  | ⟨2, _⟩ => show win0_3.index t (2 : Fin 3) * 128 ≤ (i 2).val ∧ (i 2).val < win0_3.index t (2 : Fin 3) * 128 + 128; omega

/-- THE ARRAY after the first region: the projected rows of the three argument arrays as the region finds them. -/
theorem final0 (c : Dev nD) :
    (dat0 V c).arrAt 3 cfg0.N = projArr (V c main_arg0) (V c main_arg3) (V c main_arg4) :=
  (dat0 V c).arrAt_eq_of_cover 3 _ (fun t _ => flushed0_eq V c t) cover0_3arr

end Cert.KernelIdeal.Hand

end
-- ==== Proof.IdealBlocks1.lean ====
/-
  The second region's result as one array.  Grid point `t` is batch element `t / 2` and row block `t % 2`: it
  writes back the 80 x 160 x 128 block of pairs (i, j) whose row node i lies in that block.  Each entry is the
  normalised, scaled, shifted and rectified 128-vector of the pair, read at one channel, as a function of the
  arrays the region finds: the projected rows (read through two windows), the transposed spatial features, the two
  parts of the matrix, the bias, and the scale and shift rows.  The thirty-two blocks cover the array.
-/
import proofs.«172288_j79517024518197_2_alg».proof.Proof.IdealRegion1
import proofs.«172288_j79517024518197_2_alg».proof.Proof.IdealBlocks0
import proofs.«172288_j79517024518197_2_alg».proof.Proof.KerPayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The pair (i, j) of batch element b at channel o, from the arrays the second region reads. -/
def pairAt (H : S16x160x128.Idx → EReal) (SP : S16x8x160x160.Idx → EReal) (W1 : S128x128.Idx → EReal) (W2 : S8x128.Idx → EReal)
    (BV : S128.Idx → EReal) (GM BT : S16x1x128.Idx → EReal) (b : Fin 16) (i j : Fin 160) (o : Fin 128) : EReal :=
  Cert.PairFilm.normFilm
    (Cert.PairFilm.rowGen (fun e => H (ix3 b i e)) (fun e => H (ix3 b j e)) (fun c' => SP (ix4 b c' i j))
      (fun e o' => W1 (ix2 e o')) (fun c' o' => W2 (ix2 c' o')) (fun o' => BV (ix1 o')))
    (GM (ix3 b (0 : Fin 1) o)) (BT (ix3 b (0 : Fin 1) o)) o

/-- The second region's result as one array. -/
def pairArr (H : S16x160x128.Idx → EReal) (SP : S16x8x160x160.Idx → EReal) (W1 : S128x128.Idx → EReal) (W2 : S8x128.Idx → EReal)
    (BV : S128.Idx → EReal) (GM BT : S16x1x128.Idx → EReal) : S16x160x160x128.Idx → EReal :=
  fun q => pairAt H SP W1 W2 BV GM BT (q 0) (q 1) (q 2) (q 3)

theorem pairArr_ix4 (H : S16x160x128.Idx → EReal) (SP : S16x8x160x160.Idx → EReal) (W1 : S128x128.Idx → EReal) (W2 : S8x128.Idx → EReal)
    (BV : S128.Idx → EReal) (GM BT : S16x1x128.Idx → EReal) (b : Fin 16) (i j : Fin 160) (o : Fin 128) :
    pairArr H SP W1 W2 BV GM BT (ix4 b i j o) = pairAt H SP W1 W2 BV GM BT b i j o := rfl

/-- The printed index maps over the grid. -/
theorem idx_facts1 : ∀ t : Fin cfg1.N, win1_0.index t (0 : Fin 3) = t.val / 2
    ∧ win1_0.index t (1 : Fin 3) = t.val % 2
    ∧ win1_0.index t (2 : Fin 3) = 0
    ∧ win1_1.index t (0 : Fin 3) = t.val / 2
    ∧ win1_1.index t (1 : Fin 3) = 0
    ∧ win1_1.index t (2 : Fin 3) = 0
    ∧ win1_2.index t (0 : Fin 4) = t.val / 2
    ∧ win1_2.index t (1 : Fin 4) = 0
    ∧ win1_2.index t (2 : Fin 4) = t.val % 2
    ∧ win1_2.index t (3 : Fin 4) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 1) = 0
    ∧ win1_6.index t (0 : Fin 3) = t.val / 2
    ∧ win1_6.index t (1 : Fin 3) = 0
    ∧ win1_6.index t (2 : Fin 3) = 0
    ∧ win1_7.index t (0 : Fin 3) = t.val / 2
    ∧ win1_7.index t (1 : Fin 3) = 0
    ∧ win1_7.index t (2 : Fin 3) = 0
    ∧ win1_8.index t (0 : Fin 4) = t.val / 2
    ∧ win1_8.index t (1 : Fin 4) = t.val % 2
    ∧ win1_8.index t (2 : Fin 4) = 0
    ∧ win1_8.index t (3 : Fin 4) = 0 :=
  (by decide +kernel : ∀ t : Fin grid1.N, _)

theorem t_lt1 (t : Fin cfg1.N) : t.val < 32 := lt_of_lt_of_eq t.isLt N_1

/-- The batch element and the row node a point's block element names. -/
abbrev bOf (t : Fin cfg1.N) : Fin 16 := ⟨t.val / 2, by have := t_lt1 t; omega⟩
abbrev rowOf (t : Fin cfg1.N) (i : Fin 80) : Fin 160 := ⟨t.val % 2 * 80 + i.val, by have := i.isLt; omega⟩

theorem iblk1_0_apply (c : Dev nD) (t : Fin cfg1.N) (i : Fin 80) (e : Fin 128) :
    iblk1 V c 0 t (ix3 (0 : Fin 1) i e) = V c main_v0 (ix3 (bOf t) (rowOf t i) e) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_v0 (((cfg1.win 0).blk t).view.emb (ix3 (0 : Fin 1) i e)) = _
  refine congrArg (V c main_v0) ?_
  funext a; apply Fin.ext
  match a with
  | ⟨0, _⟩ => show win1_0.index t (0 : Fin 3) * 1 + 1 * 0 = t.val / 2; omega
  | ⟨1, _⟩ => show win1_0.index t (1 : Fin 3) * 80 + 1 * i.val = t.val % 2 * 80 + i.val; omega
  | ⟨2, _⟩ => show win1_0.index t (2 : Fin 3) * 128 + 1 * e.val = e.val; omega

theorem iblk1_1_apply (c : Dev nD) (t : Fin cfg1.N) (j : Fin 160) (e : Fin 128) :
    iblk1 V c 1 t (ix3 (0 : Fin 1) j e) = V c main_v0 (ix3 (bOf t) j e) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_v0 (((cfg1.win 1).blk t).view.emb (ix3 (0 : Fin 1) j e)) = _
  refine congrArg (V c main_v0) ?_
  funext a; apply Fin.ext
  match a with
  | ⟨0, _⟩ => show win1_1.index t (0 : Fin 3) * 1 + 1 * 0 = t.val / 2; omega
  | ⟨1, _⟩ => show win1_1.index t (1 : Fin 3) * 160 + 1 * j.val = j.val; omega
  | ⟨2, _⟩ => show win1_1.index t (2 : Fin 3) * 128 + 1 * e.val = e.val; omega

theorem iblk1_2_apply (c : Dev nD) (t : Fin cfg1.N) (c' : Fin 8) (i : Fin 80) (j : Fin 160) :
    iblk1 V c 2 t (ix4 (0 : Fin 1) c' i j) = V c main_v13 (ix4 (bOf t) c' (rowOf t i) j) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_v13 (((cfg1.win 2).blk t).view.emb (ix4 (0 : Fin 1) c' i j)) = _
  refine congrArg (V c main_v13) ?_
  funext a; apply Fin.ext
  match a with
  | ⟨0, _⟩ => show win1_2.index t (0 : Fin 4) * 1 + 1 * 0 = t.val / 2; omega
  | ⟨1, _⟩ => show win1_2.index t (1 : Fin 4) * 8 + 1 * c'.val = c'.val; omega
  | ⟨2, _⟩ => show win1_2.index t (2 : Fin 4) * 80 + 1 * i.val = t.val % 2 * 80 + i.val; omega
  | ⟨3, _⟩ => show win1_2.index t (3 : Fin 4) * 160 + 1 * j.val = j.val; omega

theorem iblk1_3_apply (c : Dev nD) (t : Fin cfg1.N) (e o : Fin 128) :
    iblk1 V c 3 t (ix2 e o) = V c main_v11 (ix2 e o) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_v11 (((cfg1.win 3).blk t).view.emb (ix2 e o)) = _
  refine congrArg (V c main_v11) ?_
  funext a; apply Fin.ext
  match a with
  | ⟨0, _⟩ => show win1_3.index t (0 : Fin 2) * 128 + 1 * e.val = e.val; omega
  | ⟨1, _⟩ => show win1_3.index t (1 : Fin 2) * 128 + 1 * o.val = o.val; omega

theorem iblk1_4_apply (c : Dev nD) (t : Fin cfg1.N) (c' : Fin 8) (o : Fin 128) :
    iblk1 V c 4 t (ix2 c' o) = V c main_v12 (ix2 c' o) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_v12 (((cfg1.win 4).blk t).view.emb (ix2 c' o)) = _
  refine congrArg (V c main_v12) ?_
  funext a; apply Fin.ext
  match a with
  | ⟨0, _⟩ => show win1_4.index t (0 : Fin 2) * 8 + 1 * c'.val = c'.val; omega
  | ⟨1, _⟩ => show win1_4.index t (1 : Fin 2) * 128 + 1 * o.val = o.val; omega

theorem iblk1_5_apply (c : Dev nD) (t : Fin cfg1.N) (o : Fin 128) :
    iblk1 V c 5 t (ix1 o) = V c main_arg8 (ix1 o) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_arg8 (((cfg1.win 5).blk t).view.emb (ix1 o)) = _
  refine congrArg (V c main_arg8) ?_
  funext a; apply Fin.ext
  match a with
  | ⟨0, _⟩ => show win1_5.index t (0 : Fin 1) * 128 + 1 * o.val = o.val; omega

theorem iblk1_6_apply (c : Dev nD) (t : Fin cfg1.N) (o : Fin 128) :
    iblk1 V c 6 t (ix3 (0 : Fin 1) (0 : Fin 1) o) = V c main_v9 (ix3 (bOf t) (0 : Fin 1) o) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_v9 (((cfg1.win 6).blk t).view.emb (ix3 (0 : Fin 1) (0 : Fin 1) o)) = _
  refine congrArg (V c main_v9) ?_
  funext a; apply Fin.ext
  match a with
  | ⟨0, _⟩ => show win1_6.index t (0 : Fin 3) * 1 + 1 * 0 = t.val / 2; omega
  | ⟨1, _⟩ => show win1_6.index t (1 : Fin 3) * 1 + 1 * 0 = 0; omega
  | ⟨2, _⟩ => show win1_6.index t (2 : Fin 3) * 128 + 1 * o.val = o.val; omega

theorem iblk1_7_apply (c : Dev nD) (t : Fin cfg1.N) (o : Fin 128) :
    iblk1 V c 7 t (ix3 (0 : Fin 1) (0 : Fin 1) o) = V c main_v10 (ix3 (bOf t) (0 : Fin 1) o) := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  show V c main_v10 (((cfg1.win 7).blk t).view.emb (ix3 (0 : Fin 1) (0 : Fin 1) o)) = _
  refine congrArg (V c main_v10) ?_
  funext a; apply Fin.ext
  match a with
  | ⟨0, _⟩ => show win1_7.index t (0 : Fin 3) * 1 + 1 * 0 = t.val / 2; omega
  | ⟨1, _⟩ => show win1_7.index t (1 : Fin 3) * 1 + 1 * 0 = 0; omega
  | ⟨2, _⟩ => show win1_7.index t (2 : Fin 3) * 128 + 1 * o.val = o.val; omega

/-- An element of the output window's block at point `t`, in the array. -/
theorem emb1_8 (t : Fin cfg1.N) (i : Fin 80) (j : Fin 160) (o : Fin 128) :
    ((cfg1.win 8).blk t).view.emb (ix4 (0 : Fin 1) i j o) = ix4 (bOf t) (rowOf t i) j o := by
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  funext a; apply Fin.ext
  match a with
  | ⟨0, _⟩ => show win1_8.index t (0 : Fin 4) * 1 + 1 * 0 = t.val / 2; omega
  | ⟨1, _⟩ => show win1_8.index t (1 : Fin 4) * 80 + 1 * i.val = t.val % 2 * 80 + i.val; omega
  | ⟨2, _⟩ => show win1_8.index t (2 : Fin 4) * 160 + 1 * j.val = j.val; omega
  | ⟨3, _⟩ => show win1_8.index t (3 : Fin 4) * 128 + 1 * o.val = o.val; omega

/-- WHAT POINT `t` WRITES BACK is block `t` of the array of pairs. -/
theorem flushed1_eq (c : Dev nD) (t : Fin cfg1.N) :
    (dat1 V c).flushed 8 t = ((cfg1.win 8).blk t).view.read (Elt Ideal)
      (pairArr (V c main_v0) (V c main_v13) (V c main_v11) (V c main_v12) (V c main_arg8) (V c main_v9) (V c main_v10)) := by
  show (cfg1.win 8).cut (grid1.coords t) ((dat1 V c).after 8 t) = _
  rw [after1_8]
  unfold out1_8
  rw [View.canon_unit_zero hz4]
  simp only [View.ld_unit_zero (S := S1x80x128) hz3, View.ld_unit_zero (S := S1x160x128) hz3, View.ld_unit_zero (S := S1x8x80x160) hz4,
    View.ld_unit_zero (S := S128x128) hz2, View.ld_unit_zero (S := S8x128) hz2, View.ld_unit_zero (S := S128) hz1,
    View.ld_unit_zero (S := S1x1x128) hz3]
  funext y
  obtain ⟨p, i, j, o, rfl⟩ : ∃ (p : Fin 1) (i : Fin 80) (j : Fin 160) (o : Fin 128), y = ix4 p i j o := ⟨y 0, y 1, y 2, y 3, eq_ix4 y⟩
  obtain rfl : p = 0 := Subsingleton.elim _ _
  refine (Cert.PairFilm.Ker.film_payload_apply (iblk1 V c 0 t) (iblk1 V c 1 t) (iblk1 V c 2 t) (iblk1 V c 3 t) (iblk1 V c 4 t)
    (iblk1 V c 5 t) (iblk1 V c 6 t) (iblk1 V c 7 t) i j o).trans ?_
  show _ = pairArr (V c main_v0) (V c main_v13) (V c main_v11) (V c main_v12) (V c main_arg8) (V c main_v9) (V c main_v10)
    (((cfg1.win 8).blk t).view.emb (ix4 (0 : Fin 1) i j o))
  rw [emb1_8, pairArr_ix4, iblk1_6_apply, iblk1_7_apply]
  simp only [iblk1_0_apply, iblk1_1_apply, iblk1_2_apply, iblk1_3_apply, iblk1_4_apply, iblk1_5_apply]
  rfl

/-- An index of the array is in point `t`'s block iff each coordinate is in the block's range on its axis. -/
theorem mem_blk1_8 (t : Fin cfg1.N) (i : S16x160x160x128.Idx) :
    i ∈ ((cfg1.win 8).blk t).view.set ↔ ∀ a : Fin 4, win1_8.index t a * S1x80x160x128.size a ≤ (i a).val ∧ (i a).val < win1_8.index t a * S1x80x160x128.size a + S1x80x160x128.size a := by
  show i ∈ ((View.whole main_v14).slice (win1_8.rect t)).set ↔ _
  rw [View.set_slice_whole, Rect.mem_set_unit]
  exact Iff.rfl

/-- Every index of the array is in the block of the point its batch and row coordinates name. -/
theorem cover1_8arr (i : S16x160x160x128.Idx) : ∃ t : Fin cfg1.N, (cfg1.win 8).flush t = true ∧ i ∈ ((cfg1.win 8).blk t).view.set := by
  have hi0 : (i 0).val < 16 := (i 0).isLt
  have hi1 : (i 1).val < 160 := (i 1).isLt
  have hi2 : (i 2).val < 160 := (i 2).isLt
  have hi3 : (i 3).val < 128 := (i 3).isLt
  let t : Fin cfg1.N := ⟨(i 0).val * 2 + (i 1).val / 80, lt_of_lt_of_eq (by omega : (i 0).val * 2 + (i 1).val / 80 < 32) N_1.symm⟩
  obtain ⟨f0_0, f0_1, f0_2, f1_0, f1_1, f1_2, f2_0, f2_1, f2_2, f2_3, f3_0, f3_1, f4_0, f4_1, f5_0, f6_0, f6_1, f6_2, f7_0, f7_1, f7_2, f8_0, f8_1, f8_2, f8_3⟩ := idx_facts1 t
  have g0 : win1_8.index t (0 : Fin 4) = ((i 0).val * 2 + (i 1).val / 80) / 2 := f8_0
  have g1 : win1_8.index t (1 : Fin 4) = ((i 0).val * 2 + (i 1).val / 80) % 2 := f8_1
  refine ⟨t, flush1_8 t, ?_⟩
  rw [mem_blk1_8]
  intro a
  match a with
  | ⟨0, _⟩ => show win1_8.index t (0 : Fin 4) * 1 ≤ (i 0).val ∧ (i 0).val < win1_8.index t (0 : Fin 4) * 1 + 1; omega
  | ⟨1, _⟩ => show win1_8.index t (1 : Fin 4) * 80 ≤ (i 1).val ∧ (i 1).val < win1_8.index t (1 : Fin 4) * 80 + 80; omega
  | ⟨2, _⟩ => show win1_8.index t (2 : Fin 4) * 160 ≤ (i 2).val ∧ (i 2).val < win1_8.index t (2 : Fin 4) * 160 + 160; omega
  | ⟨3, _⟩ => show win1_8.index t (3 : Fin 4) * 128 ≤ (i 3).val ∧ (i 3).val < win1_8.index t (3 : Fin 4) * 128 + 128; omega

/-- THE ARRAY after the second region: the pairs' results of the arrays as the region finds them. -/
theorem final1 (c : Dev nD) :
    (dat1 V c).arrAt 8 cfg1.N
      = pairArr (V c main_v0) (V c main_v13) (V c main_v11) (V c main_v12) (V c main_arg8) (V c main_v9) (V c main_v10) :=
  (dat1 V c).arrAt_eq_of_cover 8 _ (fun t _ => flushed1_eq V c t) cover1_8arr

end Cert.KernelIdeal.Hand

end
-- ==== Proof.KerHostCond.lean ====
/-
  The scale and shift rows as the kernel program's host code computes them, read at an index.

  The conditioning vectors (16 x 1024) are multiplied by a 1024 x 256 matrix and a bias row is added: entry
  `(b, j)` is the sum over the 1024 features of `cf[b,k] * Wc[k,j]`, plus `bc[j]` (the specification's `cond`).
  The first 128 entries of each row, each plus the word of one, are the scale (`gamma`); the last 128 are the
  shift (`beta`).  Both are then given a unit middle axis, so row `b`, channel `o` is read at `(b, 0, o)`.

  The product is read through the bijection between a one-axis contraction index and its coordinate; a spread
  of a row over a new or unit axis reads the row; a slice reads the operand at the offset plus the coordinate.
  No float word is evaluated.
-/
import proofs.«172288_j79517024518197_2_alg».proof.KernelIdeal
import proofs.«172288_j79517024518197_2_alg».proof.Proof.Spec
import Idealize.ShloMosaic.Lib.Pipeline.Value
import Idealize.ShloMosaic.Lib.ValueIdx
import Idealize.ShloMosaic.PureOps.Ideal.Laws

noncomputable section

namespace Cert.PairFilm.KerHost

open Cert.KernelIdeal Idealize.ShloMosaic Idealize.ShloMosaic.ValueIdx

-- the program's stated side conditions on its shapes (which spreads, slices and products are well formed)
variable [Facts₀]
open Facts₀

/-- The scale rows: the first 128 entries of the conditioning vector's affine image, plus the word of one, with a
    unit middle axis. -/
def gammaRows (x1 : S16x1024.Idx → EReal) (x5 : S1024x256.Idx → EReal) (x6 : S256.Idx → EReal) : S16x1x128.Idx → EReal :=
  broadcastInDim S16x1x128 ![0, 2] bcast_S16x128_S16x1x128_0_2
    (addf (F := Ideal) (φ := .f32)
      (extractStridedSlice S16x128 ![0, 0]
        (addf (F := Ideal) (φ := .f32) (Host.dotGeneral (F := Ideal) (φ₁ := .f32) (φ₂ := .f32) dot_S16x1024_S1024x256_S16x256_1_0_0_1_n_n none x1 x5)
          (broadcastInDim S16x256 ![0, 1] bcast_S1x256_S16x256_0_1 (broadcastInDim S1x256 ![1] bcast_S256_S1x256_1 x6)))
        slices_S16x256_S16x128_0_0)
      (broadcastInDim S16x128 ![] bcast_S_S16x128 (constant (F := Ideal) S_ .f32 0x3F800000#32)))

/-- The shift rows: the last 128 entries of the conditioning vector's affine image, with a unit middle axis. -/
def betaRows (x1 : S16x1024.Idx → EReal) (x5 : S1024x256.Idx → EReal) (x6 : S256.Idx → EReal) : S16x1x128.Idx → EReal :=
  broadcastInDim S16x1x128 ![0, 2] bcast_S16x128_S16x1x128_0_2
    (extractStridedSlice S16x128 ![0, 128]
      (addf (F := Ideal) (φ := .f32) (Host.dotGeneral (F := Ideal) (φ₁ := .f32) (φ₂ := .f32) dot_S16x1024_S1024x256_S16x256_1_0_0_1_n_n none x1 x5)
        (broadcastInDim S16x256 ![0, 1] bcast_S1x256_S16x256_0_1 (broadcastInDim S1x256 ![1] bcast_S256_S1x256_1 x6)))
      slices_S16x256_S16x128_0_128)

/-! The operand indices of the product at an output index and a contraction index, coordinate by coordinate: the
    left operand's are the output's batch element and the contraction position, the right operand's the
    contraction position and the output's entry. -/

theorem lhs_0 (i : S16x256.Idx) (q : dot_S16x1024_S1024x256_S16x256_1_0_0_1_n_n.contr.Idx) :
    (dot_S16x1024_S1024x256_S16x256_1_0_0_1_n_n.lhsIdx i q 0).val = (i 0).val := by
  unfold DotDims.lhsIdx
  rw [dif_neg (show ¬(0 : Fin S16x1024.rank) ∈ dot_S16x1024_S1024x256_S16x256_1_0_0_1_n_n.lhsBatch from List.not_mem_nil),
    dif_pos (show (0 : Fin S16x1024.rank) ∈ dot_S16x1024_S1024x256_S16x256_1_0_0_1_n_n.lhsNonContracting from List.mem_singleton.2 rfl)]
  rfl
theorem lhs_1 (i : S16x256.Idx) (q : dot_S16x1024_S1024x256_S16x256_1_0_0_1_n_n.contr.Idx) :
    (dot_S16x1024_S1024x256_S16x256_1_0_0_1_n_n.lhsIdx i q 1).val = (q ⟨0, Nat.one_pos⟩).val :=
  dot_S16x1024_S1024x256_S16x256_1_0_0_1_n_n.lhsIdx_val_of_single rfl i q
theorem rhs_0 (i : S16x256.Idx) (q : dot_S16x1024_S1024x256_S16x256_1_0_0_1_n_n.contr.Idx) :
    (dot_S16x1024_S1024x256_S16x256_1_0_0_1_n_n.rhsIdx i q 0).val = (q ⟨0, Nat.one_pos⟩).val :=
  dot_S16x1024_S1024x256_S16x256_1_0_0_1_n_n.rhsIdx_val_of_single rfl i q
theorem rhs_1 (i : S16x256.Idx) (q : dot_S16x1024_S1024x256_S16x256_1_0_0_1_n_n.contr.Idx) :
    (dot_S16x1024_S1024x256_S16x256_1_0_0_1_n_n.rhsIdx i q 1).val = (i 1).val := by
  unfold DotDims.rhsIdx
  rw [dif_neg (show ¬(1 : Fin S1024x256.rank) ∈ dot_S16x1024_S1024x256_S16x256_1_0_0_1_n_n.rhsBatch from List.not_mem_nil),
    dif_pos (show (1 : Fin S1024x256.rank) ∈ dot_S16x1024_S1024x256_S16x256_1_0_0_1_n_n.rhsNonContracting from List.mem_singleton.2 rfl)]
  rfl

/-- The product of the conditioning vectors with the 1024 x 256 matrix, read at batch element `b`, entry `j`: the
    sum over the 1024 features. -/
theorem dot_apply (x1 : FVec Ideal S16x1024 .f32) (x5 : FVec Ideal S1024x256 .f32) (b : Fin 16) (j : Fin 256) :
    Host.dotGeneral (F := Ideal) dot_S16x1024_S1024x256_S16x256_1_0_0_1_n_n none x1 x5 (ix2 b j)
      = ∑ k : Fin 1024, x1 (ix2 b k) * x5 (ix2 k j) := by
  simp only [Host.dotGeneral]
  rw [Ideal.dotGeneral_apply, ← Equiv.sum_comp (contrEquiv1 dot_S16x1024_S1024x256_S16x256_1_0_0_1_n_n 1024 rfl rfl).symm]
  refine Finset.sum_congr rfl fun k _ => ?_
  have hk := contrEquiv1_symm_val dot_S16x1024_S1024x256_S16x256_1_0_0_1_n_n 1024 rfl rfl k
  have el : dot_S16x1024_S1024x256_S16x256_1_0_0_1_n_n.lhsIdx (ix2 b j) ((contrEquiv1 dot_S16x1024_S1024x256_S16x256_1_0_0_1_n_n 1024 rfl rfl).symm k) = ix2 b k :=
    funext fun a => Fin.ext (by
      match a with
      | ⟨0, _⟩ => exact lhs_0 _ _
      | ⟨1, _⟩ => exact (lhs_1 _ _).trans hk)
  have er : dot_S16x1024_S1024x256_S16x256_1_0_0_1_n_n.rhsIdx (ix2 b j) ((contrEquiv1 dot_S16x1024_S1024x256_S16x256_1_0_0_1_n_n 1024 rfl rfl).symm k) = ix2 k j :=
    funext fun a => Fin.ext (by
      match a with
      | ⟨0, _⟩ => exact (rhs_0 _ _).trans hk
      | ⟨1, _⟩ => exact rhs_1 _ _)
  rw [el, er]

/-- The bias row spread over the batch, read at batch element `b`, entry `j`: the bias at `j`. -/
theorem bias_apply (x6 : S256.Idx → EReal) (b : Fin 16) (j : Fin 256) :
    broadcastInDim S16x256 ![0, 1] bcast_S1x256_S16x256_0_1 (broadcastInDim S1x256 ![1] bcast_S256_S1x256_1 x6) (ix2 b j)
      = x6 (ix1 j) := by
  rw [broadcastInDim_apply ![0, 1] bcast_S1x256_S16x256_0_1 _ (ix2 b j) (ix2 (0 : Fin 1) j) (fun a => by
    match a with
    | ⟨0, _⟩ => show 0 = if (1 : Nat) = 1 then 0 else b.val; rw [if_pos rfl]
    | ⟨1, _⟩ => show j.val = if (256 : Nat) = 1 then 0 else j.val; rw [if_neg (by decide)])]
  exact broadcastInDim_apply ![1] bcast_S256_S1x256_1 x6 (ix2 (0 : Fin 1) j) (ix1 j) (fun a => by
    match a with
    | ⟨0, _⟩ => show j.val = if (256 : Nat) = 1 then 0 else j.val; rw [if_neg (by decide)])

/-- The conditioning vector's affine image, read at batch element `b`, entry `j`. -/
theorem aff_apply (x1 : S16x1024.Idx → EReal) (x5 : S1024x256.Idx → EReal) (x6 : S256.Idx → EReal)
    (b : Fin 16) (j : Fin 256) :
    (addf (F := Ideal) (φ := .f32) (Host.dotGeneral (F := Ideal) (φ₁ := .f32) (φ₂ := .f32) dot_S16x1024_S1024x256_S16x256_1_0_0_1_n_n none x1 x5)
        (broadcastInDim S16x256 ![0, 1] bcast_S1x256_S16x256_0_1 (broadcastInDim S1x256 ![1] bcast_S256_S1x256_1 x6))) (ix2 b j)
      = cond x1 x5 x6 b j := by
  rw [addf_apply, dot_apply, bias_apply]
  rfl

/-- The scale rows at batch element `b`, channel `o`: the specification's `gamma`. -/
theorem gammaRows_apply (x1 : S16x1024.Idx → EReal) (x5 : S1024x256.Idx → EReal) (x6 : S256.Idx → EReal)
    (b : Fin 16) (o : Fin 128) :
    gammaRows x1 x5 x6 (ix3 b (0 : Fin 1) o) = gamma x1 x5 x6 b o := by
  unfold gammaRows
  rw [broadcastInDim_apply ![0, 2] bcast_S16x128_S16x1x128_0_2 _ (ix3 b (0 : Fin 1) o) (ix2 b o) (fun a => by
    match a with
    | ⟨0, _⟩ => show b.val = if (16 : Nat) = 1 then 0 else b.val; rw [if_neg (by decide)]
    | ⟨1, _⟩ => show o.val = if (128 : Nat) = 1 then 0 else o.val; rw [if_neg (by decide)])]
  rw [addf_apply]
  rw [extractStridedSlice_apply ![0, 0] _ slices_S16x256_S16x128_0_0 (ix2 b o) (ix2 b (⟨o.val, by omega⟩ : Fin 256))
    (fun a => by
      match a with
      | ⟨0, _⟩ => show b.val = 0 + b.val; omega
      | ⟨1, _⟩ => show o.val = 0 + o.val; omega)]
  rw [aff_apply]
  rw [broadcastInDim_apply ![] bcast_S_S16x128 _ (ix2 b o) ix0 (fun a => a.elim0)]
  rfl

/-- The shift rows at batch element `b`, channel `o`: the specification's `beta`. -/
theorem betaRows_apply (x1 : S16x1024.Idx → EReal) (x5 : S1024x256.Idx → EReal) (x6 : S256.Idx → EReal)
    (b : Fin 16) (o : Fin 128) :
    betaRows x1 x5 x6 (ix3 b (0 : Fin 1) o) = beta x1 x5 x6 b o := by
  unfold betaRows
  rw [broadcastInDim_apply ![0, 2] bcast_S16x128_S16x1x128_0_2 _ (ix3 b (0 : Fin 1) o) (ix2 b o) (fun a => by
    match a with
    | ⟨0, _⟩ => show b.val = if (16 : Nat) = 1 then 0 else b.val; rw [if_neg (by decide)]
    | ⟨1, _⟩ => show o.val = if (128 : Nat) = 1 then 0 else o.val; rw [if_neg (by decide)])]
  rw [extractStridedSlice_apply ![0, 128] _ slices_S16x256_S16x128_0_128 (ix2 b o)
    (ix2 b (⟨128 + o.val, by omega⟩ : Fin 256))
    (fun a => by
      match a with
      | ⟨0, _⟩ => show b.val = 0 + b.val; omega
      | ⟨1, _⟩ => show 128 + o.val = 128 + o.val; rfl)]
  rw [aff_apply]
  rfl

end Cert.PairFilm.KerHost

end
-- ==== Proof.KerHostLayout.lean ====
/-
  The host side's re-layings of four arrays, read at an index, on the extended reals.

  Before the two bodies run, the spatial features [16, 160, 160, 8] are transposed to [16, 8, 160, 160] (the feature
  axis moved in front of the pair axes) and the 136 x 128 matrix is cut into its first 128 rows and its last 8. After
  them, the result [16, 160, 160, 128] is flattened to [409600, 128]: row (b * 160 + i) * 160 + j is the pair (i, j) of
  batch element b. Each statement holds for arrays of any element type and for any proof of the shape relation it
  mentions.
-/
import proofs.«172288_j79517024518197_2_alg».proof.KernelIdeal
import proofs.«172288_j79517024518197_2_alg».proof.Proof.Spec
import Idealize.ShloMosaic.Lib.ValueLayout
import Idealize.ShloMosaic.Lib.Pipeline.Value

noncomputable section

namespace Cert.PairFilm.KerHost

open Cert.KernelIdeal Idealize.ShloMosaic Idealize.ShloMosaic.ValueIdx

variable {α : Type}

/-- The transposed spatial features at (b, c, i, j) are the features at (b, i, j, c). -/
theorem spatialT_apply (x2 : S16x160x160x8.Idx → α)
    (h : S16x160x160x8.Transposes [0, 3, 1, 2] S16x8x160x160) (b : Fin 16) (c' : Fin 8) (i j : Fin 160) :
    (transpose S16x8x160x160 [0, 3, 1, 2] x2 h) (ix4 b c' i j) = x2 (ix4 b i j c') :=
  transpose_apply _ x2 h _ _ fun a => match a with
    | ⟨0, _⟩ => rfl
    | ⟨1, _⟩ => rfl
    | ⟨2, _⟩ => rfl
    | ⟨3, _⟩ => rfl

/-- The first 128 rows of the matrix: entry (e, o) is the matrix at row e. -/
theorem wfilmTop_apply (x7 : S136x128.Idx → α) (h : S136x128.Slices ![0, 0] S128x128) (e o : Fin 128) :
    (extractStridedSlice S128x128 ![0, 0] x7 h) (ix2 e o) = x7 (ix2 (⟨e.val, by omega⟩ : Fin 136) o) :=
  slice2_axis0_apply 0 x7 h e o _ (Nat.zero_add _).symm

/-- The last 8 rows of the matrix: entry (c, o) is the matrix at row 128 + c. -/
theorem wfilmBot_apply (x7 : S136x128.Idx → α) (h : S136x128.Slices ![128, 0] S8x128) (c' : Fin 8) (o : Fin 128) :
    (extractStridedSlice S8x128 ![128, 0] x7 h) (ix2 c' o) = x7 (ix2 (⟨128 + c'.val, by omega⟩ : Fin 136) o) :=
  slice2_axis0_apply 128 x7 h c' o _ rfl

/-- The flattened result at row q 0 and channel q 1 is the result at batch element (q 0) / 25600, pair
    ((q 0) / 160 mod 160, (q 0) mod 160), and that channel: the two indices have the same row-major position. -/
theorem flatten_apply (Y : S16x160x160x128.Idx → α) (h : S16x160x160x128.ShapeCasts S409600x128)
    (q : S409600x128.Idx) :
    shapeCast S409600x128 Y h q
      = Y (ix4 (⟨(q 0).val / 25600, by have := (q 0).isLt; simp only [Matrix.cons_val_zero] at this; omega⟩ : Fin 16)
               (⟨(q 0).val / 160 % 160, Nat.mod_lt _ (by norm_num)⟩ : Fin 160) (⟨(q 0).val % 160, Nat.mod_lt _ (by norm_num)⟩ : Fin 160)
               (⟨(q 1).val, by have := (q 1).isLt; simpa using this⟩ : Fin 128)) :=
  shapeCast_apply Y h q _ (by
    have h0 : (q 0).val < 409600 := (q 0).isLt
    rw [Shape.rowMajor_val_four, Shape.rowMajor_val_two]
    show ((((q 0).val / 25600) * 160 + (q 0).val / 160 % 160) * 160 + (q 0).val % 160) * 128 + (q 1).val
      = (q 0).val * 128 + (q 1).val
    omega)

end Cert.PairFilm.KerHost

end
-- ==== Proof.IdealValue.lean ====
/-
  What the idealized kernel program ends with in its result buffer: the function `G` of the nine launch arguments.
  The first region leaves the projected rows in its output array; the host stretch between the regions forms the
  scale and shift rows from the conditioning vector, cuts the 136 x 128 matrix into its 128-row and 8-row parts and
  transposes the spatial features; the second region leaves the pairs' results in its output array, a function of
  what it finds; the last host operation lists the pairs' rows in one array.  Read at an index, the composite is `G`.
-/
import proofs.«172288_j79517024518197_2_alg».proof.Proof.IdealRun
import proofs.«172288_j79517024518197_2_alg».proof.Proof.IdealBlocks1
import proofs.«172288_j79517024518197_2_alg».proof.Proof.KerHostCond
import proofs.«172288_j79517024518197_2_alg».proof.Proof.KerHostLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Cert.PairFilm.KerHost

variable (m : (ℓ : Loc nD τ sig) → Buf (Elt Ideal) ℓ) (ρ : Dev nD → PrngReg)

/-! ## What the second region finds -/

/-- The projected rows: the first region's output array, which the host stretch does not write. -/
theorem found_v0 (c : Dev nD) :
    (V2 m ρ c main_v0 : S16x160x128.Idx → EReal) = projArr (m ((c.tc : Thread nD τ).loc main_arg0)) (m ((c.tc : Thread nD τ).loc main_arg3)) (m ((c.tc : Thread nD τ).loc main_arg4)) :=
  ((StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_v0) = W1 m ρ c (Proc.devRef .tc main_v0)).trans
    ((W1_arr m ρ c 3).trans (final0 (V0 m ρ) c)))

/-- The transposed spatial features. -/
theorem found_v13 (c : Dev nD) :
    (V2 m ρ c main_v13 : S16x8x160x160.Idx → EReal)
      = transpose S16x8x160x160 [0, 3, 1, 2] (m ((c.tc : Thread nD τ).loc main_arg2)) transposes_S16x160x160x8_S16x8x160x160_0_3_1_2 := by
  show StableHlo.after hostOps1 (W1 m ρ c) (Proc.devRef .tc main_v13) = _
  after_results
  rw [W1_of_ne m ρ c main_arg2 (by decide)]

/-- The matrix's first 128 rows. -/
theorem found_v11 (c : Dev nD) :
    (V2 m ρ c main_v11 : S128x128.Idx → EReal) = extractStridedSlice S128x128 ![0, 0] (m ((c.tc : Thread nD τ).loc main_arg7)) slices_S136x128_S128x128_0_0 := by
  show StableHlo.after hostOps1 (W1 m ρ c) (Proc.devRef .tc main_v11) = _
  after_results
  rw [W1_of_ne m ρ c main_arg7 (by decide)]

/-- The matrix's last 8 rows. -/
theorem found_v12 (c : Dev nD) :
    (V2 m ρ c main_v12 : S8x128.Idx → EReal) = extractStridedSlice S8x128 ![128, 0] (m ((c.tc : Thread nD τ).loc main_arg7)) slices_S136x128_S8x128_128_0 := by
  show StableHlo.after hostOps1 (W1 m ρ c) (Proc.devRef .tc main_v12) = _
  after_results
  rw [W1_of_ne m ρ c main_arg7 (by decide)]

/-- The bias: an argument nothing writes. -/
theorem found_arg8 (c : Dev nD) : (V2 m ρ c main_arg8 : S128.Idx → EReal) = (m ((c.tc : Thread nD τ).loc main_arg8)) :=
  ((StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W2 m ρ c (Proc.devRef .tc main_arg8) = W1 m ρ c (Proc.devRef .tc main_arg8)).trans
    (W1_of_ne m ρ c main_arg8 (by decide)))

/-- The scale rows. -/
theorem found_v9 (c : Dev nD) : (V2 m ρ c main_v9 : S16x1x128.Idx → EReal) = gammaRows (m ((c.tc : Thread nD τ).loc main_arg1)) (m ((c.tc : Thread nD τ).loc main_arg5)) (m ((c.tc : Thread nD τ).loc main_arg6)) := by
  show StableHlo.after hostOps1 (W1 m ρ c) (Proc.devRef .tc main_v9) = _
  after_results
  rw [W1_of_ne m ρ c main_arg1 (by decide), W1_of_ne m ρ c main_arg5 (by decide), W1_of_ne m ρ c main_arg6 (by decide)]
  rfl

/-- The shift rows. -/
theorem found_v10 (c : Dev nD) : (V2 m ρ c main_v10 : S16x1x128.Idx → EReal) = betaRows (m ((c.tc : Thread nD τ).loc main_arg1)) (m ((c.tc : Thread nD τ).loc main_arg5)) (m ((c.tc : Thread nD τ).loc main_arg6)) := by
  show StableHlo.after hostOps1 (W1 m ρ c) (Proc.devRef .tc main_v10) = _
  after_results
  rw [W1_of_ne m ρ c main_arg1 (by decide), W1_of_ne m ρ c main_arg5 (by decide), W1_of_ne m ρ c main_arg6 (by decide)]
  rfl

/-! ## The result -/

/-- The second region's output array, as a function of the launch arguments. -/
theorem out_eq (c : Dev nD) :
    (W3 m ρ c (Proc.devRef .tc main_v14) : S16x160x160x128.Idx → EReal)
      = pairArr (projArr (m ((c.tc : Thread nD τ).loc main_arg0)) (m ((c.tc : Thread nD τ).loc main_arg3)) (m ((c.tc : Thread nD τ).loc main_arg4)))
          (transpose S16x8x160x160 [0, 3, 1, 2] (m ((c.tc : Thread nD τ).loc main_arg2)) transposes_S16x160x160x8_S16x8x160x160_0_3_1_2)
          (extractStridedSlice S128x128 ![0, 0] (m ((c.tc : Thread nD τ).loc main_arg7)) slices_S136x128_S128x128_0_0)
          (extractStridedSlice S8x128 ![128, 0] (m ((c.tc : Thread nD τ).loc main_arg7)) slices_S136x128_S8x128_128_0)
          (m ((c.tc : Thread nD τ).loc main_arg8)) (gammaRows (m ((c.tc : Thread nD τ).loc main_arg1)) (m ((c.tc : Thread nD τ).loc main_arg5)) (m ((c.tc : Thread nD τ).loc main_arg6))) (betaRows (m ((c.tc : Thread nD τ).loc main_arg1)) (m ((c.tc : Thread nD τ).loc main_arg5)) (m ((c.tc : Thread nD τ).loc main_arg6))) := by
  rw [W3_out, final1 (V2 m ρ) c, found_v0, found_v13, found_v11, found_v12, found_arg8, found_v9, found_v10]

/-- The transposed spatial features read at an index: entry (b, c', i, j) is feature c' of the pair (i, j). -/
theorem spatial_at (c : Dev nD) (b : Fin 16) (c' : Fin 8) (i j : Fin 160) :
    transpose S16x8x160x160 [0, 3, 1, 2] (m ((c.tc : Thread nD τ).loc main_arg2)) transposes_S16x160x160x8_S16x8x160x160_0_3_1_2 (ix4 b c' i j)
      = (m ((c.tc : Thread nD τ).loc main_arg2)) (ix4 b i j c') :=
  spatialT_apply _ _ b c' i j

/-- THE RESULT BUFFER at the end is `G` of the launch arguments. -/
theorem result_eq (c : Dev nD) :
    (W4 m ρ c (Proc.devRef .tc main_v15) : S409600x128.Idx → EReal)
      = Cert.PairFilm.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps2 (W3 m ρ c) (Proc.devRef .tc main_v15) = _
  after_results
  funext q
  show shapeCast S409600x128 (W3 m ρ c (Proc.devRef .tc main_v14)) shapeCasts_S16x160x160x128_S409600x128 q = _
  rw [out_eq, flatten_apply, pairArr_ix4]
  unfold pairAt
  simp only [projArr_ix3, spatial_at m c, wfilmTop_apply, wfilmBot_apply, gammaRows_apply, betaRows_apply]
  rfl

end Cert.KernelIdeal.Hand

end
-- ==== Proof.RefValue.lean ====
/-
  The reference program computes the specification `G`, index by index, on the extended reals.

  Read stage by stage.  The node projection is a sum over the 1024 input features plus a bias, rectified
  (`node`).  The conditioning vector's affine image splits in two halves, the first shifted by the word of one
  (`gamma`, `beta`).  The pairs' array joins, along its last axis, the channelwise product of two projected
  node rows (positions below 128) and the eight spatial features (positions 128 to 135); viewed with a batch
  element's pairs in one list, pair number `m` is the pair `(m / 160, m % 160)`.  Its product with the
  136 x 128 matrix is a sum of 136 terms, which is the sum of the first 128 plus the last eight added one
  after the other from zero — a law of a commutative additive monoid, so it holds with infinite terms
  (`sum136_split`) — and this is the specification's `row`.  The mean and the variance are sums over the 128
  channels that start from the zero word, which is the extended real 0, divided by the word of 128; the tail is
  the specification's `normFilm`.  The last step lists all batch elements' pairs in one list of rows: row
  `q0` is batch element `q0 / 25600` and pair number `q0 % 25600`, and
  `(q0 % 25600) / 160 = q0 / 160 % 160`, `(q0 % 25600) % 160 = q0 % 160`.

  No float word is evaluated except the zero word where a sum starts from it.
-/
import proofs.«172288_j79517024518197_2_alg».proof.Proof.Gen.ReferenceIdeal.Read
import proofs.«172288_j79517024518197_2_alg».proof.Proof.Spec

noncomputable section

namespace Cert.PairFilm.Ref

open Cert.ReferenceIdeal Cert.ReferenceIdeal.Gen Cert.ReferenceIdeal.Read Idealize.ShloMosaic Idealize.ShloMosaic.ValueIdx

/-- A sum over 136 terms is the sum of the first 128 plus the last eight, the eight added one after the other
    starting from the zero word (which is the extended real 0). -/
theorem sum136_split (f : Fin 136 → EReal) :
    ∑ k : Fin 136, f k
      = (∑ e : Fin 128, f ⟨e.val, by omega⟩)
        + ((((((((wZero + f ⟨128, by omega⟩) + f ⟨129, by omega⟩) + f ⟨130, by omega⟩) + f ⟨131, by omega⟩)
            + f ⟨132, by omega⟩) + f ⟨133, by omega⟩) + f ⟨134, by omega⟩) + f ⟨135, by omega⟩) := by
  have h := Fin.sum_univ_add (M := EReal) (a := 128) (b := 8) f
  rw [Fin.sum_univ_eight] at h
  rw [show wZero = (0 : EReal) from Ideal.ofBits_zero_f32, zero_add]
  exact h

/-- The rectified node projection, read at batch element `b`, node `n`, channel `e`. -/
theorem v4_apply (x0 : S16x160x1024.Idx → EReal) (x3 : S1024x128.Idx → EReal) (x4 : S128.Idx → EReal)
    (b : Fin 16) (n : Fin 160) (e : Fin 128) :
    val_main_v4 (F := Ideal) x0 x3 x4 (ix3 b n e) = node x0 x3 x4 b n e := by
  have el : ∀ k : Fin 1024, lidx_main_v0 (ix3 b n e) k = ix3 b n k := fun k =>
    funext fun a => Fin.ext (by match a with | ⟨0, _⟩ => rfl | ⟨1, _⟩ => rfl | ⟨2, _⟩ => rfl)
  have er : ∀ k : Fin 1024, ridx_main_v0 (ix3 b n e) k = ix2 k e := fun k =>
    funext fun a => Fin.ext (by match a with | ⟨0, _⟩ => rfl | ⟨1, _⟩ => rfl)
  have eb : idx_main_v1 (idx_main_v2 (ix3 b n e)) = ix1 e :=
    funext fun a => Fin.ext (by match a with | ⟨0, _⟩ => rfl)
  rw [val_main_v4_apply, val_main_v3_apply, val_main_v0_apply, val_main_v2_apply, val_main_v1_apply,
    val_main_call0_v0_apply, val_main_call0_cst_apply, eb]
  simp only [el, er, Ideal.maximumf_def, Ideal.addf_def, Ideal.ofBits_def]
  rfl

/-- The conditioning vector's affine image, read at batch element `b`, entry `j`. -/
theorem v15_apply (x1 : S16x1024.Idx → EReal) (x5 : S1024x256.Idx → EReal) (x6 : S256.Idx → EReal)
    (b : Fin 16) (j : Fin 256) :
    val_main_v15 (F := Ideal) x1 x5 x6 (ix2 b j) = cond x1 x5 x6 b j := by
  have el : ∀ k : Fin 1024, lidx_main_v12 (ix2 b j) k = ix2 b k := fun k =>
    funext fun a => Fin.ext (by match a with | ⟨0, _⟩ => rfl | ⟨1, _⟩ => rfl)
  have er : ∀ k : Fin 1024, ridx_main_v12 (ix2 b j) k = ix2 k j := fun k =>
    funext fun a => Fin.ext (by match a with | ⟨0, _⟩ => rfl | ⟨1, _⟩ => rfl)
  have eb : idx_main_v13 (idx_main_v14 (ix2 b j)) = ix1 j :=
    funext fun a => Fin.ext (by match a with | ⟨0, _⟩ => rfl)
  rw [val_main_v15_apply, val_main_v12_apply, val_main_v14_apply, val_main_v13_apply, eb]
  simp only [el, er, Ideal.addf_def]
  rfl

/-- The scale: the first half of the affine image, plus the word of one. -/
theorem v19_apply (x1 : S16x1024.Idx → EReal) (x5 : S1024x256.Idx → EReal) (x6 : S256.Idx → EReal)
    (b : Fin 16) (o : Fin 128) :
    val_main_v19 (F := Ideal) x1 x5 x6 (ix2 b o) = gamma x1 x5 x6 b o := by
  have e16 : idx_main_v16 (ix2 b o) = ix2 b (⟨o.val, by omega⟩ : Fin 256) :=
    funext fun a => Fin.ext (by match a with | ⟨0, _⟩ => rfl | ⟨1, _⟩ => rfl)
  rw [val_main_v19_apply, val_main_v16_apply, e16, v15_apply, val_main_v18_apply, val_main_cst_apply]
  simp only [Ideal.addf_def, Ideal.ofBits_def]
  rfl

/-- The shift: the second half of the affine image. -/
theorem v17_apply (x1 : S16x1024.Idx → EReal) (x5 : S1024x256.Idx → EReal) (x6 : S256.Idx → EReal)
    (b : Fin 16) (o : Fin 128) :
    val_main_v17 (F := Ideal) x1 x5 x6 (ix2 b o) = beta x1 x5 x6 b o := by
  have e17 : idx_main_v17 (ix2 b o) = ix2 b (⟨128 + o.val, by omega⟩ : Fin 256) :=
    funext fun a => Fin.ext (by match a with | ⟨0, _⟩ => rfl | ⟨1, _⟩ => rfl)
  rw [val_main_v17_apply, e17, v15_apply]
  rfl

/-- The channelwise product of two nodes' projected rows, read at batch element `b`, pair `(i, j)`, channel `e`. -/
theorem v9_apply (x0 : S16x160x1024.Idx → EReal) (x3 : S1024x128.Idx → EReal) (x4 : S128.Idx → EReal)
    (b : Fin 16) (i j : Fin 160) (e : Fin 128) :
    val_main_v9 (F := Ideal) x0 x3 x4 (ix4 b i j e) = node x0 x3 x4 b i e * node x0 x3 x4 b j e := by
  have e7 : idx_main_v5 (idx_main_v7 (ix4 b i j e)) = ix3 b i e :=
    funext fun a => Fin.ext (by match a with | ⟨0, _⟩ => rfl | ⟨1, _⟩ => rfl | ⟨2, _⟩ => rfl)
  have e8 : idx_main_v6 (idx_main_v8 (ix4 b i j e)) = ix3 b j e :=
    funext fun a => Fin.ext (by match a with | ⟨0, _⟩ => rfl | ⟨1, _⟩ => rfl | ⟨2, _⟩ => rfl)
  rw [val_main_v9_apply, val_main_v7_apply, val_main_v5_apply, e7, val_main_v8_apply, val_main_v6_apply, e8,
    v4_apply, v4_apply]
  rfl

/-- The joined array at a last coordinate below 128: the product array there. -/
theorem v10_left (x0 : S16x160x1024.Idx → EReal) (x2 : S16x160x160x8.Idx → EReal) (x3 : S1024x128.Idx → EReal)
    (x4 : S128.Idx → EReal) (b : Fin 16) (i j : Fin 160) (e : Fin 128) :
    val_main_v10 (F := Ideal) x0 x2 x3 x4 (ix4 b i j (⟨e.val, by omega⟩ : Fin 136))
      = val_main_v9 (F := Ideal) x0 x3 x4 (ix4 b i j e) := by
  unfold val_main_v10
  generalize val_main_v9 (F := Ideal) x0 x3 x4 = y
  exact concatenate_pair_apply_left (t := S16x160x160x136) (s₁ := S16x160x160x128) (s₂ := S16x160x160x8) 3 y x2
    concatenates_S16x160x160x128_S16x160x160x8_S16x160x160x136_d3 (ix4 b i j (⟨e.val, by omega⟩ : Fin 136)) rfl
    (ix4 b i j e) (fun c => by
      match c with
      | ⟨0, _⟩ => rfl
      | ⟨1, _⟩ => rfl
      | ⟨2, _⟩ => rfl
      | ⟨3, _⟩ => rfl)

/-- The joined array at a last coordinate from 128 on: the spatial array, 128 less. -/
theorem v10_right (x0 : S16x160x1024.Idx → EReal) (x2 : S16x160x160x8.Idx → EReal) (x3 : S1024x128.Idx → EReal)
    (x4 : S128.Idx → EReal) (b : Fin 16) (i j : Fin 160) (c : Fin 8) :
    val_main_v10 (F := Ideal) x0 x2 x3 x4 (ix4 b i j (⟨128 + c.val, by omega⟩ : Fin 136))
      = x2 (ix4 b i j c) := by
  unfold val_main_v10
  generalize val_main_v9 (F := Ideal) x0 x3 x4 = y
  exact concatenate_pair_apply_right (t := S16x160x160x136) (s₁ := S16x160x160x128) (s₂ := S16x160x160x8) 3 y x2
    concatenates_S16x160x160x128_S16x160x160x8_S16x160x160x136_d3 (ix4 b i j (⟨128 + c.val, by omega⟩ : Fin 136)) rfl rfl
    (ix4 b i j c)
    (fun d hd => by
      match d with
      | ⟨0, _⟩ => rfl
      | ⟨1, _⟩ => rfl
      | ⟨2, _⟩ => rfl
      | ⟨3, _⟩ => exact absurd rfl hd)
    (by show c.val + 128 = 128 + c.val; omega)

/-- The joined array viewed with the pairs of a batch element in one list: pair number `m` is the pair
    `(m / 160, m % 160)`. -/
theorem v11_apply (x0 : S16x160x1024.Idx → EReal) (x2 : S16x160x160x8.Idx → EReal) (x3 : S1024x128.Idx → EReal)
    (x4 : S128.Idx → EReal) (b : Fin 16) (m : Fin 25600) (k : Fin 136) :
    val_main_v11 (F := Ideal) x0 x2 x3 x4 (ix3 b m k)
      = val_main_v10 (F := Ideal) x0 x2 x3 x4
          (ix4 b (⟨m.val / 160, by omega⟩ : Fin 160) (⟨m.val % 160, by omega⟩ : Fin 160) k) := by
  have e : idx_main_v11 (ix3 b m k)
      = ix4 b (⟨m.val / 160, by omega⟩ : Fin 160) (⟨m.val % 160, by omega⟩ : Fin 160) k :=
    funext fun a => Fin.ext (by
      have hb := b.isLt; have hm := m.isLt; have hk := k.isLt
      match a with
      | ⟨0, _⟩ => show ((b.val * 25600 + m.val) * 136 + k.val) / 3481600 = b.val; omega
      | ⟨1, _⟩ => show ((b.val * 25600 + m.val) * 136 + k.val) / 21760 % 160 = m.val / 160; omega
      | ⟨2, _⟩ => show ((b.val * 25600 + m.val) * 136 + k.val) / 136 % 160 = m.val % 160; omega
      | ⟨3, _⟩ => show ((b.val * 25600 + m.val) * 136 + k.val) % 136 = k.val; omega)
  rw [val_main_v11_apply, e]

/-- The pair's 128-vector before normalisation: batch element `b`, pair number `m`, channel `o`. -/
theorem v23_apply (x0 : S16x160x1024.Idx → EReal) (x2 : S16x160x160x8.Idx → EReal) (x3 : S1024x128.Idx → EReal)
    (x4 : S128.Idx → EReal) (x7 : S136x128.Idx → EReal) (x8 : S128.Idx → EReal)
    (b : Fin 16) (m : Fin 25600) (o : Fin 128) :
    val_main_v23 (F := Ideal) x0 x2 x3 x4 x7 x8 (ix3 b m o)
      = row (fun n e => node x0 x3 x4 b n e) (fun i' j' c => x2 (ix4 b i' j' c)) x7 x8
          (⟨m.val / 160, by omega⟩ : Fin 160) (⟨m.val % 160, by omega⟩ : Fin 160) o := by
  have el : ∀ k : Fin 136, lidx_main_v20 (ix3 b m o) k = ix3 b m k := fun k =>
    funext fun a => Fin.ext (by match a with | ⟨0, _⟩ => rfl | ⟨1, _⟩ => rfl | ⟨2, _⟩ => rfl)
  have er : ∀ k : Fin 136, ridx_main_v20 (ix3 b m o) k = ix2 k o := fun k =>
    funext fun a => Fin.ext (by match a with | ⟨0, _⟩ => rfl | ⟨1, _⟩ => rfl)
  have eb : idx_main_v21 (idx_main_v22 (ix3 b m o)) = ix1 o :=
    funext fun a => Fin.ext (by match a with | ⟨0, _⟩ => rfl)
  -- the eight spatial positions of the joined axis
  have r0 : ∀ i j : Fin 160, val_main_v10 (F := Ideal) x0 x2 x3 x4 (ix4 b i j (⟨128, by omega⟩ : Fin 136))
      = x2 (ix4 b i j (0 : Fin 8)) := fun i j => v10_right x0 x2 x3 x4 b i j 0
  have r1 : ∀ i j : Fin 160, val_main_v10 (F := Ideal) x0 x2 x3 x4 (ix4 b i j (⟨129, by omega⟩ : Fin 136))
      = x2 (ix4 b i j (1 : Fin 8)) := fun i j => v10_right x0 x2 x3 x4 b i j 1
  have r2 : ∀ i j : Fin 160, val_main_v10 (F := Ideal) x0 x2 x3 x4 (ix4 b i j (⟨130, by omega⟩ : Fin 136))
      = x2 (ix4 b i j (2 : Fin 8)) := fun i j => v10_right x0 x2 x3 x4 b i j 2
  have r3 : ∀ i j : Fin 160, val_main_v10 (F := Ideal) x0 x2 x3 x4 (ix4 b i j (⟨131, by omega⟩ : Fin 136))
      = x2 (ix4 b i j (3 : Fin 8)) := fun i j => v10_right x0 x2 x3 x4 b i j 3
  have r4 : ∀ i j : Fin 160, val_main_v10 (F := Ideal) x0 x2 x3 x4 (ix4 b i j (⟨132, by omega⟩ : Fin 136))
      = x2 (ix4 b i j (4 : Fin 8)) := fun i j => v10_right x0 x2 x3 x4 b i j 4
  have r5 : ∀ i j : Fin 160, val_main_v10 (F := Ideal) x0 x2 x3 x4 (ix4 b i j (⟨133, by omega⟩ : Fin 136))
      = x2 (ix4 b i j (5 : Fin 8)) := fun i j => v10_right x0 x2 x3 x4 b i j 5
  have r6 : ∀ i j : Fin 160, val_main_v10 (F := Ideal) x0 x2 x3 x4 (ix4 b i j (⟨134, by omega⟩ : Fin 136))
      = x2 (ix4 b i j (6 : Fin 8)) := fun i j => v10_right x0 x2 x3 x4 b i j 6
  have r7 : ∀ i j : Fin 160, val_main_v10 (F := Ideal) x0 x2 x3 x4 (ix4 b i j (⟨135, by omega⟩ : Fin 136))
      = x2 (ix4 b i j (7 : Fin 8)) := fun i j => v10_right x0 x2 x3 x4 b i j 7
  rw [val_main_v23_apply, val_main_v20_apply, val_main_v22_apply, val_main_v21_apply, eb]
  simp only [el, er, v11_apply]
  rw [sum136_split]
  simp only [v10_left, v9_apply]
  rw [r0, r1, r2, r3, r4, r5, r6, r7]
  rfl

/-- The mean of the pair's 128-vector: its sum from the zero word, divided by the word of 128. -/
theorem v27_apply' (x0 : S16x160x1024.Idx → EReal) (x2 : S16x160x160x8.Idx → EReal) (x3 : S1024x128.Idx → EReal)
    (x4 : S128.Idx → EReal) (x7 : S136x128.Idx → EReal) (x8 : S128.Idx → EReal)
    (b : Fin 16) (m : Fin 25600) :
    val_main_v27 (F := Ideal) x0 x2 x3 x4 x7 x8 (ix3 b m (0 : Fin 1))
      = mean (fun o' : Fin 128 => val_main_v23 (F := Ideal) x0 x2 x3 x4 x7 x8 (ix3 b m o')) := by
  have e25 : idx_main_v25 (ix3 b m (0 : Fin 1)) = ix2 b m :=
    funext fun a => Fin.ext (by match a with | ⟨0, _⟩ => rfl | ⟨1, _⟩ => rfl)
  have e24 : ∀ k : Fin 128, idx_main_v24 (ix2 b m) k = ix3 b m k := fun k =>
    funext fun a => Fin.ext (by match a with | ⟨0, _⟩ => rfl | ⟨1, _⟩ => rfl | ⟨2, _⟩ => rfl)
  rw [val_main_v27_apply, val_main_v25_apply, e25, val_main_v24_apply, val_main_cst_0_apply, val_main_v26_apply,
    val_main_cst_1_apply]
  generalize val_main_v23 (F := Ideal) x0 x2 x3 x4 x7 x8 = y
  simp only [e24, Ideal.hostDivf_def, Ideal.ofBits_def, Ideal.ofBits_zero_f32, zero_add, mean]

/-- The centred vector (as the variance reads it). -/
theorem v29_apply' (x0 : S16x160x1024.Idx → EReal) (x2 : S16x160x160x8.Idx → EReal) (x3 : S1024x128.Idx → EReal)
    (x4 : S128.Idx → EReal) (x7 : S136x128.Idx → EReal) (x8 : S128.Idx → EReal)
    (b : Fin 16) (m : Fin 25600) (o : Fin 128) :
    val_main_v29 (F := Ideal) x0 x2 x3 x4 x7 x8 (ix3 b m o)
      = val_main_v23 (F := Ideal) x0 x2 x3 x4 x7 x8 (ix3 b m o) - mean (fun o' : Fin 128 => val_main_v23 (F := Ideal) x0 x2 x3 x4 x7 x8 (ix3 b m o')) := by
  have e28 : idx_main_v28 (ix3 b m o) = ix3 b m (0 : Fin 1) :=
    funext fun a => Fin.ext (by match a with | ⟨0, _⟩ => rfl | ⟨1, _⟩ => rfl | ⟨2, _⟩ => rfl)
  rw [val_main_v29_apply, val_main_v28_apply, e28, v27_apply']
  generalize val_main_v23 (F := Ideal) x0 x2 x3 x4 x7 x8 = y
  simp only [Ideal.subf_def]

/-- The centred vector (as the normalisation reads it). -/
theorem v36_apply' (x0 : S16x160x1024.Idx → EReal) (x2 : S16x160x160x8.Idx → EReal) (x3 : S1024x128.Idx → EReal)
    (x4 : S128.Idx → EReal) (x7 : S136x128.Idx → EReal) (x8 : S128.Idx → EReal)
    (b : Fin 16) (m : Fin 25600) (o : Fin 128) :
    val_main_v36 (F := Ideal) x0 x2 x3 x4 x7 x8 (ix3 b m o)
      = val_main_v23 (F := Ideal) x0 x2 x3 x4 x7 x8 (ix3 b m o) - mean (fun o' : Fin 128 => val_main_v23 (F := Ideal) x0 x2 x3 x4 x7 x8 (ix3 b m o')) := by
  have e35 : idx_main_v35 (ix3 b m o) = ix3 b m (0 : Fin 1) :=
    funext fun a => Fin.ext (by match a with | ⟨0, _⟩ => rfl | ⟨1, _⟩ => rfl | ⟨2, _⟩ => rfl)
  rw [val_main_v36_apply, val_main_v35_apply, e35, v27_apply']
  generalize val_main_v23 (F := Ideal) x0 x2 x3 x4 x7 x8 = y
  simp only [Ideal.subf_def]

/-- The sum of the squared centred entries, from the zero word. -/
theorem v31_apply' (x0 : S16x160x1024.Idx → EReal) (x2 : S16x160x160x8.Idx → EReal) (x3 : S1024x128.Idx → EReal)
    (x4 : S128.Idx → EReal) (x7 : S136x128.Idx → EReal) (x8 : S128.Idx → EReal)
    (b : Fin 16) (m : Fin 25600) :
    val_main_v31 (F := Ideal) x0 x2 x3 x4 x7 x8 (ix2 b m)
      = ∑ k : Fin 128, (val_main_v23 (F := Ideal) x0 x2 x3 x4 x7 x8 (ix3 b m k) - mean (fun o' : Fin 128 => val_main_v23 (F := Ideal) x0 x2 x3 x4 x7 x8 (ix3 b m o')))
          * (val_main_v23 (F := Ideal) x0 x2 x3 x4 x7 x8 (ix3 b m k) - mean (fun o' : Fin 128 => val_main_v23 (F := Ideal) x0 x2 x3 x4 x7 x8 (ix3 b m o'))) := by
  have e31 : ∀ k : Fin 128, idx_main_v31 (ix2 b m) k = ix3 b m k := fun k =>
    funext fun a => Fin.ext (by match a with | ⟨0, _⟩ => rfl | ⟨1, _⟩ => rfl | ⟨2, _⟩ => rfl)
  have e30 : ∀ k : Fin 128, val_main_v30 (F := Ideal) x0 x2 x3 x4 x7 x8 (ix3 b m k)
      = (val_main_v23 (F := Ideal) x0 x2 x3 x4 x7 x8 (ix3 b m k) - mean (fun o' : Fin 128 => val_main_v23 (F := Ideal) x0 x2 x3 x4 x7 x8 (ix3 b m o')))
          * (val_main_v23 (F := Ideal) x0 x2 x3 x4 x7 x8 (ix3 b m k) - mean (fun o' : Fin 128 => val_main_v23 (F := Ideal) x0 x2 x3 x4 x7 x8 (ix3 b m o'))) := fun k => by
    rw [val_main_v30_apply, v29_apply']
    generalize val_main_v23 (F := Ideal) x0 x2 x3 x4 x7 x8 = y
    simp only [Ideal.mulf_def]
  rw [val_main_v31_apply, val_main_cst_2_apply]
  simp only [e31, e30]
  generalize val_main_v23 (F := Ideal) x0 x2 x3 x4 x7 x8 = y
  simp only [Ideal.ofBits_def, Ideal.ofBits_zero_f32, zero_add]

/-- The reciprocal square root of the variance plus the additive constant. -/
theorem v39_apply' (x0 : S16x160x1024.Idx → EReal) (x2 : S16x160x160x8.Idx → EReal) (x3 : S1024x128.Idx → EReal)
    (x4 : S128.Idx → EReal) (x7 : S136x128.Idx → EReal) (x8 : S128.Idx → EReal)
    (b : Fin 16) (m : Fin 25600) :
    val_main_v39 (F := Ideal) x0 x2 x3 x4 x7 x8 (ix3 b m (0 : Fin 1))
      = Ideal.rsqrt (Ideal.div (∑ k : Fin 128, (val_main_v23 (F := Ideal) x0 x2 x3 x4 x7 x8 (ix3 b m k) - mean (fun o' : Fin 128 => val_main_v23 (F := Ideal) x0 x2 x3 x4 x7 x8 (ix3 b m o')))
          * (val_main_v23 (F := Ideal) x0 x2 x3 x4 x7 x8 (ix3 b m k) - mean (fun o' : Fin 128 => val_main_v23 (F := Ideal) x0 x2 x3 x4 x7 x8 (ix3 b m o')))) wChan + wEps) := by
  have e32 : idx_main_v32 (ix3 b m (0 : Fin 1)) = ix2 b m :=
    funext fun a => Fin.ext (by match a with | ⟨0, _⟩ => rfl | ⟨1, _⟩ => rfl)
  rw [val_main_v39_apply, val_main_v38_apply, val_main_v34_apply, val_main_v32_apply, e32, v31_apply',
    val_main_v33_apply, val_main_cst_3_apply, val_main_v37_apply, val_main_cst_4_apply]
  generalize val_main_v23 (F := Ideal) x0 x2 x3 x4 x7 x8 = y
  simp only [Ideal.hostUnary_rsqrt_def, Ideal.addf_def, Ideal.hostDivf_def, Ideal.ofBits_def]

/-- The normalised, scaled, shifted and rectified vector: batch element `b`, pair number `m`, channel `o`. -/
theorem v48_apply' (x0 : S16x160x1024.Idx → EReal) (x1 : S16x1024.Idx → EReal) (x2 : S16x160x160x8.Idx → EReal)
    (x3 : S1024x128.Idx → EReal) (x4 : S128.Idx → EReal) (x5 : S1024x256.Idx → EReal) (x6 : S256.Idx → EReal)
    (x7 : S136x128.Idx → EReal) (x8 : S128.Idx → EReal)
    (b : Fin 16) (m : Fin 25600) (o : Fin 128) :
    val_main_v48 (F := Ideal) x0 x1 x2 x3 x4 x5 x6 x7 x8 (ix3 b m o)
      = normFilm (fun o' : Fin 128 => val_main_v23 (F := Ideal) x0 x2 x3 x4 x7 x8 (ix3 b m o'))
          (val_main_v19 (F := Ideal) x1 x5 x6 (ix2 b o)) (val_main_v17 (F := Ideal) x1 x5 x6 (ix2 b o)) o := by
  have e43 : idx_main_v42 (idx_main_v43 (ix3 b m o)) = ix2 b o :=
    funext fun a => Fin.ext (by match a with | ⟨0, _⟩ => rfl | ⟨1, _⟩ => rfl)
  have e46 : idx_main_v45 (idx_main_v46 (ix3 b m o)) = ix2 b o :=
    funext fun a => Fin.ext (by match a with | ⟨0, _⟩ => rfl | ⟨1, _⟩ => rfl)
  have e40 : idx_main_v40 (ix3 b m o) = ix3 b m (0 : Fin 1) :=
    funext fun a => Fin.ext (by match a with | ⟨0, _⟩ => rfl | ⟨1, _⟩ => rfl | ⟨2, _⟩ => rfl)
  rw [val_main_v48_apply, val_main_v47_apply, val_main_v44_apply, val_main_v43_apply, val_main_v42_apply, e43,
    val_main_v41_apply, v36_apply', val_main_v40_apply, e40, v39_apply', val_main_v46_apply, val_main_v45_apply,
    e46, val_main_call1_v0_apply, val_main_call1_cst_apply]
  generalize val_main_v23 (F := Ideal) x0 x2 x3 x4 x7 x8 = y
  generalize val_main_v19 (F := Ideal) x1 x5 x6 = g
  generalize val_main_v17 (F := Ideal) x1 x5 x6 = bt
  simp only [Ideal.maximumf_def, Ideal.addf_def, Ideal.mulf_def, Ideal.ofBits_def, normFilm]

/-- THE REFERENCE IS `G`: the reference program's result, index by index, is the specification.  Row `q0` of the
    result is batch element `q0 / 25600`, pair number `q0 % 25600`, that is the pair
    `((q0 % 25600) / 160, (q0 % 25600) % 160) = (q0 / 160 % 160, q0 % 160)`. -/
theorem ref_eq (x0 : S16x160x1024.Idx → EReal) (x1 : S16x1024.Idx → EReal) (x2 : S16x160x160x8.Idx → EReal)
    (x3 : S1024x128.Idx → EReal) (x4 : S128.Idx → EReal) (x5 : S1024x256.Idx → EReal) (x6 : S256.Idx → EReal)
    (x7 : S136x128.Idx → EReal) (x8 : S128.Idx → EReal) :
    val_main_v49 (F := Ideal) x0 x1 x2 x3 x4 x5 x6 x7 x8 = G x0 x1 x2 x3 x4 x5 x6 x7 x8 := by
  funext q
  obtain ⟨q0, q1, rfl⟩ : ∃ (q0 : Fin 409600) (q1 : Fin 128), q = ix2 q0 q1 := ⟨q 0, q 1, eq_ix2 q⟩
  have e49 : idx_main_v49 (ix2 q0 q1)
      = ix3 (⟨q0.val / 25600, by omega⟩ : Fin 16) (⟨q0.val % 25600, by omega⟩ : Fin 25600) q1 :=
    funext fun a => Fin.ext (by
      have h0 := q0.isLt; have h1 := q1.isLt
      match a with
      | ⟨0, _⟩ => show (q0.val * 128 + q1.val) / 3276800 = q0.val / 25600; omega
      | ⟨1, _⟩ => show (q0.val * 128 + q1.val) / 128 % 25600 = q0.val % 25600; omega
      | ⟨2, _⟩ => show (q0.val * 128 + q1.val) % 128 = q1.val; omega)
  have hr : ∀ o' : Fin 128,
      val_main_v23 (F := Ideal) x0 x2 x3 x4 x7 x8 (ix3 (⟨q0.val / 25600, by omega⟩ : Fin 16) (⟨q0.val % 25600, by omega⟩ : Fin 25600) o')
        = row (fun n e => node x0 x3 x4 (⟨q0.val / 25600, by omega⟩ : Fin 16) n e)
            (fun i' j' c => x2 (ix4 (⟨q0.val / 25600, by omega⟩ : Fin 16) i' j' c)) x7 x8
            (⟨q0.val / 160 % 160, Nat.mod_lt _ (by norm_num)⟩ : Fin 160)
            (⟨q0.val % 160, Nat.mod_lt _ (by norm_num)⟩ : Fin 160) o' := fun o' => by
    rw [v23_apply]
    congr 1
    · exact Fin.ext (by show q0.val % 25600 / 160 = q0.val / 160 % 160; omega)
    · exact Fin.ext (by show q0.val % 25600 % 160 = q0.val % 160; omega)
  rw [val_main_v49_apply, e49, v48_apply']
  simp only [hr, v19_apply, v17_apply]
  rfl

end Cert.PairFilm.Ref

end
-- ==== Proof.lean ====
/-
  The certificate: a batch of graphs' pairwise edge features — projected node rows multiplied channelwise for every
  ordered pair, joined with the pair's spatial features, mapped by one matrix, normalised over the channels, scaled and
  shifted per batch element, rectified — computed by two kernel regions against one host program.

  Frames.  Each kernel program is two regions among host stretches; its run is assembled region by region (the body's
  run at every grid point, the arrays split off the core's buffers at entry and put back at exit; in the second
  region the array of projected rows is read through two windows, each holding one half of the full share), once
  for the word-level program and once for the idealized one.  The reference's frame is its run with the result dropped.

  Values.  At the ideal instance the idealized kernel program's result buffer ends at the function `G` of the
  nine arguments (Proof/Spec.lean): the two regions' write-backs cover their output arrays block by block, each
  block the body's stored value of the blocks it read; the reference's run ends at the same `G`.  The only law
  between the two arrangements is that a sum over the 136 joined features is the sum over the 128 product channels
  plus the eight spatial terms added one after the other from zero: addition alone, valid on the extended reals
  without any finiteness, so the precondition is never opened.  No operation was rewritten by the ideal pass, so
  `preserves` asks nothing.
-/
import proofs.«172288_j79517024518197_2_alg».proof.Defs
import proofs.«172288_j79517024518197_2_alg».proof.Proof.Gen.Kernel
import proofs.«172288_j79517024518197_2_alg».proof.Proof.Gen.KernelIdeal
import proofs.«172288_j79517024518197_2_alg».proof.Proof.Gen.ReferenceIdeal
import proofs.«172288_j79517024518197_2_alg».proof.Proof.Gen.Pre_finite_inputs
import proofs.«172288_j79517024518197_2_alg».proof.Proof.BitsRun
import proofs.«172288_j79517024518197_2_alg».proof.Proof.IdealValue
import proofs.«172288_j79517024518197_2_alg».proof.Proof.RefValue

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Hand.frame m ρ
theorem frame_ki [Cert.KernelIdeal.Facts] [Cert.Pre_finite_inputs.Facts] : Cert.frame_KernelIdeal := fun m ρ _ => Cert.KernelIdeal.Hand.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with `G` of the arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.PairFilm.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨?_, ?_⟩) (Cert.KernelIdeal.Hand.run_all (F := Ideal) m ρ)
    · exact (h c _ (Cert.KernelIdeal.Hand.mem_uc Cert.KernelIdeal.main_v15 (by decide))).trans (Cert.KernelIdeal.Hand.result_eq m ρ c)
    · exact ⟨(h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c),
        (h c _ (Cert.KernelIdeal.Hand.mem_uc Cert.KernelIdeal.main_arg5 (by decide))).trans (Cert.KernelIdeal.Hand.W4_main_arg5 m ρ c),
        (h c _ (Cert.KernelIdeal.Hand.mem_uc Cert.KernelIdeal.main_arg6 (by decide))).trans (Cert.KernelIdeal.Hand.W4_main_arg6 m ρ c),
        (h c _ (Cert.KernelIdeal.Hand.mem_uc Cert.KernelIdeal.main_arg7 (by decide))).trans (Cert.KernelIdeal.Hand.W4_main_arg7 m ρ c),
        (h c _ (Cert.KernelIdeal.Hand.mem_uc Cert.KernelIdeal.main_arg8 (by decide))).trans (Cert.KernelIdeal.Hand.W4_main_arg8 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, Cert.PairFilm.Ref.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
